-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S2048x3 : Shape := ⟨2, ![2048, 3]⟩
abbrev S64x3 : Shape := ⟨2, ![64, 3]⟩
abbrev S64 : Shape := ⟨1, ![64]⟩
abbrev S128x46 : Shape := ⟨2, ![128, 46]⟩
abbrev S46 : Shape := ⟨1, ![46]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S64x3 : S_.BroadcastsInDim S64x3 (![] : Fin 0 → Fin S64x3.rank)
  reducesTo_S64x3_S_d0_1 : S64x3.ReducesTo [0, 1] S_
  bcast_S_S128x46 : S_.BroadcastsInDim S128x46 (![] : Fin 0 → Fin S128x46.rank)
  reducesTo_S128x46_S_d0_1 : S128x46.ReducesTo [0, 1] S_
  bcast_S_S46 : S_.BroadcastsInDim S46 (![] : Fin 0 → Fin S46.rank)
  reducesTo_S46_S_d0 : S46.ReducesTo [0] S_

variable [Facts]

def fn_part1 {F : FTy → Type} [FloatOps F] (main_arg6 : FVec F S46 .f32) (main_v13 : IVec S_ 1) (main_v16 : IVec S128x46 1) : IVec S_ 1 :=
  let main_c_5 : IVec S_ 1 := constantI S_ 1 1#1
  let main_v17 : IVec S_ 1 := (fun x v => Host.reduce IntOp.andi x v reducesTo_S128x46_S_d0_1 h_S_) main_v16 main_c_5
  let main_v18 : IVec S_ 1 := andi main_v13 main_v17
  let main_v19 : FVec F S46 .f32 := Host.absf main_arg6
  let main_cst_6 : FVec F S_ .f32 := constant S_ .f32 0x7F800000#32
  let main_v20 : FVec F S46 .f32 := broadcastInDim S46 ![] bcast_S_S46 main_cst_6
  let main_v21 : IVec S46 1 := cmpf .olt main_v19 main_v20
  let main_c_7 : IVec S_ 1 := constantI S_ 1 1#1
  let main_v22 : IVec S_ 1 := (fun x v => Host.reduce IntOp.andi x v reducesTo_S46_S_d0 h_S_) main_v21 main_c_7
  let main_v23 : IVec S_ 1 := andi main_v18 main_v22
  main_v23

def fn {F : FTy → Type} [FloatOps F] (main_arg0 : FVec F S2048x128 .f32) (main_arg1 : IVec S2048 32) (main_arg2 : FVec F S2048x3 .f32) (main_arg3 : FVec F S64x3 .f32) (main_arg4 : IVec S64 32) (main_arg5 : FVec F S128x46 .f32) (main_arg6 : FVec F S46 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x3 .f32 := Host.absf main_arg2
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S128x46 .f32 := Host.absf main_arg5
  let main_cst_4 : FVec F S_ .f32 := constant S_ .f32 0x7F800000#32
  let main_v15 : FVec F S128x46 .f32 := broadcastInDim S128x46 ![] bcast_S_S128x46 main_cst_4
  let main_v16 : IVec S128x46 1 := cmpf .olt main_v14 main_v15
  fn_part1 (F := F) main_arg6 main_v13 main_v16
-- ==== Kernel.lean ====
abbrev S2048x128 : Shape := ⟨2, ![2048, 128]⟩
abbrev S2048 : Shape := ⟨1, ![2048]⟩
abbrev S2048x3 : Shape := ⟨2, ![2048, 3]⟩
abbrev S64x3 : Shape := ⟨2, ![64, 3]⟩
abbrev S64 : Shape := ⟨1, ![64]⟩
abbrev S128x46 : Shape := ⟨2, ![128, 46]⟩
abbrev S46 : Shape := ⟨1, ![46]⟩
abbrev S1 : Shape := ⟨1, ![1]⟩
abbrev S63 : Shape := ⟨1, ![63]⟩
abbrev S_ : Shape := ⟨0, ![]⟩
abbrev S64x1 : Shape := ⟨2, ![64, 1]⟩
abbrev S2048x1 : Shape := ⟨2, ![2048, 1]⟩
abbrev S1x1 : Shape := ⟨2, ![1, 1]⟩
abbrev S1x2048 : Shape := ⟨2, ![1, 2048]⟩
abbrev S64x2048 : Shape := ⟨2, ![64, 2048]⟩
abbrev S2x64x64 : Shape := ⟨3, ![2, 64, 64]⟩
abbrev S512x128 : Shape := ⟨2, ![512, 128]⟩
abbrev S512x3 : Shape := ⟨2, ![512, 3]⟩
abbrev S64x512 : Shape := ⟨2, ![64, 512]⟩
abbrev S1x64x64 : Shape := ⟨3, ![1, 64, 64]⟩
abbrev S64x64 : Shape := ⟨2, ![64, 64]⟩
abbrev S512x46 : Shape := ⟨2, ![512, 46]⟩
abbrev S1x46 : Shape := ⟨2, ![1, 46]⟩
abbrev S512x1 : Shape := ⟨2, ![512, 1]⟩
abbrev S1x64 : Shape := ⟨2, ![1, 64]⟩
abbrev S512x64 : Shape := ⟨2, ![512, 64]⟩
abbrev S512x512 : Shape := ⟨2, ![512, 512]⟩
abbrev S512x384 : Shape := ⟨2, ![512, 384]⟩

abbrev nBuf : Space → Nat
  | .hbm => 70
  | .vmem => 12
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S2048x3, .f32⟩
  | .hbm, ⟨3, _⟩ => ⟨S64x3, .f32⟩
  | .hbm, ⟨4, _⟩ => ⟨S64, .i32⟩
  | .hbm, ⟨5, _⟩ => ⟨S128x46, .f32⟩
  | .hbm, ⟨6, _⟩ => ⟨S46, .f32⟩
  | .hbm, ⟨7, _⟩ => ⟨S64, .i32⟩
  | .hbm, ⟨8, _⟩ => ⟨S1, .i32⟩
  | .hbm, ⟨9, _⟩ => ⟨S63, .i32⟩
  | .hbm, ⟨10, _⟩ => ⟨S64, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S64, .i32⟩
  | .hbm, ⟨15, _⟩ => ⟨S_, .i32⟩
  | .hbm, ⟨16, _⟩ => ⟨S_, .i32⟩
  | .hbm, ⟨17, _⟩ => ⟨S64, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S_, .i32⟩
  | .hbm, ⟨29, _⟩ => ⟨S64, .i32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S1, .i32⟩
  | .hbm, ⟨46, _⟩ => ⟨S_, .i32⟩
  | .hbm, ⟨47, _⟩ => ⟨S2048x1, .i32⟩
  | .hbm, ⟨48, _⟩ => ⟨S2048x1, .i1⟩
  | .hbm, ⟨49, _⟩ => ⟨S1x1, .i32⟩
  | .hbm, ⟨50, _⟩ => ⟨S2048x1, .i32⟩
  | .hbm, ⟨51, _⟩ => ⟨S2048x1, .i1⟩
  | .hbm, ⟨52, _⟩ => ⟨S2048x1, .i1⟩
  | .hbm, ⟨53, _⟩ => ⟨S_, .i1⟩
  | .hbm, ⟨54, _⟩ => ⟨S2048, .i1⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S1x2048, .i32⟩
  | .hbm, ⟨60, _⟩ => ⟨S64, .i32⟩
  | .hbm, ⟨61, _⟩ => ⟨S64x1, .i32⟩
  | .hbm, ⟨62, _⟩ => ⟨S64x2048, .i32⟩
  | .hbm, ⟨63, _⟩ => ⟨S64x2048, .i32⟩
  | .hbm, ⟨64, _⟩ => ⟨S64x2048, .i1⟩
  | .hbm, ⟨65, _⟩ => ⟨S64x2048, .f32⟩
  | .hbm, ⟨66, _⟩ => ⟨S2x64x64, .f32⟩
  | .hbm, ⟨67, _⟩ => ⟨S_, .f32⟩
  | .hbm, ⟨68, _⟩ => ⟨S64x64, .f32⟩
  | .hbm, ⟨69, _⟩ => ⟨S64x2048, .f32⟩
  | .local _ .vmem, ⟨0, _⟩ => ⟨S512x128, .f32⟩
  | .local _ .vmem, ⟨1, _⟩ => ⟨S512x128, .f32⟩
  | .local _ .vmem, ⟨2, _⟩ => ⟨S512x3, .f32⟩
  | .local _ .vmem, ⟨3, _⟩ => ⟨S512x3, .f32⟩
  | .local _ .vmem, ⟨4, _⟩ => ⟨S64x512, .f32⟩
  | .local _ .vmem, ⟨5, _⟩ => ⟨S64x512, .f32⟩
  | .local _ .vmem, ⟨6, _⟩ => ⟨S128x46, .f32⟩
  | .local _ .vmem, ⟨7, _⟩ => ⟨S46, .f32⟩
  | .local _ .vmem, ⟨8, _⟩ => ⟨S64x3, .f32⟩
  | .local _ .vmem, ⟨9, _⟩ => ⟨S1x64x64, .f32⟩
  | .local _ .vmem, ⟨10, _⟩ => ⟨S1x64x64, .f32⟩
  | .local _ .vmem, ⟨11, _⟩ => ⟨S64x64, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst : Ref sig .tc := ⟨.hbm, 67, rfl⟩
abbrev main_v26 : Ref sig .tc := ⟨.hbm, 68, rfl⟩
abbrev main_v27 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x46 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S46 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S512x128_S512x128_0_0 : ∀ a, (![0, 0] : Fin 2 → Nat) a + S512x128.size a ≤ S512x128.size a
  h_S512x128 : 0 < S512x128.numel
  inb_S128x46_S128x46_0_0 : ∀ a, (![0, 0] : Fin 2 → Nat) a + S128x46.size a ≤ S128x46.size a
  h_S128x46 : 0 < S128x46.numel
  inb_S46_S46_0 : ∀ a, (![0] : Fin 1 → Nat) a + S46.size a ≤ S46.size a
  h_S46 : 0 < S46.numel
  shapeCasts_S46_S1x46 : S46.ShapeCasts S1x46
  broadcasts_S1x46_S512x46 : S1x46.Broadcasts S512x46
  inb_S512x3_S512x3_0_0 : ∀ a, (![0, 0] : Fin 2 → Nat) a + S512x3.size a ≤ S512x3.size a
  h_S512x3 : 0 < S512x3.numel
  inb_S64x3_S64x3_0_0 : ∀ a, (![0, 0] : Fin 2 → Nat) a + S64x3.size a ≤ S64x3.size a
  h_S64x3 : 0 < S64x3.numel
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S64x3_o0_0_S64x1 : S64x3.Slices ![0, 0] S64x1
  shapeCasts_S64x1_S64 : S64x1.ShapeCasts S64
  shapeCasts_S64_S1x64 : S64.ShapeCasts S1x64
  slices_S64x3_o0_1_S64x1 : S64x3.Slices ![0, 1] S64x1
  slices_S64x3_o0_2_S64x1 : S64x3.Slices ![0, 2] S64x1
  broadcasts_S512x1_S512x64 : S512x1.Broadcasts S512x64
  broadcasts_S1x64_S512x64 : S1x64.Broadcasts S512x64
  slices_S512x46_o0_0_S512x1 : S512x46.Slices ![0, 0] S512x1
  slices_S512x46_o0_1_S512x1 : S512x46.Slices ![0, 1] S512x1
  slices_S512x46_o0_2_S512x1 : S512x46.Slices ![0, 2] S512x1
  slices_S512x46_o0_3_S512x1 : S512x46.Slices ![0, 3] S512x1
  slices_S512x46_o0_4_S512x1 : S512x46.Slices ![0, 4] S512x1
  slices_S512x46_o0_5_S512x1 : S512x46.Slices ![0, 5] S512x1
  slices_S512x46_o0_6_S512x1 : S512x46.Slices ![0, 6] S512x1
  slices_S512x46_o0_7_S512x1 : S512x46.Slices ![0, 7] S512x1
  slices_S512x46_o0_8_S512x1 : S512x46.Slices ![0, 8] S512x1
  slices_S512x46_o0_9_S512x1 : S512x46.Slices ![0, 9] S512x1
  slices_S512x46_o0_10_S512x1 : S512x46.Slices ![0, 10] S512x1
  slices_S512x46_o0_11_S512x1 : S512x46.Slices ![0, 11] S512x1
  slices_S512x46_o0_12_S512x1 : S512x46.Slices ![0, 12] S512x1
  slices_S512x46_o0_13_S512x1 : S512x46.Slices ![0, 13] S512x1
  slices_S512x46_o0_14_S512x1 : S512x46.Slices ![0, 14] S512x1
  slices_S512x46_o0_15_S512x1 : S512x46.Slices ![0, 15] S512x1
  shapeCasts_S512x1_S512x1 : S512x1.ShapeCasts S512x1
  concatenates_S512x64_S512x64_S512x64_S512x64_S512x64_S512x64_S512x64_S512x64_S512x512_d1 : Shape.Concatenates [S512x64, S512x64, S512x64, S512x64, S512x64, S512x64, S512x64, S512x64] S512x512 1
  slices_S512x512_o0_0_S512x64 : S512x512.Slices ![0, 0] S512x64
  slices_S512x512_o0_64_S512x64 : S512x512.Slices ![0, 64] S512x64
  slices_S512x512_o0_128_S512x64 : S512x512.Slices ![0, 128] S512x64
  slices_S512x512_o0_192_S512x64 : S512x512.Slices ![0, 192] S512x64
  slices_S512x512_o0_256_S512x64 : S512x512.Slices ![0, 256] S512x64
  slices_S512x512_o0_320_S512x64 : S512x512.Slices ![0, 320] S512x64
  slices_S512x512_o0_384_S512x64 : S512x512.Slices ![0, 384] S512x64
  slices_S512x512_o0_448_S512x64 : S512x512.Slices ![0, 448] S512x64
  slices_S512x46_o0_16_S512x1 : S512x46.Slices ![0, 16] S512x1
  slices_S512x46_o0_17_S512x1 : S512x46.Slices ![0, 17] S512x1
  slices_S512x46_o0_18_S512x1 : S512x46.Slices ![0, 18] S512x1
  slices_S512x46_o0_19_S512x1 : S512x46.Slices ![0, 19] S512x1
  slices_S512x46_o0_20_S512x1 : S512x46.Slices ![0, 20] S512x1
  slices_S512x46_o0_21_S512x1 : S512x46.Slices ![0, 21] S512x1
  slices_S512x46_o0_22_S512x1 : S512x46.Slices ![0, 22] S512x1
  slices_S512x46_o0_23_S512x1 : S512x46.Slices ![0, 23] S512x1
  slices_S512x46_o0_24_S512x1 : S512x46.Slices ![0, 24] S512x1
  slices_S512x46_o0_25_S512x1 : S512x46.Slices ![0, 25] S512x1
  slices_S512x46_o0_26_S512x1 : S512x46.Slices ![0, 26] S512x1
  slices_S512x46_o0_27_S512x1 : S512x46.Slices ![0, 27] S512x1
  slices_S512x46_o0_28_S512x1 : S512x46.Slices ![0, 28] S512x1
  slices_S512x46_o0_31_S512x1 : S512x46.Slices ![0, 31] S512x1
  slices_S512x46_o0_34_S512x1 : S512x46.Slices ![0, 34] S512x1
  slices_S512x46_o0_37_S512x1 : S512x46.Slices ![0, 37] S512x1
  slices_S512x46_o0_40_S512x1 : S512x46.Slices ![0, 40] S512x1
  slices_S512x46_o0_43_S512x1 : S512x46.Slices ![0, 43] S512x1
  slices_S512x46_o0_29_S512x1 : S512x46.Slices ![0, 29] S512x1
  slices_S512x46_o0_32_S512x1 : S512x46.Slices ![0, 32] S512x1
  slices_S512x46_o0_35_S512x1 : S512x46.Slices ![0, 35] S512x1
  slices_S512x46_o0_38_S512x1 : S512x46.Slices ![0, 38] S512x1
  slices_S512x46_o0_41_S512x1 : S512x46.Slices ![0, 41] S512x1
  slices_S512x46_o0_44_S512x1 : S512x46.Slices ![0, 44] S512x1
  slices_S512x46_o0_30_S512x1 : S512x46.Slices ![0, 30] S512x1
  slices_S512x46_o0_33_S512x1 : S512x46.Slices ![0, 33] S512x1
  slices_S512x46_o0_36_S512x1 : S512x46.Slices ![0, 36] S512x1
  slices_S512x46_o0_39_S512x1 : S512x46.Slices ![0, 39] S512x1
  slices_S512x46_o0_42_S512x1 : S512x46.Slices ![0, 42] S512x1
  slices_S512x46_o0_45_S512x1 : S512x46.Slices ![0, 45] S512x1
  concatenates_S512x64_S512x64_S512x64_S512x64_S512x64_S512x64_S512x384_d1 : Shape.Concatenates [S512x64, S512x64, S512x64, S512x64, S512x64, S512x64] S512x384 1
  slices_S512x384_o0_0_S512x64 : S512x384.Slices ![0, 0] S512x64
  slices_S512x384_o0_64_S512x64 : S512x384.Slices ![0, 64] S512x64
  slices_S512x384_o0_128_S512x64 : S512x384.Slices ![0, 128] S512x64
  slices_S512x384_o0_192_S512x64 : S512x384.Slices ![0, 192] S512x64
  slices_S512x384_o0_256_S512x64 : S512x384.Slices ![0, 256] S512x64
  slices_S512x384_o0_320_S512x64 : S512x384.Slices ![0, 320] S512x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reducesTo_S2x64x64_S64x64_d0 : S2x64x64.ReducesTo [0] S64x64
  scatter_S64_S1_S__n_0_0_0_wf : ScatterDims.WF S64 S1 S_ [] [0] [0] 0
  scatter_S2048_S64x1_S64_n_0_0_1_wf : ScatterDims.WF S2048 S64x1 S64 [] [0] [0] 1
  gather_S64_S2048x1_S2048_n_0_n_n_0_1_1_wf : GatherDims.WF S64 S2048x1 S2048 [] [0] [] [0] [] 1 ![1]
  dot_S512x128_S128x46_S512x46_1_0_0_1_n_n_wf : DotDims.WF S512x128 S128x46 S512x46 [1] [0] [0] [1] [] []
  dot_S64x512_S512x64_S64x64_1_0_0_1_n_n_wf : DotDims.WF S64x512 S512x64 S64x64 [1] [0] [0] [1] [] []
  dot_S64x64_S64x2048_S64x2048_1_0_0_1_n_n_wf : DotDims.WF S64x64 S64x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S2048x3.size a
  hwx0_1 : ∀ i : grid0.Coords, EltTy.bits .f32 = 32 ∨ (Rect.block (s := S2048x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x2048.size a
  hwx0_2 : ∀ i : grid0.Coords, EltTy.bits .f32 = 32 ∨ (Rect.block (s := S64x2048) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x46.size a ≤ S128x46.size a
  hwx0_3 : ∀ i : grid0.Coords, EltTy.bits .f32 = 32 ∨ (Rect.block (s := S128x46) S128x46.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S46.size a ≤ S46.size a
  hwx0_4 : ∀ i : grid0.Coords, EltTy.bits .f32 = 32 ∨ (Rect.block (s := S46) S46.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64.size a ≤ S2x64x64.size a
  hwx0_6 : ∀ i : grid0.Coords, EltTy.bits .f32 = 32 ∨ (Rect.block (s := S2x64x64) S1x64x64.size (cc0_transform_6 i) (hinb0_6 i)).WholeWords (EltTy.packing .f32)

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S64_S2048x1_S2048_n_0_n_n_0_1_1 : GatherDims S64 S2048x1 S2048 where
  offsetDims := []
  collapsedSliceDims := [0]
  operandBatchingDims := []
  startIndicesBatchingDims := []
  startIndexMap := [0]
  indexVectorDim := 1
  sliceSizes := ![1]
  wf := gather_S64_S2048x1_S2048_n_0_n_n_0_1_1_wf
def dot_S512x128_S128x46_S512x46_1_0_0_1_n_n : DotDims S512x128 S128x46 S512x46 where
  lhsContracting := [1]
  rhsContracting := [0]
  lhsNonContracting := [0]
  rhsNonContracting := [1]
  lhsBatch := []
  rhsBatch := []
  wf := dot_S512x128_S128x46_S512x46_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x46.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S46.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048 : Shape := ⟨1, ![2048]⟩
abbrev S2048x3 : Shape := ⟨2, ![2048, 3]⟩
abbrev S64x3 : Shape := ⟨2, ![64, 3]⟩
abbrev S64 : Shape := ⟨1, ![64]⟩
abbrev S128x46 : Shape := ⟨2, ![128, 46]⟩
abbrev S46 : Shape := ⟨1, ![46]⟩
abbrev S1 : Shape := ⟨1, ![1]⟩
abbrev S63 : Shape := ⟨1, ![63]⟩
abbrev S_ : Shape := ⟨0, ![]⟩
abbrev S64x1 : Shape := ⟨2, ![64, 1]⟩
abbrev S2048x1 : Shape := ⟨2, ![2048, 1]⟩
abbrev S1x1 : Shape := ⟨2, ![1, 1]⟩
abbrev S2048x46 : Shape := ⟨2, ![2048, 46]⟩
abbrev S1x46 : Shape := ⟨2, ![1, 46]⟩
abbrev S2048x8 : Shape := ⟨2, ![2048, 8]⟩
abbrev S2048x6 : Shape := ⟨2, ![2048, 6]⟩
abbrev S2048x18 : Shape := ⟨2, ![2048, 18]⟩
abbrev S2048x6x3 : Shape := ⟨3, ![2048, 6, 3]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S2048x2048 : Shape := ⟨2, ![2048, 2048]⟩
abbrev S2048x8x1 : Shape := ⟨3, ![2048, 8, 1]⟩
abbrev S2048x1x2048 : Shape := ⟨3, ![2048, 1, 2048]⟩
abbrev S2048x8x2048 : Shape := ⟨3, ![2048, 8, 2048]⟩
abbrev S64x2048 : Shape := ⟨2, ![64, 2048]⟩
abbrev S2048x6x1 : Shape := ⟨3, ![2048, 6, 1]⟩
abbrev S2048x6x2048 : Shape := ⟨3, ![2048, 6, 2048]⟩
abbrev S2048x6x1x3 : Shape := ⟨4, ![2048, 6, 1, 3]⟩
abbrev S2048x1x2048x3 : Shape := ⟨4, ![2048, 1, 2048, 3]⟩
abbrev S2048x6x2048x3 : Shape := ⟨4, ![2048, 6, 2048, 3]⟩

abbrev nBuf : Space → Nat
  | .hbm => 175
  | .vmem => 0
  | .smem => 0
  | _ => 0

abbrev hbmTy0_0 (i : Nat) : BufTy := match i % 128 with
  | 0 => ⟨S2048x128, .f32⟩
  | 1 => ⟨S2048, .i32⟩
  | 2 => ⟨S2048x3, .f32⟩
  | 3 => ⟨S64x3, .f32⟩
  | 4 => ⟨S64, .i32⟩
  | 5 => ⟨S128x46, .f32⟩
  | 6 => ⟨S46, .f32⟩
  | 7 => ⟨S64, .i32⟩
  | 8 => ⟨S1, .i32⟩
  | 9 => ⟨S63, .i32⟩
  | 10 => ⟨S64, .i32⟩
  | 11 => ⟨S_, .i32⟩
  | 12 => ⟨S1, .i32⟩
  | 13 => ⟨S_, .i32⟩
  | 14 => ⟨S64, .i32⟩
  | 15 => ⟨S_, .i32⟩
  | 16 => ⟨S_, .i32⟩
  | 17 => ⟨S64, .i32⟩
  | 18 => ⟨S_, .i32⟩
  | 19 => ⟨S2048, .i32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S64x1, .i32⟩
  | 28 => ⟨S_, .i32⟩
  | 29 => ⟨S64, .i32⟩
  | 30 => ⟨S2048, .i32⟩
  | 31 => ⟨S_, .i32⟩
  | 32 => ⟨S_, .i32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S1, .i32⟩
  | 46 => ⟨S_, .i32⟩
  | 47 => ⟨S2048x1, .i32⟩
  | 48 => ⟨S2048x1, .i1⟩
  | 49 => ⟨S1x1, .i32⟩
  | 50 => ⟨S2048x1, .i32⟩
  | 51 => ⟨S2048x1, .i1⟩
  | 52 => ⟨S2048x1, .i1⟩
  | 53 => ⟨S_, .i1⟩
  | 54 => ⟨S2048, .i1⟩
  | 55 => ⟨S2048, .i32⟩
  | 56 => ⟨S_, .i32⟩
  | 57 => ⟨S2048, .i32⟩
  | 58 => ⟨S2048, .i32⟩
  | 59 => ⟨S1, .i32⟩
  | 60 => ⟨S63, .i32⟩
  | 61 => ⟨S64, .i32⟩
  | 62 => ⟨S_, .i32⟩
  | 63 => ⟨S1, .i32⟩
  | 64 => ⟨S_, .i32⟩
  | 65 => ⟨S64, .i32⟩
  | 66 => ⟨S_, .i32⟩
  | 67 => ⟨S_, .i32⟩
  | 68 => ⟨S64, .i32⟩
  | 69 => ⟨S_, .i32⟩
  | 70 => ⟨S2048, .i32⟩
  | 71 => ⟨S_, .i32⟩
  | 72 => ⟨S64, .i32⟩
  | 73 => ⟨S64, .i1⟩
  | 74 => ⟨S_, .i32⟩
  | 75 => ⟨S64, .i32⟩
  | 76 => ⟨S64, .i32⟩
  | 77 => ⟨S64, .i32⟩
  | 78 => ⟨S64x1, .i32⟩
  | 79 => ⟨S_, .i32⟩
  | 80 => ⟨S64, .i32⟩
  | 81 => ⟨S2048, .i32⟩
  | 82 => ⟨S_, .i32⟩
  | 83 => ⟨S_, .i32⟩
  | 84 => ⟨S2048, .i32⟩
  | 85 => ⟨S_, .i32⟩
  | 86 => ⟨S2048, .i32⟩
  | 87 => ⟨S2048, .i32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S1, .i32⟩
  | 97 => ⟨S_, .i32⟩
  | 98 => ⟨S2048x1, .i32⟩
  | 99 => ⟨S2048x1, .i1⟩
  | 100 => ⟨S1x1, .i32⟩
  | 101 => ⟨S2048x1, .i32⟩
  | 102 => ⟨S2048x1, .i1⟩
  | 103 => ⟨S2048x1, .i1⟩
  | 104 => ⟨S_, .i1⟩
  | 105 => ⟨S2048, .i1⟩
  | 106 => ⟨S2048x3, .f32⟩
  | 107 => ⟨S2048x3, .i1⟩
  | 108 => ⟨S_, .f32⟩
  | 109 => ⟨S2048x3, .f32⟩
  | 110 => ⟨S2048x3, .f32⟩
  | 111 => ⟨S2048x46, .f32⟩
  | 112 => ⟨S1x46, .f32⟩
  | 113 => ⟨S2048x46, .f32⟩
  | 114 => ⟨S2048x46, .f32⟩
  | 115 => ⟨S2048x8, .f32⟩
  | 116 => ⟨S2048x8, .f32⟩
  | 117 => ⟨S2048x8, .f32⟩
  | 118 => ⟨S2048x6, .f32⟩
  | 119 => ⟨S2048x6, .f32⟩
  | 120 => ⟨S2048x6, .f32⟩
  | 121 => ⟨S2048x18, .f32⟩
  | 122 => ⟨S2048x6x3, .f32⟩
  | 123 => ⟨S2048x1x3, .f32⟩
  | 124 => ⟨S1x2048x3, .f32⟩
  | 125 => ⟨S2048x2048x3, .f32⟩
  | 126 => ⟨S2048x2048x3, .f32⟩
  | 127 => ⟨S2048x2048x3, .f32⟩
  | _ => ⟨S2048x128, .f32⟩

abbrev hbmTy0_1 (i : Nat) : BufTy := match i % 128 with
  | 0 => ⟨S2048x2048x3, .f32⟩
  | 1 => ⟨S_, .f32⟩
  | 2 => ⟨S2048x2048, .f32⟩
  | 3 => ⟨S2048x2048, .f32⟩
  | 4 => ⟨S2048x8x1, .f32⟩
  | 5 => ⟨S2048x8x1, .f32⟩
  | 6 => ⟨S2048x8x1, .f32⟩
  | 7 => ⟨S2048x1x2048, .f32⟩
  | 8 => ⟨S2048x8x2048, .f32⟩
  | 9 => ⟨S2048x8x2048, .f32⟩
  | 10 => ⟨S2048x8x2048, .f32⟩
  | 11 => ⟨S2048x8x2048, .f32⟩
  | 12 => ⟨S2048x8x2048, .f32⟩
  | 13 => ⟨S2048x8x2048, .f32⟩
  | 14 => ⟨S_, .f32⟩
  | 15 => ⟨S2048x2048, .f32⟩
  | 16 => ⟨S_, .f32⟩
  | 17 => ⟨S64x2048, .f32⟩
  | 18 => ⟨S2048x1, .i32⟩
  | 19 => ⟨S64x2048, .f32⟩
  | 20 => ⟨S2048x6x1, .f32⟩
  | 21 => ⟨S2048x6x1, .f32⟩
  | 22 => ⟨S2048x6x1, .f32⟩
  | 23 => ⟨S2048x2048, .f32⟩
  | 24 => ⟨S2048x1x2048, .f32⟩
  | 25 => ⟨S2048x6x2048, .f32⟩
  | 26 => ⟨S2048x6x2048, .f32⟩
  | 27 => ⟨S2048x6x2048, .f32⟩
  | 28 => ⟨S2048x6x2048, .f32⟩
  | 29 => ⟨S2048x6x2048, .f32⟩
  | 30 => ⟨S2048x6x2048, .f32⟩
  | 31 => ⟨S2048x6x1x3, .f32⟩
  | 32 => ⟨S2048x2048x3, .f32⟩
  | 33 => ⟨S2048x1x2048x3, .f32⟩
  | 34 => ⟨S2048x6x2048x3, .f32⟩
  | 35 => ⟨S2048x6x2048x3, .f32⟩
  | 36 => ⟨S2048x6x2048x3, .f32⟩
  | 37 => ⟨S_, .f32⟩
  | 38 => ⟨S2048x6x2048, .f32⟩
  | 39 => ⟨S2048x6x2048, .f32⟩
  | 40 => ⟨S_, .f32⟩
  | 41 => ⟨S2048x2048, .f32⟩
  | 42 => ⟨S_, .f32⟩
  | 43 => ⟨S64x2048, .f32⟩
  | 44 => ⟨S2048x1, .i32⟩
  | 45 => ⟨S64x2048, .f32⟩
  | 46 => ⟨S64x2048, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_call1_call0_c : Ref sig .tc := ⟨.hbm, 15, rfl⟩
abbrev main_call1_call0_v0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_call2_call0_c : Ref sig .tc := ⟨.hbm, 31, rfl⟩
abbrev main_call2_call0_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v17 : Ref sig .tc := ⟨.hbm, 58, rfl⟩
abbrev main_call4_v0 : Ref sig .tc := ⟨.hbm, 59, rfl⟩
abbrev main_call4_v1 : Ref sig .tc := ⟨.hbm, 60, rfl⟩
abbrev main_v18 : Ref sig .tc := ⟨.hbm, 61, rfl⟩
abbrev main_c_6 : Ref sig .tc := ⟨.hbm, 62, rfl⟩
abbrev main_v19 : Ref sig .tc := ⟨.hbm, 63, rfl⟩
abbrev main_c_7 : Ref sig .tc := ⟨.hbm, 64, rfl⟩
abbrev main_v20 : Ref sig .tc := ⟨.hbm, 65, rfl⟩
abbrev main_call5_call0_c : Ref sig .tc := ⟨.hbm, 66, rfl⟩
abbrev main_call5_call0_v0 : Ref sig .tc := ⟨.hbm, 67, rfl⟩
abbrev main_v21 : Ref sig .tc := ⟨.hbm, 68, rfl⟩
abbrev main_c_8 : Ref sig .tc := ⟨.hbm, 69, rfl⟩
abbrev main_v22 : Ref sig .tc := ⟨.hbm, 70, rfl⟩
abbrev main_c_9 : Ref sig .tc := ⟨.hbm, 71, rfl⟩
abbrev main_v23 : Ref sig .tc := ⟨.hbm, 72, rfl⟩
abbrev main_v24 : Ref sig .tc := ⟨.hbm, 73, rfl⟩
abbrev main_c_10 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_11 : Ref sig .tc := ⟨.hbm, 79, rfl⟩
abbrev main_v29 : Ref sig .tc := ⟨.hbm, 80, rfl⟩
abbrev main_v30 : Ref sig .tc := ⟨.hbm, 81, rfl⟩
abbrev main_call6_call0_c : Ref sig .tc := ⟨.hbm, 82, rfl⟩
abbrev main_call6_call0_v0 : Ref sig .tc := ⟨.hbm, 83, rfl⟩
abbrev main_v31 : Ref sig .tc := ⟨.hbm, 84, rfl⟩
abbrev main_c_12 : Ref sig .tc := ⟨.hbm, 85, rfl⟩
abbrev main_v32 : Ref sig .tc := ⟨.hbm, 86, rfl⟩
abbrev main_v33 : Ref sig .tc := ⟨.hbm, 87, rfl⟩
abbrev main_call7_c : Ref sig .tc := ⟨.hbm, 88, rfl⟩
abbrev main_call7_v0 : Ref sig .tc := ⟨.hbm, 89, rfl⟩
abbrev main_call7_v1 : Ref sig .tc := ⟨.hbm, 90, rfl⟩
abbrev main_call7_c_0 : Ref sig .tc := ⟨.hbm, 91, rfl⟩
abbrev main_call7_v2 : Ref sig .tc := ⟨.hbm, 92, rfl⟩
abbrev main_call7_v3 : Ref sig .tc := ⟨.hbm, 93, rfl⟩
abbrev main_call7_v4 : Ref sig .tc := ⟨.hbm, 94, rfl⟩
abbrev main_call7_v5 : Ref sig .tc := ⟨.hbm, 95, rfl⟩
abbrev main_call7_c_1 : Ref sig .tc := ⟨.hbm, 96, rfl⟩
abbrev main_call7_c_2 : Ref sig .tc := ⟨.hbm, 97, rfl⟩
abbrev main_call7_v6 : Ref sig .tc := ⟨.hbm, 98, rfl⟩
abbrev main_call7_v7 : Ref sig .tc := ⟨.hbm, 99, rfl⟩
abbrev main_call7_v8 : Ref sig .tc := ⟨.hbm, 100, rfl⟩
abbrev main_call7_v9 : Ref sig .tc := ⟨.hbm, 101, rfl⟩
abbrev main_call7_v10 : Ref sig .tc := ⟨.hbm, 102, rfl⟩
abbrev main_call7_v11 : Ref sig .tc := ⟨.hbm, 103, rfl⟩
abbrev main_call7_c_3 : Ref sig .tc := ⟨.hbm, 104, rfl⟩
abbrev main_call7_v12 : Ref sig .tc := ⟨.hbm, 105, rfl⟩
abbrev main_call7_v13 : Ref sig .tc := ⟨.hbm, 106, rfl⟩
abbrev main_call7_v14 : Ref sig .tc := ⟨.hbm, 107, rfl⟩
abbrev main_call7_cst : Ref sig .tc := ⟨.hbm, 108, rfl⟩
abbrev main_call7_v15 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_call8_v0 : Ref sig .tc := ⟨.hbm, 128, rfl⟩
abbrev main_call8_cst : Ref sig .tc := ⟨.hbm, 129, rfl⟩
abbrev main_call8_v1 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_cst : Ref sig .tc := ⟨.hbm, 142, rfl⟩
abbrev main_v63 : Ref sig .tc := ⟨.hbm, 143, rfl⟩
abbrev main_cst_13 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_cst_14 : Ref sig .tc := ⟨.hbm, 165, rfl⟩
abbrev main_v84 : Ref sig .tc := ⟨.hbm, 166, rfl⟩
abbrev main_v85 : Ref sig .tc := ⟨.hbm, 167, rfl⟩
abbrev main_cst_15 : Ref sig .tc := ⟨.hbm, 168, rfl⟩
abbrev main_v86 : Ref sig .tc := ⟨.hbm, 169, rfl⟩
abbrev main_cst_16 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩

abbrev nD : Nat := 1
abbrev τ : Topo := Topo.v7x

variable {F : FTy → Type} [FloatOps F]

class Facts₀ : Prop where
  slices_S64_S1_63 : S64.Slices ![63] S1
  slices_S64_S63_0 : S64.Slices ![0] S63
  concatenates_S1_S63_S64_d0 : Shape.Concatenates [S1, S63] S64 0
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S2048 : S_.BroadcastsInDim S2048 (![] : Fin 0 → Fin S2048.rank)
  bcast_S_S64 : S_.BroadcastsInDim S64 (![] : Fin 0 → Fin S64.rank)
  bcast_S64_S64x1_0 : S64.BroadcastsInDim S64x1 (![0] : Fin 1 → Fin S64x1.rank)
  reduceWindows_S2048_S2048_w2048s1p2047_0 : S2048.ReduceWindows (![2048] : Fin 1 → Nat) ![1] ![2047] ![0] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S2048x3_0 : S2048.BroadcastsInDim S2048x3 (![0] : Fin 1 → Fin S2048x3.rank)
  bcast_S_S2048x3 : S_.BroadcastsInDim S2048x3 (![] : Fin 0 → Fin S2048x3.rank)
  bcast_S46_S1x46_1 : S46.BroadcastsInDim S1x46 (![1] : Fin 1 → Fin S1x46.rank)
  bcast_S1x46_S2048x46_0_1 : S1x46.BroadcastsInDim S2048x46 (![0, 1] : Fin 2 → Fin S2048x46.rank)
  slices_S2048x46_S2048x8_0_0 : S2048x46.Slices ![0, 0] S2048x8
  slices_S2048x46_S2048x8_0_8 : S2048x46.Slices ![0, 8] S2048x8
  slices_S2048x46_S2048x6_0_16 : S2048x46.Slices ![0, 16] S2048x6
  slices_S2048x46_S2048x6_0_22 : S2048x46.Slices ![0, 22] S2048x6
  slices_S2048x46_S2048x18_0_28 : S2048x46.Slices ![0, 28] S2048x18
  shapeCasts_S2048x18_S2048x6x3 : S2048x18.ShapeCasts S2048x6x3
  bcast_S2048x3_S2048x1x3_0_2 : S2048x3.BroadcastsInDim S2048x1x3 (![0, 2] : Fin 2 → Fin S2048x1x3.rank)
  bcast_S2048x3_S1x2048x3_1_2 : S2048x3.BroadcastsInDim S1x2048x3 (![1, 2] : Fin 2 → Fin S1x2048x3.rank)
  bcast_S2048x1x3_S2048x2048x3_0_1_2 : S2048x1x3.BroadcastsInDim S2048x2048x3 (![0, 1, 2] : Fin 3 → Fin S2048x2048x3.rank)
  bcast_S1x2048x3_S2048x2048x3_0_1_2 : S1x2048x3.BroadcastsInDim S2048x2048x3 (![0, 1, 2] : Fin 3 → Fin S2048x2048x3.rank)
  reducesTo_S2048x2048x3_S2048x2048_d2 : S2048x2048x3.ReducesTo [2] S2048x2048
  bcast_S2048x8_S2048x8x1_0_1 : S2048x8.BroadcastsInDim S2048x8x1 (![0, 1] : Fin 2 → Fin S2048x8x1.rank)
  bcast_S2048x2048_S2048x1x2048_0_2 : S2048x2048.BroadcastsInDim S2048x1x2048 (![0, 2] : Fin 2 → Fin S2048x1x2048.rank)
  bcast_S2048x8x1_S2048x8x2048_0_1_2 : S2048x8x1.BroadcastsInDim S2048x8x2048 (![0, 1, 2] : Fin 3 → Fin S2048x8x2048.rank)
  bcast_S2048x1x2048_S2048x8x2048_0_1_2 : S2048x1x2048.BroadcastsInDim S2048x8x2048 (![0, 1, 2] : Fin 3 → Fin S2048x8x2048.rank)
  reducesTo_S2048x8x2048_S2048x2048_d1 : S2048x8x2048.ReducesTo [1] S2048x2048
  bcast_S_S64x2048 : S_.BroadcastsInDim S64x2048 (![] : Fin 0 → Fin S64x2048.rank)
  bcast_S2048x6_S2048x6x1_0_1 : S2048x6.BroadcastsInDim S2048x6x1 (![0, 1] : Fin 2 → Fin S2048x6x1.rank)
  bcast_S2048x6x1_S2048x6x2048_0_1_2 : S2048x6x1.BroadcastsInDim S2048x6x2048 (![0, 1, 2] : Fin 3 → Fin S2048x6x2048.rank)
  bcast_S2048x1x2048_S2048x6x2048_0_1_2 : S2048x1x2048.BroadcastsInDim S2048x6x2048 (![0, 1, 2] : Fin 3 → Fin S2048x6x2048.rank)
  bcast_S2048x6x3_S2048x6x1x3_0_1_3 : S2048x6x3.BroadcastsInDim S2048x6x1x3 (![0, 1, 3] : Fin 3 → Fin S2048x6x1x3.rank)
  bcast_S2048x2048x3_S2048x1x2048x3_0_2_3 : S2048x2048x3.BroadcastsInDim S2048x1x2048x3 (![0, 2, 3] : Fin 3 → Fin S2048x1x2048x3.rank)
  bcast_S2048x6x1x3_S2048x6x2048x3_0_1_2_3 : S2048x6x1x3.BroadcastsInDim S2048x6x2048x3 (![0, 1, 2, 3] : Fin 4 → Fin S2048x6x2048x3.rank)
  bcast_S2048x1x2048x3_S2048x6x2048x3_0_1_2_3 : S2048x1x2048x3.BroadcastsInDim S2048x6x2048x3 (![0, 1, 2, 3] : Fin 4 → Fin S2048x6x2048x3.rank)
  reducesTo_S2048x6x2048x3_S2048x6x2048_d3 : S2048x6x2048x3.ReducesTo [3] S2048x6x2048
  reducesTo_S2048x6x2048_S2048x2048_d1 : S2048x6x2048.ReducesTo [1] S2048x2048
  scatter_S64_S1_S__n_0_0_0_wf : ScatterDims.WF S64 S1 S_ [] [0] [0] 0
  scatter_S2048_S64x1_S64_n_0_0_1_wf : ScatterDims.WF S2048 S64x1 S64 [] [0] [0] 1
  gather_S64_S2048x1_S2048_n_0_n_n_0_1_1_wf : GatherDims.WF S64 S2048x1 S2048 [] [0] [] [0] [] 1 ![1]
  gather_S64x3_S2048x1_S2048x3_1_0_n_n_0_1_13_wf : GatherDims.WF S64x3 S2048x1 S2048x3 [1] [0] [] [0] [] 1 ![1, 3]
  dot_S2048x128_S128x46_S2048x46_1_0_0_1_n_n_wf : DotDims.WF S2048x128 S128x46 S2048x46 [1] [0] [0] [1] [] []
  scatter_S64x2048_S2048x1_S2048x2048_1_0_0_1_wf : ScatterDims.WF S64x2048 S2048x1 S2048x2048 [1] [0] [0] 1

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf
def scatter_S2048_S64x1_S64_n_0_0_1 : ScatterDims S2048 S64x1 S64 where
  updateWindowDims := []
  insertedWindowDims := [0]
  scatterDimsToOperandDims := [0]
  indexVectorDim := 1
  wf := scatter_S2048_S64x1_S64_n_0_0_1_wf
def gather_S64_S2048x1_S2048_n_0_n_n_0_1_1 : GatherDims S64 S2048x1 S2048 where
  offsetDims := []
  collapsedSliceDims := [0]
  operandBatchingDims := []
  startIndicesBatchingDims := []
  startIndexMap := [0]
  indexVectorDim := 1
  sliceSizes := ![1]
  wf := gather_S64_S2048x1_S2048_n_0_n_n_0_1_1_wf
def gather_S64x3_S2048x1_S2048x3_1_0_n_n_0_1_13 : GatherDims S64x3 S2048x1 S2048x3 where
  offsetDims := [1]
  collapsedSliceDims := [0]
  operandBatchingDims := []
  startIndicesBatchingDims := []
  startIndexMap := [0]
  indexVectorDim := 1
  sliceSizes := ![1, 3]
  wf := gather_S64x3_S2048x1_S2048x3_1_0_n_n_0_1_13_wf
def dot_S2048x128_S128x46_S2048x46_1_0_0_1_n_n : DotDims S2048x128 S128x46 S2048x46 where
  lhsContracting := [1]
  rhsContracting := [0]
  lhsNonContracting := [0]
  rhsNonContracting := [1]
  lhsBatch := []
  rhsBatch := []
  wf := dot_S2048x128_S128x46_S2048x46_1_0_0_1_n_n_wf
def scatter_S64x2048_S2048x1_S2048x2048_1_0_0_1 : ScatterDims S64x2048 S2048x1 S2048x2048 where
  updateWindowDims := [1]
  insertedWindowDims := [0]
  scatterDimsToOperandDims := [0]
  indexVectorDim := 1
  wf := scatter_S64x2048_S2048x1_S2048x2048_1_0_0_1_wf

class Facts : Prop extends Facts₀ where

variable [Facts]
-- ==== Proof.KerStepDef.lean ====
import proofs.«130563_j43465069035926_2_alg».proof.Proof.Gen.KernelIdeal.Skeleton

/-! One tile step of the kernel body as a pure function of the blocks it loads.

The function tileStep gives the array the body writes back into its accumulator: the accumulator
as loaded plus the product of the indicator block with the core tile, the [512, 64] array holding
one number per (row of the tile, centre). -/

noncomputable section

namespace Cert.KernelIdeal.KerStep

open Idealize.ShloMosaic Idealize.SL.Sem Cert.KernelIdeal.Gen

variable {F : FTy → Type} [FloatOps F]

/-- The coefficient array [512, 46] of a tile: features times weights plus bias. -/
def coefTile (x0 : Vec F S512x128 .f32) (x3 : Vec F S128x46 .f32) (x4 : Vec F S46 .f32) :
    FVec F S512x46 .f32 :=
  k0_pay3 x0 x3 x4

/-- The radial part of the core tile: the sum of eight lane blocks. -/
def radialTile (x0 : Vec F S512x128 .f32) (x1 : Vec F S512x3 .f32) (x3 : Vec F S128x46 .f32)
    (x4 : Vec F S46 .f32) (x5 : Vec F S64x3 .f32) : FVec F S512x64 .f32 :=
  k0_pay16 (k0_pay14 (coefTile x0 x3 x4))
    (k0_pay15 (coefTile x0 x3 x4) (k0_pay8 x1 x5) (k0_pay12 x0 x3 x4) (k0_pay13 x0 x3 x4))

/-- The squared exponents of the six angular lane blocks, packed along the lanes. -/
def angExpTile (v9 : FVec F S512x46 .f32) : FVec F S512x384 .f32 :=
  k0_pay47 (k0_pay17 v9) (k0_pay18 v9) (k0_pay19 v9) (k0_pay20 v9) (k0_pay45 v9) (k0_pay46 v9)

/-- The amplitudes of the six angular lane blocks, packed along the lanes. -/
def angAmpTile (v9 : FVec F S512x46 .f32) : FVec F S512x384 .f32 :=
  k0_pay48 (k0_pay21 v9) (k0_pay22 v9) (k0_pay23 v9) (k0_pay24 v9) (k0_pay25 v9) (k0_pay26 v9)

/-- The first direction weights of the six angular lane blocks, packed along the lanes. -/
def angW0Tile (v9 : FVec F S512x46 .f32) : FVec F S512x384 .f32 :=
  k0_pay49 (k0_pay27 v9) (k0_pay28 v9) (k0_pay29 v9) (k0_pay30 v9) (k0_pay31 v9) (k0_pay32 v9)

/-- The second direction weights of the six angular lane blocks, packed along the lanes. -/
def angW1Tile (v9 : FVec F S512x46 .f32) : FVec F S512x384 .f32 :=
  k0_pay50 (k0_pay33 v9) (k0_pay34 v9) (k0_pay35 v9) (k0_pay36 v9) (k0_pay37 v9) (k0_pay38 v9)

/-- The third direction weights times the third absolute displacement, packed along the lanes. -/
def angW2Tile (v9 : FVec F S512x46 .f32) (v41 : FVec F S512x64 .f32) : FVec F S512x384 .f32 :=
  k0_pay57 v41 (k0_pay51 (k0_pay39 v9)) (k0_pay52 (k0_pay40 v9)) (k0_pay53 (k0_pay41 v9))
    (k0_pay54 (k0_pay42 v9)) (k0_pay55 (k0_pay43 v9)) (k0_pay56 (k0_pay44 v9))

/-- One tile step: the value the body stores into its accumulator, as a function of the blocks it
loads (x0 features, x1 positions, x2 indicator, x3 weights, x4 bias, x5 centres) and of the
accumulator acc as loaded. -/
def tileStep (x0 : Vec F S512x128 .f32) (x1 : Vec F S512x3 .f32) (x2 : Vec F S64x512 .f32)
    (x3 : Vec F S128x46 .f32) (x4 : Vec F S46 .f32) (x5 : Vec F S64x3 .f32)
    (acc : Vec F S64x64 .f32) : FVec F S64x64 .f32 :=
  k0_pay58 (k0_pay7 x1 x5) (k0_pay9 x1 x5) (k0_pay10 x1 x5)
    (radialTile x0 x1 x3 x4 x5)
    (angExpTile (coefTile x0 x3 x4)) (angAmpTile (coefTile x0 x3 x4))
    (angW0Tile (coefTile x0 x3 x4)) (angW1Tile (coefTile x0 x3 x4))
    (angW2Tile (coefTile x0 x3 x4) (k0_pay11 x1 x5))
    x2 acc

end Cert.KernelIdeal.KerStep

end
-- ==== Proof.KerValuePieces.lean ====
import proofs.«130563_j43465069035926_2_alg».proof.Proof.Gen.KernelIdeal.Frame
import proofs.«130563_j43465069035926_2_alg».proof.Proof.KerStepDef
import Idealize.ShloMosaic.Lib.Pipeline.Value
import Idealize.ShloMosaic.Lib.Tactic

/-! What one grid point leaves behind.

At a point the body overwrites its accumulator with one tile step of the blocks it was handed,
started from zeros at the first point of a core and from the accumulator's previous contents at
the second, and then copies the accumulator, with a leading unit axis, into the output block. -/

noncomputable section

open Idealize.ShloMosaic Idealize.ShloMosaic.TcCoe Idealize.SL.Sem

namespace Cert.KernelIdeal.KerValue

open Cert.KernelIdeal Cert.KernelIdeal.Gen Cert.KernelIdeal.KerStep

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Reading the whole buffer back after a list of stores whose last one wrote the whole buffer gives
that last store's value. -/
theorem readCov_cons_unit_zero {Val : EltTy → Type} [∀ e, Nonempty (Val e)] {S : Shape} {e : EltTy}
    {sig : RefSig} {κ : Kind} {sp : Space} (v : View sig κ sp S e) {off : Fin S.rank → Nat}
    (h : off = fun _ => 0) (inb : ∀ a, off a + S.size a ≤ S.size a) (w : S.Idx → Val e)
    (L : List (View.Piece Val S e)) :
    v.readCov ((⟨Rect.unit off S.size inb, w⟩ : View.Piece Val S e) :: L)
      (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- The zero accumulator a core starts from. -/
abbrev zeros : FVec F S64x64 .f32 := k0_pay2

/-- At the second point of a core the accumulator ends at one tile step from its previous contents. -/
theorem acc_B (c : Dev nD) (i : grid0.Coords) (arg2 : Memref sig .tc .vmem S512x128 .f32) (harg2 : arg2.IsWhole) (arg3 : Memref sig .tc .vmem S512x3 .f32) (harg3 : arg3.IsWhole) (arg4 : Memref sig .tc .vmem S64x512 .f32) (harg4 : arg4.IsWhole) (arg5 : Memref sig .tc .vmem S128x46 .f32) (harg5 : arg5.IsWhole) (arg6 : Memref sig .tc .vmem S46 .f32) (harg6 : arg6.IsWhole) (arg7 : Memref sig .tc .vmem S64x3 .f32) (harg7 : arg7.IsWhole) (arg8 : Memref sig .tc .vmem S1x64x64 .f32) (harg8 : arg8.IsWhole) (arg9 : Memref sig .tc .vmem S64x64 .f32) (harg9 : arg9.IsWhole) (hc0 : ¬cond0_0 i)
    (x0 : Vec F S512x128 .f32) (x1 : Vec F S512x3 .f32) (x2 : Vec F S64x512 .f32) (x3 : Vec F S128x46 .f32) (x4 : Vec F S46 .f32) (x5 : Vec F S64x3 .f32) (xs0 : Vec F S64x64 .f32) :
    sout0_B_0 c i arg2 harg2 arg3 harg3 arg4 harg4 arg5 harg5 arg6 harg6 arg7 harg7 arg8 harg8 arg9 harg9 hc0 x0 x1 x2 x3 x4 x5 xs0 = tileStep x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  have e0 : View.readAt (Elt F) arg2.view (Rect.unit (s := S512x128) ![0, 0] S512x128.size inb_S512x128_S512x128_0_0).toLoadRect (harg2.unread x0) = x0 := by
    simp only [View.readAt_eq_ld, harg2.read_unread, View.ld_unit_zero (S := S512x128) hz2]
  have e1 : View.readAt (Elt F) arg3.view (Rect.unit (s := S512x3) ![0, 0] S512x3.size inb_S512x3_S512x3_0_0).toLoadRect (harg3.unread x1) = x1 := by
    simp only [View.readAt_eq_ld, harg3.read_unread, View.ld_unit_zero (S := S512x3) hz2]
  have e2 : View.readAt (Elt F) arg4.view (Rect.unit (s := S64x512) ![0, 0] S64x512.size inb_S64x512_S64x512_0_0).toLoadRect (harg4.unread x2) = x2 := by
    simp only [View.readAt_eq_ld, harg4.read_unread, View.ld_unit_zero (S := S64x512) hz2]
  have e3 : View.readAt (Elt F) arg5.view (Rect.unit (s := S128x46) ![0, 0] S128x46.size inb_S128x46_S128x46_0_0).toLoadRect (harg5.unread x3) = x3 := by
    simp only [View.readAt_eq_ld, harg5.read_unread, View.ld_unit_zero (S := S128x46) hz2]
  have e4 : View.readAt (Elt F) arg6.view (Rect.unit (s := S46) ![0] S46.size inb_S46_S46_0).toLoadRect (harg6.unread x4) = x4 := by
    simp only [View.readAt_eq_ld, harg6.read_unread, View.ld_unit_zero (S := S46) hz1]
  have e5 : View.readAt (Elt F) arg7.view (Rect.unit (s := S64x3) ![0, 0] S64x3.size inb_S64x3_S64x3_0_0).toLoadRect (harg7.unread x5) = x5 := by
    simp only [View.readAt_eq_ld, harg7.read_unread, View.ld_unit_zero (S := S64x3) hz2]
  have e9 : View.readAt (Elt F) arg9.view (Rect.unit (s := S64x64) ![0, 0] S64x64.size inb_S64x64_S64x64_0_0).toLoadRect (harg9.unread xs0) = xs0 := by
    simp only [View.readAt_eq_ld, harg9.read_unread, View.ld_unit_zero (S := S64x64) hz2]
  rw [View.canon_unit_zero hz2, e0, e1, e2, e3, e4, e5, e9]
  unfold tileStep radialTile angExpTile angAmpTile angW0Tile angW1Tile angW2Tile coefTile k0_pay47 k0_pay48 k0_pay49 k0_pay50 k0_pay51 k0_pay52 k0_pay53 k0_pay54 k0_pay55 k0_pay56
  rfl

/-- At the first point of a core the accumulator ends at one tile step from zeros. -/
theorem acc_A (c : Dev nD) (i : grid0.Coords) (arg2 : Memref sig .tc .vmem S512x128 .f32) (harg2 : arg2.IsWhole) (arg3 : Memref sig .tc .vmem S512x3 .f32) (harg3 : arg3.IsWhole) (arg4 : Memref sig .tc .vmem S64x512 .f32) (harg4 : arg4.IsWhole) (arg5 : Memref sig .tc .vmem S128x46 .f32) (harg5 : arg5.IsWhole) (arg6 : Memref sig .tc .vmem S46 .f32) (harg6 : arg6.IsWhole) (arg7 : Memref sig .tc .vmem S64x3 .f32) (harg7 : arg7.IsWhole) (arg8 : Memref sig .tc .vmem S1x64x64 .f32) (harg8 : arg8.IsWhole) (arg9 : Memref sig .tc .vmem S64x64 .f32) (harg9 : arg9.IsWhole) (hc0 : cond0_0 i)
    (x0 : Vec F S512x128 .f32) (x1 : Vec F S512x3 .f32) (x2 : Vec F S64x512 .f32) (x3 : Vec F S128x46 .f32) (x4 : Vec F S46 .f32) (x5 : Vec F S64x3 .f32) :
    sout0_A_0 c i arg2 harg2 arg3 harg3 arg4 harg4 arg5 harg5 arg6 harg6 arg7 harg7 arg8 harg8 arg9 harg9 hc0 x0 x1 x2 x3 x4 x5 = tileStep x0 x1 x2 x3 x4 x5 zeros := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  have e0 : View.readAt (Elt F) arg2.view (Rect.unit (s := S512x128) ![0, 0] S512x128.size inb_S512x128_S512x128_0_0).toLoadRect (harg2.unread x0) = x0 := by
    simp only [View.readAt_eq_ld, harg2.read_unread, View.ld_unit_zero (S := S512x128) hz2]
  have e1 : View.readAt (Elt F) arg3.view (Rect.unit (s := S512x3) ![0, 0] S512x3.size inb_S512x3_S512x3_0_0).toLoadRect (harg3.unread x1) = x1 := by
    simp only [View.readAt_eq_ld, harg3.read_unread, View.ld_unit_zero (S := S512x3) hz2]
  have e2 : View.readAt (Elt F) arg4.view (Rect.unit (s := S64x512) ![0, 0] S64x512.size inb_S64x512_S64x512_0_0).toLoadRect (harg4.unread x2) = x2 := by
    simp only [View.readAt_eq_ld, harg4.read_unread, View.ld_unit_zero (S := S64x512) hz2]
  have e3 : View.readAt (Elt F) arg5.view (Rect.unit (s := S128x46) ![0, 0] S128x46.size inb_S128x46_S128x46_0_0).toLoadRect (harg5.unread x3) = x3 := by
    simp only [View.readAt_eq_ld, harg5.read_unread, View.ld_unit_zero (S := S128x46) hz2]
  have e4 : View.readAt (Elt F) arg6.view (Rect.unit (s := S46) ![0] S46.size inb_S46_S46_0).toLoadRect (harg6.unread x4) = x4 := by
    simp only [View.readAt_eq_ld, harg6.read_unread, View.ld_unit_zero (S := S46) hz1]
  have e5 : View.readAt (Elt F) arg7.view (Rect.unit (s := S64x3) ![0, 0] S64x3.size inb_S64x3_S64x3_0_0).toLoadRect (harg7.unread x5) = x5 := by
    simp only [View.readAt_eq_ld, harg7.read_unread, View.ld_unit_zero (S := S64x3) hz2]
  rw [View.canon_cons_unit_zero (S := S64x64) hz2, View.readCov_unit_zero (S := S64x64) _ hz2, e0, e1, e2, e3, e4, e5]
  unfold tileStep radialTile angExpTile angAmpTile angW0Tile angW1Tile angW2Tile coefTile k0_pay47 k0_pay48 k0_pay49 k0_pay50 k0_pay51 k0_pay52 k0_pay53 k0_pay54 k0_pay55 k0_pay56
  rfl

/-- At the second point of a core the output block ends at the accumulator with a leading unit axis. -/
theorem out_B (c : Dev nD) (i : grid0.Coords) (arg2 : Memref sig .tc .vmem S512x128 .f32) (harg2 : arg2.IsWhole) (arg3 : Memref sig .tc .vmem S512x3 .f32) (harg3 : arg3.IsWhole) (arg4 : Memref sig .tc .vmem S64x512 .f32) (harg4 : arg4.IsWhole) (arg5 : Memref sig .tc .vmem S128x46 .f32) (harg5 : arg5.IsWhole) (arg6 : Memref sig .tc .vmem S46 .f32) (harg6 : arg6.IsWhole) (arg7 : Memref sig .tc .vmem S64x3 .f32) (harg7 : arg7.IsWhole) (arg8 : Memref sig .tc .vmem S1x64x64 .f32) (harg8 : arg8.IsWhole) (arg9 : Memref sig .tc .vmem S64x64 .f32) (harg9 : arg9.IsWhole) (hc0 : ¬cond0_0 i)
    (x0 : Vec F S512x128 .f32) (x1 : Vec F S512x3 .f32) (x2 : Vec F S64x512 .f32) (x3 : Vec F S128x46 .f32) (x4 : Vec F S46 .f32) (x5 : Vec F S64x3 .f32) (xs0 : Vec F S64x64 .f32) :
    out0_B_6 c i arg2 harg2 arg3 harg3 arg4 harg4 arg5 harg5 arg6 harg6 arg7 harg7 arg8 harg8 arg9 harg9 hc0 x0 x1 x2 x3 x4 x5 xs0 = k0_pay1 (tileStep x0 x1 x2 x3 x4 x5 xs0) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  have e0 : View.readAt (Elt F) arg2.view (Rect.unit (s := S512x128) ![0, 0] S512x128.size inb_S512x128_S512x128_0_0).toLoadRect (harg2.unread x0) = x0 := by
    simp only [View.readAt_eq_ld, harg2.read_unread, View.ld_unit_zero (S := S512x128) hz2]
  have e1 : View.readAt (Elt F) arg3.view (Rect.unit (s := S512x3) ![0, 0] S512x3.size inb_S512x3_S512x3_0_0).toLoadRect (harg3.unread x1) = x1 := by
    simp only [View.readAt_eq_ld, harg3.read_unread, View.ld_unit_zero (S := S512x3) hz2]
  have e2 : View.readAt (Elt F) arg4.view (Rect.unit (s := S64x512) ![0, 0] S64x512.size inb_S64x512_S64x512_0_0).toLoadRect (harg4.unread x2) = x2 := by
    simp only [View.readAt_eq_ld, harg4.read_unread, View.ld_unit_zero (S := S64x512) hz2]
  have e3 : View.readAt (Elt F) arg5.view (Rect.unit (s := S128x46) ![0, 0] S128x46.size inb_S128x46_S128x46_0_0).toLoadRect (harg5.unread x3) = x3 := by
    simp only [View.readAt_eq_ld, harg5.read_unread, View.ld_unit_zero (S := S128x46) hz2]
  have e4 : View.readAt (Elt F) arg6.view (Rect.unit (s := S46) ![0] S46.size inb_S46_S46_0).toLoadRect (harg6.unread x4) = x4 := by
    simp only [View.readAt_eq_ld, harg6.read_unread, View.ld_unit_zero (S := S46) hz1]
  have e5 : View.readAt (Elt F) arg7.view (Rect.unit (s := S64x3) ![0, 0] S64x3.size inb_S64x3_S64x3_0_0).toLoadRect (harg7.unread x5) = x5 := by
    simp only [View.readAt_eq_ld, harg7.read_unread, View.ld_unit_zero (S := S64x3) hz2]
  have e9 : View.readAt (Elt F) arg9.view (Rect.unit (s := S64x64) ![0, 0] S64x64.size inb_S64x64_S64x64_0_0).toLoadRect (harg9.unread xs0) = xs0 := by
    simp only [View.readAt_eq_ld, harg9.read_unread, View.ld_unit_zero (S := S64x64) hz2]
  rw [View.canon_unit_zero (S := S1x64x64) hz3, View.readCov_unit_zero (S := S64x64) _ hz2, e0, e1, e2, e3, e4, e5, e9]
  unfold tileStep radialTile angExpTile angAmpTile angW0Tile angW1Tile angW2Tile coefTile k0_pay47 k0_pay48 k0_pay49 k0_pay50 k0_pay51 k0_pay52 k0_pay53 k0_pay54 k0_pay55 k0_pay56
  rfl

/-- At the first point of a core likewise, from zeros. -/
theorem out_A (c : Dev nD) (i : grid0.Coords) (arg2 : Memref sig .tc .vmem S512x128 .f32) (harg2 : arg2.IsWhole) (arg3 : Memref sig .tc .vmem S512x3 .f32) (harg3 : arg3.IsWhole) (arg4 : Memref sig .tc .vmem S64x512 .f32) (harg4 : arg4.IsWhole) (arg5 : Memref sig .tc .vmem S128x46 .f32) (harg5 : arg5.IsWhole) (arg6 : Memref sig .tc .vmem S46 .f32) (harg6 : arg6.IsWhole) (arg7 : Memref sig .tc .vmem S64x3 .f32) (harg7 : arg7.IsWhole) (arg8 : Memref sig .tc .vmem S1x64x64 .f32) (harg8 : arg8.IsWhole) (arg9 : Memref sig .tc .vmem S64x64 .f32) (harg9 : arg9.IsWhole) (hc0 : cond0_0 i)
    (x0 : Vec F S512x128 .f32) (x1 : Vec F S512x3 .f32) (x2 : Vec F S64x512 .f32) (x3 : Vec F S128x46 .f32) (x4 : Vec F S46 .f32) (x5 : Vec F S64x3 .f32) :
    out0_A_6 c i arg2 harg2 arg3 harg3 arg4 harg4 arg5 harg5 arg6 harg6 arg7 harg7 arg8 harg8 arg9 harg9 hc0 x0 x1 x2 x3 x4 x5 = k0_pay1 (tileStep x0 x1 x2 x3 x4 x5 zeros) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  have e0 : View.readAt (Elt F) arg2.view (Rect.unit (s := S512x128) ![0, 0] S512x128.size inb_S512x128_S512x128_0_0).toLoadRect (harg2.unread x0) = x0 := by
    simp only [View.readAt_eq_ld, harg2.read_unread, View.ld_unit_zero (S := S512x128) hz2]
  have e1 : View.readAt (Elt F) arg3.view (Rect.unit (s := S512x3) ![0, 0] S512x3.size inb_S512x3_S512x3_0_0).toLoadRect (harg3.unread x1) = x1 := by
    simp only [View.readAt_eq_ld, harg3.read_unread, View.ld_unit_zero (S := S512x3) hz2]
  have e2 : View.readAt (Elt F) arg4.view (Rect.unit (s := S64x512) ![0, 0] S64x512.size inb_S64x512_S64x512_0_0).toLoadRect (harg4.unread x2) = x2 := by
    simp only [View.readAt_eq_ld, harg4.read_unread, View.ld_unit_zero (S := S64x512) hz2]
  have e3 : View.readAt (Elt F) arg5.view (Rect.unit (s := S128x46) ![0, 0] S128x46.size inb_S128x46_S128x46_0_0).toLoadRect (harg5.unread x3) = x3 := by
    simp only [View.readAt_eq_ld, harg5.read_unread, View.ld_unit_zero (S := S128x46) hz2]
  have e4 : View.readAt (Elt F) arg6.view (Rect.unit (s := S46) ![0] S46.size inb_S46_S46_0).toLoadRect (harg6.unread x4) = x4 := by
    simp only [View.readAt_eq_ld, harg6.read_unread, View.ld_unit_zero (S := S46) hz1]
  have e5 : View.readAt (Elt F) arg7.view (Rect.unit (s := S64x3) ![0, 0] S64x3.size inb_S64x3_S64x3_0_0).toLoadRect (harg7.unread x5) = x5 := by
    simp only [View.readAt_eq_ld, harg7.read_unread, View.ld_unit_zero (S := S64x3) hz2]
  rw [View.canon_unit_zero (S := S1x64x64) hz3, readCov_cons_unit_zero (S := S64x64) _ hz2,
    View.readCov_unit_zero (S := S64x64) _ hz2, e0, e1, e2, e3, e4, e5]
  unfold tileStep radialTile angExpTile angAmpTile angW0Tile angW1Tile angW2Tile coefTile k0_pay47 k0_pay48 k0_pay49 k0_pay50 k0_pay51 k0_pay52 k0_pay53 k0_pay54 k0_pay55 k0_pay56
  rfl

end Cert.KernelIdeal.KerValue

end
-- ==== Proof.KerValueAcc.lean ====
import proofs.«130563_j43465069035926_2_alg».proof.Proof.KerValuePieces

/-! The accumulator and the output block after each grid point.

The grid runs two points per core. After a core's first point both hold one tile step, from zeros,
of that point's blocks; after its second point they hold a further tile step, of the second point's
blocks, from there. -/

noncomputable section

open Idealize.ShloMosaic Idealize.ShloMosaic.TcCoe Idealize.SL.Sem

namespace Cert.KernelIdeal.KerValue

open Cert.KernelIdeal Cert.KernelIdeal.Gen Cert.KernelIdeal.KerStep

variable {F : FTy → Type} [FloatOps F]
variable (m : (ℓ : Loc nD τ sig) → Buf (Elt F) ℓ)

/-- One tile step of the six blocks the body is handed at point t, from the accumulator acc. -/
def stepAt (c : Dev nD) (t : Fin cfg0.N) (acc : Vec F S64x64 .f32) : FVec F S64x64 .f32 :=
  tileStep (iblk m c 0 t) (iblk m c 1 t) (iblk m c 2 t) (iblk m c 3 t) (iblk m c 4 t) (iblk m c 5 t) acc

/-- After a core's first point: one step from zeros, in the accumulator and (with a leading unit
axis) in the output block. -/
theorem outs_even (c : Dev nD) (n : ℕ) (hn : n < cfg0.N) (h0 : n % 2 = 0) :
    outsAt0 m c n hn = (k0_pay1 (stepAt m c ⟨n, hn⟩ zeros), stepAt m c ⟨n, hn⟩ zeros) := by
  rw [outsAt0_A m c ⟨n, hn⟩ h0]
  exact congrArg₂ Prod.mk
    (out_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩))
    (acc_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩))

/-- After a core's second point: a second step, from what the first point left. -/
theorem outs_odd (c : Dev nD) (n : ℕ) (hn : n < cfg0.N) (h0 : ¬n % 2 = 0) :
    outsAt0 m c n hn
      = (k0_pay1 (stepAt m c ⟨n, hn⟩ (stepAt m c ⟨n - 1, Nat.lt_of_le_of_lt (Nat.sub_le _ _) hn⟩ zeros)),
          stepAt m c ⟨n, hn⟩ (stepAt m c ⟨n - 1, Nat.lt_of_le_of_lt (Nat.sub_le _ _) hn⟩ zeros)) := by
  rw [outsAt0_B m c ⟨n, hn⟩ h0]
  rw [outs_even m c (n - 1) (Nat.lt_of_le_of_lt (Nat.sub_le _ _) hn) (by omega)]
  exact congrArg₂ Prod.mk
    (out_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (stepAt m c ⟨n - 1, Nat.lt_of_le_of_lt (Nat.sub_le _ _) hn⟩ zeros))
    (acc_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (stepAt m c ⟨n - 1, Nat.lt_of_le_of_lt (Nat.sub_le _ _) hn⟩ zeros))

end Cert.KernelIdeal.KerValue

end
-- ==== Proof.KerValueBlocks.lean ====
import proofs.«130563_j43465069035926_2_alg».proof.Proof.Gen.KernelIdeal.Frame
import Idealize.ShloMosaic.Lib.ValueIdx
import Idealize.ShloMosaic.Lib.Pipeline.Value

/-! The blocks the body is handed at a grid point, as sub-arrays.

Point t of the four handles atom tile t: rows 512 t … 512 t + 511 of the feature and position
arrays, columns 512 t … 512 t + 511 of the indicator array, and the weight, bias and centre arrays
whole. -/

noncomputable section

open Idealize.ShloMosaic Idealize.ShloMosaic.TcCoe Idealize.SL.Sem Idealize.ShloMosaic.ValueIdx

namespace Cert.KernelIdeal.KerValue

open Cert.KernelIdeal Cert.KernelIdeal.Gen

variable {F : FTy → Type} [FloatOps F]
variable (m : (ℓ : Loc nD τ sig) → Buf (Elt F) ℓ)

/-- Rows 512 q … 512 q + 511 of an array of 2048 rows. -/
def rowTile {α : Type} {n : ℕ} (q : Fin 4) (a : (⟨2, ![2048, n]⟩ : Shape).Idx → α) :
    (⟨2, ![512, n]⟩ : Shape).Idx → α :=
  fun y => a (ix2 (⟨512 * q.val + (y 0).val, by have := idx2_lt0 y; have := q.isLt; omega⟩ : Fin 2048)
    (⟨(y 1).val, idx2_lt1 y⟩ : Fin n))

/-- Columns 512 q … 512 q + 511 of an array of 2048 columns. -/
def colTile {α : Type} {n : ℕ} (q : Fin 4) (a : (⟨2, ![n, 2048]⟩ : Shape).Idx → α) :
    (⟨2, ![n, 512]⟩ : Shape).Idx → α :=
  fun y => a (ix2 (⟨(y 0).val, idx2_lt0 y⟩ : Fin n)
    (⟨512 * q.val + (y 1).val, by have := idx2_lt1 y; have := q.isLt; omega⟩ : Fin 2048))

/-- A grid point as a tile number below four. -/
def tileOf (t : Fin cfg0.N) : Fin 4 := ⟨t.val, lt_of_lt_of_eq t.isLt (show cfg0.N = 4 from N_0)⟩

/-- Where each window's block sits at point t, decided over the four points. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 3) = t.val / 2 ∧ win0_6.index t (1 : Fin 3) = 0 ∧ win0_6.index t (2 : Fin 3) = 0 :=
  (by decide +kernel : ∀ t : Fin grid0.N, _)

/-- The feature block at point t. -/
theorem iblk0_eq (c : Dev nD) (t : Fin cfg0.N) :
    (iblk m c 0 t : Vec F S512x128 .f32) = rowTile (tileOf t) (V m c main_arg0) := by
  obtain ⟨e0, e1, -⟩ := index_facts t
  funext j
  unfold iblk rowTile
  rw [View.read_apply]
  show V m c main_arg0 _ = V m c main_arg0 _
  congr 1
  funext a
  apply Fin.ext
  match a with
  | ⟨0, _⟩ => show win0_0.index t (0 : Fin 2) * 512 + 1 * (j 0).val = 512 * t.val + (j 0).val; rw [e0]; omega
  | ⟨1, _⟩ => show win0_0.index t (1 : Fin 2) * 128 + 1 * (j 1).val = (j 1).val; rw [e1]; omega

/-- The position block at point t. -/
theorem iblk1_eq (c : Dev nD) (t : Fin cfg0.N) :
    (iblk m c 1 t : Vec F S512x3 .f32) = rowTile (tileOf t) (V m c main_arg2) := by
  obtain ⟨-, -, e0, e1, -⟩ := index_facts t
  funext j
  unfold iblk rowTile
  rw [View.read_apply]
  show V m c main_arg2 _ = V m c main_arg2 _
  congr 1
  funext a
  apply Fin.ext
  match a with
  | ⟨0, _⟩ => show win0_1.index t (0 : Fin 2) * 512 + 1 * (j 0).val = 512 * t.val + (j 0).val; rw [e0]; omega
  | ⟨1, _⟩ => show win0_1.index t (1 : Fin 2) * 3 + 1 * (j 1).val = (j 1).val; rw [e1]; omega

/-- The indicator block at point t. -/
theorem iblk2_eq (c : Dev nD) (t : Fin cfg0.N) :
    (iblk m c 2 t : Vec F S64x512 .f32) = colTile (tileOf t) (V m c main_v24) := by
  obtain ⟨-, -, -, -, e0, e1, -⟩ := index_facts t
  funext j
  unfold iblk colTile
  rw [View.read_apply]
  show V m c main_v24 _ = V m c main_v24 _
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 512 + 1 * (j 1).val = 512 * t.val + (j 1).val; rw [e1]; omega

/-- The weight block at every point is the whole array. -/
theorem iblk3_eq (c : Dev nD) (t : Fin cfg0.N) :
    (iblk m c 3 t : Vec F S128x46 .f32) = V m c main_arg5 := by
  obtain ⟨-, -, -, -, -, -, e0, e1, -⟩ := index_facts t
  funext j
  unfold iblk
  rw [View.read_apply]
  show V m c main_arg5 _ = V m c main_arg5 j
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 46 + 1 * (j 1).val = (j 1).val; rw [e1]; omega

/-- The bias block at every point is the whole array. -/
theorem iblk4_eq (c : Dev nD) (t : Fin cfg0.N) :
    (iblk m c 4 t : Vec F S46 .f32) = V m c main_arg6 := by
  obtain ⟨-, -, -, -, -, -, -, -, e0, -⟩ := index_facts t
  funext j
  unfold iblk
  rw [View.read_apply]
  show V m c main_arg6 _ = V m c main_arg6 j
  congr 1
  funext a
  apply Fin.ext
  match a with
  | ⟨0, _⟩ => show win0_4.index t (0 : Fin 1) * 46 + 1 * (j 0).val = (j 0).val; rw [e0]; omega

/-- The centre block at every point is the whole array. -/
theorem iblk5_eq (c : Dev nD) (t : Fin cfg0.N) :
    (iblk m c 5 t : Vec F S64x3 .f32) = V m c main_arg3 := by
  obtain ⟨-, -, -, -, -, -, -, -, -, e0, e1, -⟩ := index_facts t
  funext j
  unfold iblk
  rw [View.read_apply]
  show V m c main_arg3 _ = V m c main_arg3 j
  congr 1
  funext a
  apply Fin.ext
  match a with
  | ⟨0, _⟩ => show win0_5.index t (0 : Fin 2) * 64 + 1 * (j 0).val = (j 0).val; rw [e0]; omega
  | ⟨1, _⟩ => show win0_5.index t (1 : Fin 2) * 3 + 1 * (j 1).val = (j 1).val; rw [e1]; omega

end Cert.KernelIdeal.KerValue

end
-- ==== Proof.KerValueRegion.lean ====
import proofs.«130563_j43465069035926_2_alg».proof.Proof.KerValueAcc
import proofs.«130563_j43465069035926_2_alg».proof.Proof.KerValueBlocks

/-! The region's result array.

Core g of the two owns block g of the [2, 64, 64] result. Its accumulator runs through atom tiles
2 g and 2 g + 1 from zeros; the block is written back once, after the second of them, and the two
write-backs together cover the array. -/

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.KerStep

variable {F : FTy → Type} [FloatOps F]
variable (m : (ℓ : Loc nD τ sig) → Buf (Elt F) ℓ)

/-- One tile step of atom tile q of the arrays (features a0, positions a2, indicator oh, weights a5,
bias a6, centres a3), from the accumulator acc. -/
def tileAt (q : Fin 4) (a0 : Vec F S2048x128 .f32) (a2 : Vec F S2048x3 .f32) (oh : Vec F S64x2048 .f32) (a5 : Vec F S128x46 .f32) (a6 : Vec F S46 .f32) (a3 : Vec F S64x3 .f32)
    (acc : Vec F S64x64 .f32) : FVec F S64x64 .f32 :=
  tileStep (rowTile q a0) (rowTile q a2) (colTile q oh) a5 a6 a3 acc

/-- What core g's accumulator ends at: tile 2 g from zeros, then tile 2 g + 1 from there. -/
def coreAcc (g : Fin 2) (a0 : Vec F S2048x128 .f32) (a2 : Vec F S2048x3 .f32) (oh : Vec F S64x2048 .f32) (a5 : Vec F S128x46 .f32) (a6 : Vec F S46 .f32) (a3 : Vec F S64x3 .f32) :
    FVec F S64x64 .f32 :=
  tileAt (⟨2 * g.val + 1, by have := g.isLt; omega⟩ : Fin 4) a0 a2 oh a5 a6 a3
    (tileAt (⟨2 * g.val, by have := g.isLt; omega⟩ : Fin 4) a0 a2 oh a5 a6 a3 zeros)

/-- The region's result array [2, 64, 64]: block g is core g's final accumulator. -/
def kerRegion (a0 : Vec F S2048x128 .f32) (a2 : Vec F S2048x3 .f32) (oh : Vec F S64x2048 .f32) (a5 : Vec F S128x46 .f32) (a6 : Vec F S46 .f32) (a3 : Vec F S64x3 .f32) :
    Vec F S2x64x64 .f32 :=
  fun j => coreAcc (⟨(j 0).val, (j 0).isLt⟩ : Fin 2) a0 a2 oh a5 a6 a3
    (ix2 (⟨(j 1).val, (j 1).isLt⟩ : Fin 64) (⟨(j 2).val, (j 2).isLt⟩ : Fin 64))

/-- The result array read at an index whose coordinates are known. -/
theorem kerRegion_apply (a0 : Vec F S2048x128 .f32) (a2 : Vec F S2048x3 .f32) (oh : Vec F S64x2048 .f32) (a5 : Vec F S128x46 .f32) (a6 : Vec F S46 .f32) (a3 : Vec F S64x3 .f32)
    (j : S2x64x64.Idx) (g : Fin 2) (p : S64x64.Idx) (hg : (j 0).val = g.val) (h1 : (j 1).val = (p 0).val)
    (h2 : (j 2).val = (p 1).val) : kerRegion a0 a2 oh a5 a6 a3 j = coreAcc g a0 a2 oh a5 a6 a3 p := by
  unfold kerRegion
  have eg : (⟨(j 0).val, (j 0).isLt⟩ : Fin 2) = g := Fin.ext hg
  have ep : (ix2 (⟨(j 1).val, (j 1).isLt⟩ : Fin 64) (⟨(j 2).val, (j 2).isLt⟩ : Fin 64) : S64x64.Idx) = p := by
    funext a
    apply Fin.ext
    match a with
    | ⟨0, _⟩ => exact h1
    | ⟨1, _⟩ => exact h2
  rw [eg, ep]

/-- A core's final accumulator over tiles named by their numbers. -/
theorem coreAcc_eq (g : Fin 2) (q1 q0 : Fin 4) (h1 : q1.val = 2 * g.val + 1) (h0 : q0.val = 2 * g.val)
    (a0 : Vec F S2048x128 .f32) (a2 : Vec F S2048x3 .f32) (oh : Vec F S64x2048 .f32) (a5 : Vec F S128x46 .f32) (a6 : Vec F S46 .f32) (a3 : Vec F S64x3 .f32) :
    coreAcc g a0 a2 oh a5 a6 a3 = tileAt q1 a0 a2 oh a5 a6 a3 (tileAt q0 a0 a2 oh a5 a6 a3 zeros) := by
  have e1 : (⟨2 * g.val + 1, by have := g.isLt; omega⟩ : Fin 4) = q1 := Fin.ext h1.symm
  have e0 : (⟨2 * g.val, by have := g.isLt; omega⟩ : Fin 4) = q0 := Fin.ext h0.symm
  unfold coreAcc
  rw [e1, e0]

/-- The step at a grid point is the step of its atom tile of the arrays as the region finds them. -/
theorem stepAt_eq (c : Dev nD) (t : Fin cfg0.N) (acc : Vec F S64x64 .f32) :
    stepAt m c t acc = tileAt (tileOf t) (V m c main_arg0) (V m c main_arg2) (V m c main_v24) (V m c main_arg5) (V m c main_arg6) (V m c main_arg3) acc := by
  unfold stepAt tileAt
  rw [iblk0_eq m c t, iblk1_eq m c t, iblk2_eq m c t, iblk3_eq m c t, iblk4_eq m c t, iblk5_eq m c t]

/-- What a writing-back point writes back is its block of the result array. -/
theorem flushed_eq (c : Dev nD) (t : Fin cfg0.N) (hf : (cfg0.win 6).flush t = true) :
    (dats m 0 c).flushed 6 t = ((cfg0.win 6).blk t).view.read (Elt F)
      (kerRegion (V m c main_arg0) (V m c main_arg2) (V m c main_v24) (V m c main_arg5) (V m c main_arg6) (V m c main_arg3)) := by
  have hodd : t.val % 2 = 1 := (flush0_6 t).mp hf
  have hN : t.val < 4 := lt_of_lt_of_eq t.isLt (show cfg0.N = 4 from N_0)
  obtain ⟨-, -, -, -, -, -, -, -, -, -, -, e0, e1, e2⟩ := index_facts t
  show (cfg0.win 6).cut (grid0.coords t) ((dats m 0 c).after 6 t) = _
  rw [after0_6, outs_odd m c t.val t.isLt (by omega)]
  funext y
  rw [View.read_apply]
  show shapeCast S1x64x64 (stepAt m c t (stepAt m c ⟨t.val - 1, _⟩ zeros)) shapeCasts_S64x64_S1x64x64 y = _
  rw [stepAt_eq, stepAt_eq]
  refine (shapeCast_addUnit_apply ![64, 64] _ shapeCasts_S64x64_S1x64x64 y).trans ?_
  refine Eq.symm ((kerRegion_apply (V m c main_arg0) (V m c main_arg2) (V m c main_v24) (V m c main_arg5) (V m c main_arg6) (V m c main_arg3)
    (((cfg0.win 6).blk t).view.emb y) (⟨t.val / 2, by omega⟩ : Fin 2) (fun a => y a.succ) ?_ ?_ ?_).trans ?_)
  · show win0_6.index t (0 : Fin 3) * 1 + 1 * (y 0).val = t.val / 2
    have : (y 0).val < 1 := (y 0).isLt
    rw [e0]; omega
  · show win0_6.index t (1 : Fin 3) * 64 + 1 * (y 1).val = (y 1).val
    rw [e1]; omega
  · show win0_6.index t (2 : Fin 3) * 64 + 1 * (y 2).val = (y 2).val
    rw [e2]; omega
  · exact congrFun (coreAcc_eq (⟨t.val / 2, by omega⟩ : Fin 2) (tileOf t) (tileOf ⟨t.val - 1, Nat.lt_of_le_of_lt (Nat.sub_le _ _) t.isLt⟩)
      (by show t.val = 2 * (t.val / 2) + 1; omega) (by show t.val - 1 = 2 * (t.val / 2); omega)
      (V m c main_arg0) (V m c main_arg2) (V m c main_v24) (V m c main_arg5) (V m c main_arg6) (V m c main_arg3)) _

/-- An index of the result array lies in point t's block exactly when each coordinate lies in the
block's range on its axis. -/
theorem mem_blk6 (t : Fin cfg0.N) (i : S2x64x64.Idx) :
    i ∈ ((cfg0.win 6).blk t).view.set ↔ ∀ a : Fin 3, win0_6.index t a * S1x64x64.size a ≤ (i a).val
      ∧ (i a).val < win0_6.index t a * S1x64x64.size a + S1x64x64.size a := by
  show i ∈ ((View.whole main_v25).slice (win0_6.rect t)).set ↔ _
  rw [View.set_slice_whole, Rect.mem_set_unit]
  exact Iff.rfl

/-- The result array after the region: block g of it was written back at point 2 g + 1. -/
theorem region_final (c : Dev nD) :
    (dats m 0 c).arrAt 6 cfg0.N = kerRegion (V m c main_arg0) (V m c main_arg2) (V m c main_v24) (V m c main_arg5) (V m c main_arg6) (V m c main_arg3) :=
  (dats m 0 c).arrAt_eq_of_cover 6 (kerRegion (V m c main_arg0) (V m c main_arg2) (V m c main_v24) (V m c main_arg5) (V m c main_arg6) (V m c main_arg3))
    (flushed_eq m c) fun i => by
      have hi0 : (i 0).val < 2 := (i 0).isLt
      have hi1 : (i 1).val < 64 := (i 1).isLt
      have hi2 : (i 2).val < 64 := (i 2).isLt
      have hN : cfg0.N = 4 := N_0
      obtain ⟨-, -, -, -, -, -, -, -, -, -, -, e0, e1, e2⟩ :=
        index_facts (⟨2 * (i 0).val + 1, by omega⟩ : Fin cfg0.N)
      refine ⟨(⟨2 * (i 0).val + 1, by omega⟩ : Fin cfg0.N),
        (flush0_6 _).mpr (by show (2 * (i 0).val + 1) % 2 = 1; omega), ?_⟩
      rw [mem_blk6]
      intro a
      match a with
      | ⟨0, _⟩ =>
        show win0_6.index _ (0 : Fin 3) * 1 ≤ (i 0).val ∧ (i 0).val < win0_6.index _ (0 : Fin 3) * 1 + 1
        rw [e0]; show (2 * (i 0).val + 1) / 2 * 1 ≤ (i 0).val ∧ (i 0).val < (2 * (i 0).val + 1) / 2 * 1 + 1; omega
      | ⟨1, _⟩ =>
        show win0_6.index _ (1 : Fin 3) * 64 ≤ (i 1).val ∧ (i 1).val < win0_6.index _ (1 : Fin 3) * 64 + 64
        rw [e1]; omega
      | ⟨2, _⟩ =>
        show win0_6.index _ (2 : Fin 3) * 64 ≤ (i 2).val ∧ (i 2).val < win0_6.index _ (2 : Fin 3) * 64 + 64
        rw [e2]; omega

end Cert.KernelIdeal.KerValue

end
-- ==== Proof.KerValueRun.lean ====
import proofs.«130563_j43465069035926_2_alg».proof.Proof.KerValueRegion
import Idealize.ShloMosaic.Lib.StableHlo.Run
import Idealize.ShloMosaic.Lib.Tactic

/-! The host tail and the whole program's result.

After the region the program adds the two cores' [64, 64] blocks and multiplies the sum, on the
right, by the [64, 2048] indicator array: every atom receives the entry of its molecule. -/

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.KerStep

variable {F : FTy → Type} [FloatOps F]
variable (m : (ℓ : Loc nD τ sig) → Buf (Elt F) ℓ) (ρ : Dev nD → PrngReg)

/-- The host tail: the sum of the region's two blocks, times the indicator array. -/
def kerTail (reg : Vec F S2x64x64 .f32) (oh : Vec F S64x2048 .f32) :
    (⟨S64x2048, .f32⟩ : BufTy).Contents (Elt F) :=
  Host.dotGeneral (F := F) dot_S64x64_S64x2048_S64x2048_1_0_0_1_n_n (some .fp32)
    (Host.reduceAdd (F := F) reg (constant (F := F) S_ .f32 0x00000000#32) reducesTo_S2x64x64_S64x64_d0 h_S_) oh

/-- The program's result array as the tail leaves it, over the arrays as the region finds them. -/
theorem tail_eq (c : Dev nD) :
    Pipeline.afterTail₀ cfgs (dats m) 0 (V0 m) [hostOps1] c main_v27
      = kerTail (kerRegion (V m c main_arg0) (V m c main_arg2) (V m c main_v24) (V m c main_arg5) (V m c main_arg6) (V m c main_arg3)) (V m c main_v24) := by
  have e25 : Pipeline.withArrays (cfgs 0).spec c (V0 m c) (fun w => (dats m 0 c).arrAt w (cfgs 0).N)
      (Proc.devRef .tc main_v25) = kerRegion (V m c main_arg0) (V m c main_arg2) (V m c main_v24) (V m c main_arg5) (V m c main_arg6) (V m c main_arg3) :=
    (Pipeline.withArrays_arr spec0 launch0.win.arr_inj c _ _ 6).trans (region_final m c)
  have e24 : Pipeline.withArrays (cfgs 0).spec c (V0 m c) (fun w => (dats m 0 c).arrAt w (cfgs 0).N)
      (Proc.devRef .tc main_v24) = V m c main_v24 :=
    (Pipeline.withArrays_arr spec0 launch0.win.arr_inj c _ _ 2).trans
      (((dats m 0 c).arrAt_in 2 rfl _).trans (A_eq m c 2))
  unfold Pipeline.afterTail₀
  show StableHlo.after hostOps1 _ (Proc.devRef .tc main_v27) = _
  after_results
  rw [e25, e24]
  rfl

/-- The run, read: the result array at the tail of the region's array, every argument unchanged. -/
theorem run_V : θ_run (defs (F := F)) (onTc (τ := τ) (main (F := F))) ⟨m, fun _ => 0, ρ⟩ (fun r => ∀ c : Dev nD,
      r.2.mem ((c.tc : Thread nD τ).loc main_v27)
        = kerTail (kerRegion (V m c main_arg0) (V m c main_arg2) (V m c main_v24) (V m c main_arg5) (V m c main_arg6) (V m c main_arg3)) (V m c main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v27 (Pipeline.mem_restRefs_of main_v27 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩)
    (run_main m ρ)

end Cert.KernelIdeal.KerValue

end
-- ==== Proof.KerValueHostDefs.lean ====
import proofs.«130563_j43465069035926_2_alg».proof.Proof.Gen.KernelIdeal

/-! The host operations before the region, as functions of the per-molecule atom counts.

From the counts the program computes, for each of the 2048 atom slots, the number of the molecule
the slot belongs to (the counts repeated: a cumulative sum of the rolled counts gives each
molecule's first slot, a scatter marks those slots, a second cumulative sum turns the marks into a
running molecule number, and a clamped gather of 0 … 63 at that number gives the molecule), and from
it the [64, 2048] indicator array: one where the slot's molecule is the row, zero elsewhere. -/

noncomputable section

open Idealize.ShloMosaic Idealize.SL.Sem

namespace Cert.KernelIdeal.KerValue

open Cert.KernelIdeal Cert.KernelIdeal.Gen

variable {F : FTy → Type} [FloatOps F]

/-- Each molecule's first atom slot: the counts rolled right one place, the first set to zero,
summed cumulatively. -/
def firstSlot (a4 : (⟨S64, .i32⟩ : BufTy).Contents (Elt F)) : (⟨S64, .i32⟩ : BufTy).Contents (Elt F) :=
  Host.reduceWindow IntOp.addi ![64] ![1] ![63] ![0]
    (Host.scatter scatter_S64_S1_S__n_0_0_0 (fun _ b => b)
      (concatenate S64 0 [⟨S1, extractStridedSlice S1 ![63] a4 slices_S64_S1_63⟩,
        ⟨S63, extractStridedSlice S63 ![0] a4 slices_S64_S63_0⟩] concatenates_S1_S63_S64_d0)
      (broadcastInDim S1 ![] bcast_S_S1 (constantI S_ 32 0#32))
      (constantI S_ 32 0#32))
    (broadcastInDim S_ ![] bcast_S_S_ (constantI S_ 32 0#32))
    reduceWindows_S64_S64_w64s1p63_0 h_S_

/-- The first slots with negative ones wrapped by 2048, as a column of scatter indices. -/
def firstSlotIdx (a4 : (⟨S64, .i32⟩ : BufTy).Contents (Elt F)) : (⟨S64x1, .i32⟩ : BufTy).Contents (Elt F) :=
  broadcastInDim S64x1 ![0] bcast_S64_S64x1_0
    (select (cmpi .slt (firstSlot a4) (broadcastInDim S64 ![] bcast_S_S64 (constantI S_ 32 0#32)))
      (addi (firstSlot a4) (broadcastInDim S64 ![] bcast_S_S64 (constantI S_ 32 2048#32)))
      (firstSlot a4))

/-- The running molecule number of each atom slot: one added at every first slot, summed
cumulatively, less one. -/
def gidx (a4 : (⟨S64, .i32⟩ : BufTy).Contents (Elt F)) : (⟨S2048, .i32⟩ : BufTy).Contents (Elt F) :=
  subi
    (Host.reduceWindow IntOp.addi ![2048] ![1] ![2047] ![0]
      (Host.scatter scatter_S2048_S64x1_S64_n_0_0_1 IntOp.addi
        (broadcastInDim S2048 ![] bcast_S_S2048 (constantI S_ 32 0#32))
        (firstSlotIdx a4)
        (broadcastInDim S64 ![] bcast_S_S64 (constantI S_ 32 1#32)))
      (broadcastInDim S_ ![] bcast_S_S_ (constantI S_ 32 0#32))
      reduceWindows_S2048_S2048_w2048s1p2047_0 h_S_)
    (broadcastInDim S2048 ![] bcast_S_S2048 (constantI S_ 32 1#32))

/-- The running number with negative ones wrapped by 64, as a column of gather indices. -/
def gidxIdx (a4 : (⟨S64, .i32⟩ : BufTy).Contents (Elt F)) : (⟨S2048x1, .i32⟩ : BufTy).Contents (Elt F) :=
  broadcastInDim S2048x1 ![0] bcast_S2048_S2048x1_0
    (select (cmpi .slt (gidx a4) (broadcastInDim S2048 ![] bcast_S_S2048 (constantI S_ 32 0#32)))
      (addi (gidx a4) (broadcastInDim S2048 ![] bcast_S_S2048 (constantI S_ 32 64#32)))
      (gidx a4))

/-- The molecule of each atom slot: 0 … 63 gathered at the running number, and the fill value where
that number falls outside 0 … 63. -/
def molIds (a4 : (⟨S64, .i32⟩ : BufTy).Contents (Elt F)) : (⟨S2048, .i32⟩ : BufTy).Contents (Elt F) :=
  select
    (Host.reduce IntOp.andi
      (andi (cmpi .sge (gidxIdx a4) (broadcastInDim S2048x1 ![] bcast_S_S2048x1 (constantI S_ 32 0#32)))
        (cmpi .sle (gidxIdx a4)
          (broadcastInDim S2048x1 ![0, 1] bcast_S1x1_S2048x1_0_1
            (broadcastInDim S1x1 ![1] bcast_S1_S1x1_1 (constantI S1 32 63#32)))))
      (constantI S_ 1 1#1) reducesTo_S2048x1_S2048_d1 h_S_)
    (Host.gather gather_S64_S2048x1_S2048_n_0_n_n_0_1_1 (iotaInDim S64 32 0) (gidxIdx a4))
    (broadcastInDim S2048 ![] bcast_S_S2048 (constantI S_ 32 2147483648#32))

/-- The indicator array [64, 2048]: one where the slot's molecule is the row's number. -/
def onehotOf (a4 : (⟨S64, .i32⟩ : BufTy).Contents (Elt F)) : (⟨S64x2048, .f32⟩ : BufTy).Contents (Elt F) :=
  uitofp .f32
    (cmpi .eq
      (broadcastInDim S64x2048 ![0, 1] bcast_S1x2048_S64x2048_0_1
        (broadcastInDim S1x2048 ![1] bcast_S2048_S1x2048_1 (molIds a4)))
      (broadcastInDim S64x2048 ![0, 1] bcast_S64x1_S64x2048_0_1
        (broadcastInDim S64x1 ![0] bcast_S64_S64x1_0 (iotaInDim S64 32 0))))

end Cert.KernelIdeal.KerValue

end
-- ==== Proof.KerValueHost.lean ====
import proofs.«130563_j43465069035926_2_alg».proof.Proof.Gen.KernelIdeal.Frame
import proofs.«130563_j43465069035926_2_alg».proof.Proof.KerValueHostDefs
import Idealize.ShloMosaic.Lib.StableHlo.Run
import Idealize.ShloMosaic.Lib.Tactic

/-! The indicator array as the region finds it is the host prefix applied to the launched counts.

The nine stretches of host operations before the region are read one at a time, each over an
arbitrary valuation of the buffers before it: what a stretch leaves in its result buffer is one
stage of the chain applied to what the stretch before left. Composing the stages from the launched
counts gives the first slots, the running molecule number, the molecule of each slot and the
indicator array in turn. -/

noncomputable section

open Idealize.ShloMosaic Idealize.ShloMosaic.TcCoe Idealize.SL.Sem

namespace Cert.KernelIdeal.KerValue

open Cert.KernelIdeal Cert.KernelIdeal.Gen

variable {F : FTy → Type} [FloatOps F]
variable (m : (ℓ : Loc nD τ sig) → Buf (Elt F) ℓ)

/-! ### One stretch at a time -/

/-- Stretch 0 leaves the numbers 0 … 63 in its buffer -/
theorem stage0 (W : Valuation τ sig (Elt F)) :
    StableHlo.after hostOps0 W (Proc.devRef .tc main_v0) = (iotaInDim S64 32 0 : (⟨S64, .i32⟩ : BufTy).Contents (Elt F)) := by
  simp only [hostOps0]
  after_results_simp
  try simp only [cast_eq]
  try rfl

/-- and does not touch the counts. -/
theorem keep_counts_0 (W : Valuation τ sig (Elt F)) :
    StableHlo.after hostOps0 W (Proc.devRef .tc main_arg4) = W (Proc.devRef .tc main_arg4) := by
  simp only [hostOps0]
  after_results_simp
  try simp only [cast_eq]
  try rfl

/-- Stretch 1: the counts rolled right by one place. -/
theorem stage1 (W : Valuation τ sig (Elt F)) :
    StableHlo.after hostOps0_1 W (Proc.devRef .tc main_v1)
      = (concatenate S64 0 [⟨S1, extractStridedSlice S1 ![63] (W (Proc.devRef .tc main_arg4) : (⟨S64, .i32⟩ : BufTy).Contents (Elt F)) slices_S64_S1_63⟩,
          ⟨S63, extractStridedSlice S63 ![0] (W (Proc.devRef .tc main_arg4) : (⟨S64, .i32⟩ : BufTy).Contents (Elt F)) slices_S64_S63_0⟩] concatenates_S1_S63_S64_d0 : (⟨S64, .i32⟩ : BufTy).Contents (Elt F)) := by
  simp only [hostOps0_1]
  after_results
  try simp only [cast_eq]
  try rfl

/-- Stretch 2: the first rolled count set to zero. -/
theorem stage2 (W : Valuation τ sig (Elt F)) :
    StableHlo.after hostOps0_2 W (Proc.devRef .tc main_v3)
      = (Host.scatter scatter_S64_S1_S__n_0_0_0 (fun _ b => b) (W (Proc.devRef .tc main_v1) : (⟨S64, .i32⟩ : BufTy).Contents (Elt F))
          (broadcastInDim S1 ![] bcast_S_S1 (constantI S_ 32 0#32)) (constantI S_ 32 0#32) : (⟨S64, .i32⟩ : BufTy).Contents (Elt F)) := by
  simp only [hostOps0_2]
  after_results_simp
  try simp only [cast_eq]
  try rfl

/-- Stretch 3: the cumulative sum. -/
theorem stage3 (W : Valuation τ sig (Elt F)) :
    StableHlo.after hostOps0_3 W (Proc.devRef .tc main_v4)
      = (Host.reduceWindow IntOp.addi ![64] ![1] ![63] ![0] (W (Proc.devRef .tc main_v3) : (⟨S64, .i32⟩ : BufTy).Contents (Elt F))
          (broadcastInDim S_ ![] bcast_S_S_ (constantI S_ 32 0#32)) reduceWindows_S64_S64_w64s1p63_0 h_S_ : (⟨S64, .i32⟩ : BufTy).Contents (Elt F)) := by
  simp only [hostOps0_3]
  after_results_simp
  try simp only [cast_eq]
  try rfl

/-- Stretch 4: a one added at every first slot. -/
theorem stage4 (W : Valuation τ sig (Elt F)) :
    StableHlo.after hostOps0_4 W (Proc.devRef .tc main_v13)
      = (Host.scatter scatter_S2048_S64x1_S64_n_0_0_1 IntOp.addi
          (broadcastInDim S2048 ![] bcast_S_S2048 (constantI S_ 32 0#32))
          (broadcastInDim S64x1 ![0] bcast_S64_S64x1_0
            (select (cmpi .slt (W (Proc.devRef .tc main_v4) : (⟨S64, .i32⟩ : BufTy).Contents (Elt F)) (broadcastInDim S64 ![] bcast_S_S64 (constantI S_ 32 0#32)))
              (addi (W (Proc.devRef .tc main_v4) : (⟨S64, .i32⟩ : BufTy).Contents (Elt F)) (broadcastInDim S64 ![] bcast_S_S64 (constantI S_ 32 2048#32)))
              (W (Proc.devRef .tc main_v4) : (⟨S64, .i32⟩ : BufTy).Contents (Elt F))))
          (broadcastInDim S64 ![] bcast_S_S64 (constantI S_ 32 1#32)) : (⟨S2048, .i32⟩ : BufTy).Contents (Elt F)) := by
  simp only [hostOps0_4]
  after_results_simp
  try simp only [cast_eq]
  try rfl

/-- Stretch 5: the second cumulative sum. -/
theorem stage5 (W : Valuation τ sig (Elt F)) :
    StableHlo.after hostOps0_5 W (Proc.devRef .tc main_v14)
      = (Host.reduceWindow IntOp.addi ![2048] ![1] ![2047] ![0] (W (Proc.devRef .tc main_v13) : (⟨S2048, .i32⟩ : BufTy).Contents (Elt F))
          (broadcastInDim S_ ![] bcast_S_S_ (constantI S_ 32 0#32)) reduceWindows_S2048_S2048_w2048s1p2047_0 h_S_ : (⟨S2048, .i32⟩ : BufTy).Contents (Elt F)) := by
  simp only [hostOps0_5]
  after_results_simp
  try simp only [cast_eq]
  try rfl

/-- Stretch 6: less one. -/
theorem stage6 (W : Valuation τ sig (Elt F)) :
    StableHlo.after hostOps0_6 W (Proc.devRef .tc main_v16)
      = (subi (W (Proc.devRef .tc main_v14) : (⟨S2048, .i32⟩ : BufTy).Contents (Elt F)) (broadcastInDim S2048 ![] bcast_S_S2048 (constantI S_ 32 1#32)) : (⟨S2048, .i32⟩ : BufTy).Contents (Elt F)) := by
  simp only [hostOps0_6]
  after_results_simp
  try simp only [cast_eq]
  try rfl

/-- The gather's index column of stretch 7, over the running number g. -/
def takeIdx (g : (⟨S2048, .i32⟩ : BufTy).Contents (Elt F)) : (⟨S2048x1, .i32⟩ : BufTy).Contents (Elt F) :=
  broadcastInDim S2048x1 ![0] bcast_S2048_S2048x1_0
    (select (cmpi .slt g (broadcastInDim S2048 ![] bcast_S_S2048 (constantI S_ 32 0#32)))
      (addi g (broadcastInDim S2048 ![] bcast_S_S2048 (constantI S_ 32 64#32))) g)

/-- Stretch 7: the clamped gather of the numbers 0 … 63 at the running number. -/
theorem stage7 (W : Valuation τ sig (Elt F)) :
    StableHlo.after hostOps0_7 W (Proc.devRef .tc main_v17)
      = (select
          (Host.reduce IntOp.andi
            (andi (cmpi .sge (takeIdx (W (Proc.devRef .tc main_v16) : (⟨S2048, .i32⟩ : BufTy).Contents (Elt F))) (broadcastInDim S2048x1 ![] bcast_S_S2048x1 (constantI S_ 32 0#32)))
              (cmpi .sle (takeIdx (W (Proc.devRef .tc main_v16) : (⟨S2048, .i32⟩ : BufTy).Contents (Elt F)))
                (broadcastInDim S2048x1 ![0, 1] bcast_S1x1_S2048x1_0_1
                  (broadcastInDim S1x1 ![1] bcast_S1_S1x1_1 (constantI S1 32 63#32)))))
            (constantI S_ 1 1#1) reducesTo_S2048x1_S2048_d1 h_S_)
          (Host.gather gather_S64_S2048x1_S2048_n_0_n_n_0_1_1 (W (Proc.devRef .tc main_v0) : (⟨S64, .i32⟩ : BufTy).Contents (Elt F)) (takeIdx (W (Proc.devRef .tc main_v16) : (⟨S2048, .i32⟩ : BufTy).Contents (Elt F))))
          (broadcastInDim S2048 ![] bcast_S_S2048 (constantI S_ 32 2147483648#32)) : (⟨S2048, .i32⟩ : BufTy).Contents (Elt F)) := by
  simp only [hostOps0_7]
  after_results_simp
  try simp only [cast_eq]
  try rfl

/-- Stretch 8: the comparison of each slot's molecule with each row's number. -/
theorem stage8 (W : Valuation τ sig (Elt F)) :
    StableHlo.after hostOps0_8 W (Proc.devRef .tc main_v24)
      = (uitofp .f32
          (cmpi .eq
            (broadcastInDim S64x2048 ![0, 1] bcast_S1x2048_S64x2048_0_1
              (broadcastInDim S1x2048 ![1] bcast_S2048_S1x2048_1 (W (Proc.devRef .tc main_v17) : (⟨S2048, .i32⟩ : BufTy).Contents (Elt F))))
            (broadcastInDim S64x2048 ![0, 1] bcast_S64x1_S64x2048_0_1
              (broadcastInDim S64x1 ![0] bcast_S64_S64x1_0 (iotaInDim S64 32 0)))) : (⟨S64x2048, .f32⟩ : BufTy).Contents (Elt F)) := by
  simp only [hostOps0_8]
  after_results_simp
  try simp only [cast_eq]
  try rfl

/-! Stretches 1 to 6 leave the numbers 0 … 63 of stretch 0 in place. -/
theorem keep_iota_1 (W : Valuation τ sig (Elt F)) :
    StableHlo.after hostOps0_1 W (Proc.devRef .tc main_v0) = W (Proc.devRef .tc main_v0) := by
  simp only [hostOps0_1]
  after_results_simp
  try simp only [cast_eq]
  try rfl

theorem keep_iota_2 (W : Valuation τ sig (Elt F)) :
    StableHlo.after hostOps0_2 W (Proc.devRef .tc main_v0) = W (Proc.devRef .tc main_v0) := by
  simp only [hostOps0_2]
  after_results_simp
  try simp only [cast_eq]
  try rfl

theorem keep_iota_3 (W : Valuation τ sig (Elt F)) :
    StableHlo.after hostOps0_3 W (Proc.devRef .tc main_v0) = W (Proc.devRef .tc main_v0) := by
  simp only [hostOps0_3]
  after_results_simp
  try simp only [cast_eq]
  try rfl

theorem keep_iota_4 (W : Valuation τ sig (Elt F)) :
    StableHlo.after hostOps0_4 W (Proc.devRef .tc main_v0) = W (Proc.devRef .tc main_v0) := by
  simp only [hostOps0_4]
  after_results_simp
  try simp only [cast_eq]
  try rfl

theorem keep_iota_5 (W : Valuation τ sig (Elt F)) :
    StableHlo.after hostOps0_5 W (Proc.devRef .tc main_v0) = W (Proc.devRef .tc main_v0) := by
  simp only [hostOps0_5]
  after_results_simp
  try simp only [cast_eq]
  try rfl

theorem keep_iota_6 (W : Valuation τ sig (Elt F)) :
    StableHlo.after hostOps0_6 W (Proc.devRef .tc main_v0) = W (Proc.devRef .tc main_v0) := by
  simp only [hostOps0_6]
  after_results_simp
  try simp only [cast_eq]
  try rfl

/-! ### The chain composed -/

/-- The valuation the region finds, one stretch after another. -/
theorem V0_split (c : Dev nD) : V0 m c = (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) := by
  show StableHlo.after (List.flatten [hostOps0, hostOps0_1, hostOps0_2, hostOps0_3, hostOps0_4, hostOps0_5, hostOps0_6, hostOps0_7, hostOps0_8]) (fun b => m (c, b)) = _
  simp only [List.flatten_cons, List.flatten_nil, List.append_nil, StableHlo.after_append]

/-- The indicator array as the region finds it is the host prefix applied to the launched counts. -/
theorem V_onehot (c : Dev nD) :
    V m c main_v24 = onehotOf (m ((c.tc : Thread nD τ).loc main_arg4)) := by
  have e4 : (StableHlo.after hostOps0_3 (StableHlo.after hostOps0_2 (StableHlo.after hostOps0_1 (StableHlo.after hostOps0 (fun b => m (c, b)))))) (Proc.devRef .tc main_v4) = firstSlot (m ((c.tc : Thread nD τ).loc main_arg4)) := by
    rw [stage3, stage2, stage1, keep_counts_0]; rfl
  have i6 : (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (Proc.devRef .tc main_v0) = (iotaInDim S64 32 0 : (⟨S64, .i32⟩ : BufTy).Contents (Elt F)) := by
    rw [keep_iota_6, keep_iota_5, keep_iota_4, keep_iota_3, keep_iota_2, keep_iota_1, stage0]
  have e16 : (StableHlo.after hostOps0_6 (StableHlo.after hostOps0_5 (StableHlo.after hostOps0_4 (StableHlo.after hostOps0_3 (StableHlo.after hostOps0_2 (StableHlo.after hostOps0_1 (StableHlo.after hostOps0 (fun b => m (c, b))))))))) (Proc.devRef .tc main_v16) = gidx (m ((c.tc : Thread nD τ).loc main_arg4)) := by
    rw [stage6, stage5, stage4, e4]; rfl
  have e17 : (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) (Proc.devRef .tc main_v17) = molIds (m ((c.tc : Thread nD τ).loc main_arg4)) := by
    rw [stage7, e16, i6]; rfl
  show V0 m c (Proc.devRef .tc main_v24) = _
  rw [V0_split m c, stage8, e17]
  rfl

end Cert.KernelIdeal.KerValue

end
-- ==== Proof.KerValueFinal.lean ====
import proofs.«130563_j43465069035926_2_alg».proof.Proof.KerValueRun
import proofs.«130563_j43465069035926_2_alg».proof.Proof.KerValueHost

/-! The program's result as one function of its six argument arrays.

The region's array is read over the argument arrays themselves (no host operation before the
region writes them) and over the indicator array the host prefix computes from the atom counts; the
tail then sums the two blocks and multiplies by the same indicator array. -/

noncomputable section

open Idealize.ShloMosaic Idealize.ShloMosaic.TcCoe Idealize.SL.Sem

namespace Cert.KernelIdeal.KerValue

open Cert.KernelIdeal Cert.KernelIdeal.Gen Cert.KernelIdeal.KerStep

variable {F : FTy → Type} [FloatOps F]
variable (m : (ℓ : Loc nD τ sig) → Buf (Elt F) ℓ) (ρ : Dev nD → PrngReg)

/-- The program's result array [64, 2048] from the features a0, positions a2, centres a3, atom
counts a4, weights a5 and bias a6. -/
def kerOut (a0 : Vec F S2048x128 .f32) (a2 : Vec F S2048x3 .f32) (a3 : Vec F S64x3 .f32)
    (a4 : (⟨S64, .i32⟩ : BufTy).Contents (Elt F)) (a5 : Vec F S128x46 .f32) (a6 : Vec F S46 .f32) :
    (⟨S64x2048, .f32⟩ : BufTy).Contents (Elt F) :=
  kerTail (kerRegion a0 a2 (onehotOf a4) a5 a6 a3) (onehotOf a4)

/-- The tail's value over the arrays as the region finds them is the result function of the
launched arguments. -/
theorem kerOut_eq (c : Dev nD) :
    kerTail (kerRegion (V m c main_arg0) (V m c main_arg2) (V m c main_v24) (V m c main_arg5) (V m c main_arg6) (V m c main_arg3)) (V m c main_v24)
      = kerOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [V_onehot m c, V_main_arg0 m c, V_main_arg2 m c, V_main_arg3 m c, V_main_arg5 m c, V_main_arg6 m c]
  rfl

/-- Every weakly fair execution of the program ends with its result array at that function of the
launched arguments and with every argument array unchanged. -/
theorem run : θ_run (defs (F := F)) (onTc (τ := τ) (main (F := F))) ⟨m, fun _ => 0, ρ⟩ (fun r => ∀ c : Dev nD,
      r.2.mem ((c.tc : Thread nD τ).loc main_v27)
        = kerOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (kerOut_eq m c), (h c).2⟩) (run_V m ρ)

end Cert.KernelIdeal.KerValue

end
-- ==== Proof.Spec.lean ====
/-
  The mathematics both programs compute, stated once, with no program in sight.

  Every atom `i` carries a row `o` of 128 features and a position `r` in space; a dense layer turns the row into
  46 coefficients `cf c = ∑ₖ o k · W[k, c] + b[c]`.  Against a centre `ctr` (a point of space) the atom contributes
  * eight radial terms     `cf (8 + s) · exp (−cf(s)² · |r − ctr|)`,                         `s < 8`,
  * six directed terms     `cf (22 + p) · exp (−cf(16 + p)² · |r − ctr|²) · ∑ₖ cf (28 + 3p + k) · |rₖ − ctrₖ|`,  `p < 6`,
  and `corePair` is their sum: a function of ONE atom and ONE centre.  Everything else in either program is
  bookkeeping about which atoms are added up for which molecule and which centre a column stands for.
  Values are extended reals; every operation is the exact one.
-/
import Idealize.ShloMosaic.PureOps.Ideal
import Idealize.ShloMosaic.Lib.ValueIdx

noncomputable section

open scoped BigOperators

namespace Cert.Spec

open Idealize.ShloMosaic Idealize.ShloMosaic.ValueIdx

/-- The dense layer on one row: coefficient `c` is `∑ₖ o k · W[k, c] + b[c]`. -/
def coef (o : Fin 128 → EReal) (W : (⟨2, ![128, 46]⟩ : Shape).Idx → EReal) (b : (⟨1, ![46]⟩ : Shape).Idx → EReal)
    (c : Fin 46) : EReal :=
  (∑ k : Fin 128, o k * W (ix2 k c)) + b (ix1 c)

/-- Component `k` of the displacement of a position from a centre. -/
def disp (r ctr : Fin 3 → EReal) (k : Fin 3) : EReal := r k - ctr k

/-- The squared distance, the three squares added left to right. -/
def dist2 (r ctr : Fin 3 → EReal) : EReal :=
  disp r ctr 0 * disp r ctr 0 + disp r ctr 1 * disp r ctr 1 + disp r ctr 2 * disp r ctr 2

/-- The absolute value as the extended reals spell it. -/
def eabs (x : EReal) : EReal := max x (-x)

/-- Radial term `s`: amplitude `cf (8 + s)`, decay rate `cf(s)²`, at distance `d`. -/
def sTerm (cf : Fin 46 → EReal) (d : EReal) (s : Fin 8) : EReal :=
  cf ⟨8 + s.val, by omega⟩ * Ideal.exp (-(cf ⟨s.val, by omega⟩ * cf ⟨s.val, by omega⟩) * d)

/-- Directed term `p`: a Gaussian in the squared distance `q` times a weighted sum of the displacement's absolute
    components `ab`. -/
def pTerm (cf : Fin 46 → EReal) (q : EReal) (ab : Fin 3 → EReal) (p : Fin 6) : EReal :=
  (cf ⟨22 + p.val, by omega⟩ * Ideal.exp (-(cf ⟨16 + p.val, by omega⟩ * cf ⟨16 + p.val, by omega⟩) * q))
    * (cf ⟨28 + 3 * p.val, by omega⟩ * ab 0 + cf ⟨28 + 3 * p.val + 1, by omega⟩ * ab 1
        + cf ⟨28 + 3 * p.val + 2, by omega⟩ * ab 2)

/-- What one atom (feature row `o`, position `r`) contributes against one centre `ctr`. -/
def corePair (o : Fin 128 → EReal) (r : Fin 3 → EReal) (W : (⟨2, ![128, 46]⟩ : Shape).Idx → EReal)
    (b : (⟨1, ![46]⟩ : Shape).Idx → EReal) (ctr : Fin 3 → EReal) : EReal :=
  (∑ s : Fin 8, sTerm (coef o W b) (Ideal.sqrt (dist2 r ctr)) s)
    + ∑ p : Fin 6, pTerm (coef o W b) (dist2 r ctr) (fun k => eabs (disp r ctr k)) p

/-- A square is never negative on the extended reals (`⊥ · ⊥ = ⊤`). -/
theorem mul_self_nonneg' (a : EReal) : 0 ≤ a * a := by
  induction a using EReal.rec with
  | bot => simp
  | top => simp
  | coe r => exact_mod_cast mul_self_nonneg r

/-- The squared distance is never negative. -/
theorem dist2_nonneg (r ctr : Fin 3 → EReal) : 0 ≤ dist2 r ctr :=
  add_nonneg (add_nonneg (mul_self_nonneg' _) (mul_self_nonneg' _)) (mul_self_nonneg' _)

/-- The root of a non-negative extended real squares back to it (`√⊤ = ⊤`). -/
theorem sqrt_mul_self {a : EReal} (h : 0 ≤ a) : Ideal.sqrt a * Ideal.sqrt a = a := by
  induction a using EReal.rec with
  | bot => simp at h
  | top => rw [Ideal.sqrt_top]; rfl
  | coe r =>
    have hr : 0 ≤ r := by exact_mod_cast h
    rw [Ideal.sqrt_coe, if_neg (not_lt.mpr hr), ← EReal.coe_mul, Real.mul_self_sqrt hr]

end Cert.Spec

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.KerStep.lean ====
import proofs.«130563_j43465069035926_2_alg».proof.Proof.KerStepDef
import proofs.«130563_j43465069035926_2_alg».proof.Proof.Spec
import proofs.«130563_j43465069035926_2_alg».proof.Proof.LibDenseRow
import Idealize.ShloMosaic.Lib.ValueIdx
import Idealize.ShloMosaic.Lib.Pipeline.Value
import Idealize.ShloMosaic.Lib.ValueLayout
import Idealize.ShloMosaic.PureOps.Ideal.Laws

/-! # One tile step read at an index

The tile step adds to the accumulator the product of the indicator block with the core tile.  Read at `(m, g)` it is
the accumulator there plus, over the 512 rows `i` of the tile, the indicator `x2 (m, i)` times what row `i` contributes
against centre `g`: eight radial terms and six directed terms in the 46 coefficients of the row, its distance and
squared distance from the centre and the absolute components of its displacement.

The coefficient array is a dense layer of the feature block.  The kernel lays the eight radial terms side by side in
eight 64-lane blocks of a 512-lane array (and the six directed terms in six blocks of a 384-lane array), computes all
of them at once, and adds the blocks up; lane `64 s + g` of such an array holds term `s` for centre `g`.  So the proof
reads each packed array block by block, each block being one coefficient column (or its square) broadcast along the
lanes, and turns the sums of lane windows into sums over the terms.  No sum is regrouped. -/

noncomputable section

open scoped BigOperators

namespace Cert.KernelIdeal.KerStep

open Idealize.ShloMosaic Idealize.SL.Sem Idealize.ShloMosaic.ValueIdx Cert.KernelIdeal.Gen
/-! ## Layout operations read at an index -/

section Layout
variable {α : Type}

/-- Column `c` of a matrix, cut out as an `[R, 1]` array, read at row `r`. -/
theorem colSlice_apply {R C : ℕ} (c : ℕ) (X : (⟨2, ![R, C]⟩ : Shape).Idx → α)
    (h : (⟨2, ![R, C]⟩ : Shape).Slices ![0, c] ⟨2, ![R, 1]⟩) (r : Fin R) (u : Fin 1) (k : Fin C) (hk : k.val = c) :
    extractStridedSlice ⟨2, ![R, 1]⟩ ![0, c] X h (ix2 r u) = X (ix2 r k) :=
  slice2_axis1_apply c X h r u k (by have := u.isLt; omega)

/-- A column `[R, 1]` broadcast along the lanes to `[R, N]`, read at `(r, g)`: the column at row `r`. -/
theorem bcastCol_apply {R N : ℕ} (v : (⟨2, ![R, 1]⟩ : Shape).Idx → α)
    (h : (⟨2, ![R, 1]⟩ : Shape).Broadcasts ⟨2, ![R, N]⟩) (r : Fin R) (g : Fin N) :
    broadcastTo ⟨2, ![R, N]⟩ v h (ix2 r g) = v (ix2 r (0 : Fin 1)) := by
  refine broadcastTo_apply v h (ix2 r g) (ix2 r (0 : Fin 1)) fun ax => ?_
  match ax with
  | ⟨0, _⟩ =>
    show r.val = if R = 1 then 0 else r.val
    split
    · have := r.isLt; omega
    · rfl
  | ⟨1, _⟩ => rfl

/-- A column `[N, 1]` cast to a vector `[N]` and then to a row `[1, N]`, read at `(u, g)`: the column at row `g`. -/
theorem colToRow_apply {N : ℕ} (v : (⟨2, ![N, 1]⟩ : Shape).Idx → α)
    (h1 : (⟨2, ![N, 1]⟩ : Shape).ShapeCasts ⟨1, ![N]⟩) (h2 : (⟨1, ![N]⟩ : Shape).ShapeCasts ⟨2, ![1, N]⟩)
    (u : Fin 1) (g : Fin N) :
    shapeCast ⟨2, ![1, N]⟩ (shapeCast ⟨1, ![N]⟩ v h1) h2 (ix2 u g) = v (ix2 g (0 : Fin 1)) := by
  rw [shapeCast_a_1a_apply]
  refine shapeCast_apply v h1 (ix1 g) (ix2 g (0 : Fin 1)) ?_
  rw [Shape.rowMajor_val_two, Shape.rowMajor_val_one]
  show g.val * 1 + 0 = g.val
  omega

/-- `N` blocks of 64 lanes laid side by side, read at lane `64 s + g`: block `s` at lane `g`. -/
theorem concatLanes_apply {R C N : ℕ} (f : Fin N → ((⟨2, ![R, 64]⟩ : Shape).Idx → α))
    (h : Shape.Concatenates ((List.ofFn fun n : Fin N => (⟨⟨2, ![R, 64]⟩, f n⟩ : (s : Shape) × (s.Idx → α))).map (·.1))
      ⟨2, ![R, C]⟩ (1 : Fin 2))
    (r : Fin R) (s : Fin N) (g : Fin 64) (k : Fin C) (hk : k.val = 64 * s.val + g.val) :
    concatenate ⟨2, ![R, C]⟩ (1 : Fin 2) (List.ofFn fun n : Fin N => (⟨⟨2, ![R, 64]⟩, f n⟩ : (s : Shape) × (s.Idx → α))) h
      (ix2 r k) = f s (ix2 r g) :=
  concatenate_ofFn_apply (t := ⟨2, ![R, C]⟩) (s₁ := ⟨2, ![R, 64]⟩) (1 : Fin 2) f h rfl 64 rfl (ix2 r k) s
    (by show k.val / 64 = s.val; have := g.isLt; omega) (ix2 r g)
    (by show g.val = k.val % 64; have := g.isLt; omega)
    (fun b hb => by
      match b with
      | ⟨0, _⟩ => rfl
      | ⟨1, _⟩ => exact absurd rfl hb)

end Layout
/-! ## The geometry payloads: displacement, squared distance, distance, absolute displacement -/

section Geometry
variable (x1 : Vec Ideal S512x3 .f32) (x5 : Vec Ideal S64x3 .f32) (r : Fin 512) (g : Fin 64)

/-- Component 0 of the displacement of row `r`'s position from centre `g`. -/
theorem pay4_apply : k0_pay4 x1 x5 (ix2 r g) = Cert.Spec.disp (fun k => x1 (ix2 r k)) (fun k => x5 (ix2 g k)) 0 := by
  unfold k0_pay4
  simp only [subf_apply, bcastCol_apply, broadcastTo_1b_ab_apply, colToRow_apply]
  rw [colSlice_apply 0 x1 _ r 0 (0 : Fin 3) rfl, colSlice_apply 0 x5 _ g 0 (0 : Fin 3) rfl]
  rfl

/-- Component 1 of the displacement. -/
theorem pay5_apply : k0_pay5 x1 x5 (ix2 r g) = Cert.Spec.disp (fun k => x1 (ix2 r k)) (fun k => x5 (ix2 g k)) 1 := by
  unfold k0_pay5
  simp only [subf_apply, bcastCol_apply, broadcastTo_1b_ab_apply, colToRow_apply]
  rw [colSlice_apply 1 x1 _ r 0 (1 : Fin 3) rfl, colSlice_apply 1 x5 _ g 0 (1 : Fin 3) rfl]
  rfl

/-- Component 2 of the displacement. -/
theorem pay6_apply : k0_pay6 x1 x5 (ix2 r g) = Cert.Spec.disp (fun k => x1 (ix2 r k)) (fun k => x5 (ix2 g k)) 2 := by
  unfold k0_pay6
  simp only [subf_apply, bcastCol_apply, broadcastTo_1b_ab_apply, colToRow_apply]
  rw [colSlice_apply 2 x1 _ r 0 (2 : Fin 3) rfl, colSlice_apply 2 x5 _ g 0 (2 : Fin 3) rfl]
  rfl

/-- The squared distance of row `r`'s position from centre `g`. -/
theorem pay7_apply : k0_pay7 x1 x5 (ix2 r g) = Cert.Spec.dist2 (fun k => x1 (ix2 r k)) (fun k => x5 (ix2 g k)) := by
  unfold k0_pay7
  simp only [addf_apply, mulf_apply, pay4_apply, pay5_apply, pay6_apply]
  rfl

/-- The distance. -/
theorem pay8_apply :
    k0_pay8 x1 x5 (ix2 r g) = Ideal.sqrt (Cert.Spec.dist2 (fun k => x1 (ix2 r k)) (fun k => x5 (ix2 g k))) := by
  unfold k0_pay8
  show Ideal.sqrt (k0_pay7 x1 x5 (ix2 r g)) = _
  rw [pay7_apply]

/-- The absolute value of component 0 of the displacement. -/
theorem pay9_apply :
    k0_pay9 x1 x5 (ix2 r g) = Cert.Spec.eabs (Cert.Spec.disp (fun k => x1 (ix2 r k)) (fun k => x5 (ix2 g k)) 0) := by
  unfold k0_pay9
  show max (k0_pay4 x1 x5 (ix2 r g)) (-(k0_pay4 x1 x5 (ix2 r g))) = _
  rw [pay4_apply]
  rfl

/-- The absolute value of component 1 of the displacement. -/
theorem pay10_apply :
    k0_pay10 x1 x5 (ix2 r g) = Cert.Spec.eabs (Cert.Spec.disp (fun k => x1 (ix2 r k)) (fun k => x5 (ix2 g k)) 1) := by
  unfold k0_pay10
  show max (k0_pay5 x1 x5 (ix2 r g)) (-(k0_pay5 x1 x5 (ix2 r g))) = _
  rw [pay5_apply]
  rfl

/-- The absolute value of component 2 of the displacement. -/
theorem pay11_apply :
    k0_pay11 x1 x5 (ix2 r g) = Cert.Spec.eabs (Cert.Spec.disp (fun k => x1 (ix2 r k)) (fun k => x5 (ix2 g k)) 2) := by
  unfold k0_pay11
  show max (k0_pay6 x1 x5 (ix2 r g)) (-(k0_pay6 x1 x5 (ix2 r g))) = _
  rw [pay6_apply]
  rfl

end Geometry
/-! ## The coefficients -/

section Coefficients

private theorem dotA_rank : dot_S512x128_S128x46_S512x46_1_0_0_1_n_n.contr.rank = 1 := rfl
private theorem dotA_size :
    dot_S512x128_S128x46_S512x46_1_0_0_1_n_n.contr.size ⟨0, by rw [dotA_rank]; exact Nat.one_pos⟩ = 128 := rfl

private theorem dotA_lhs (p : Fin 512) (c : Fin 46) (k : Fin 128) :
    dot_S512x128_S128x46_S512x46_1_0_0_1_n_n.lhsIdx (ix2 p c)
      ((contrEquiv1 dot_S512x128_S128x46_S512x46_1_0_0_1_n_n 128 dotA_rank dotA_size).symm k) = ix2 p k := by
  have c2 := contrEquiv1_symm_val dot_S512x128_S128x46_S512x46_1_0_0_1_n_n 128 dotA_rank dotA_size k
  funext ax; apply Fin.ext
  match ax with
  | ⟨0, _⟩ => simp [DotDims.lhsIdx, dot_S512x128_S128x46_S512x46_1_0_0_1_n_n]; rfl
  | ⟨1, _⟩ => simp [DotDims.lhsIdx, dot_S512x128_S128x46_S512x46_1_0_0_1_n_n]; exact c2

private theorem dotA_rhs (p : Fin 512) (c : Fin 46) (k : Fin 128) :
    dot_S512x128_S128x46_S512x46_1_0_0_1_n_n.rhsIdx (ix2 p c)
      ((contrEquiv1 dot_S512x128_S128x46_S512x46_1_0_0_1_n_n 128 dotA_rank dotA_size).symm k) = ix2 k c := by
  have c2 := contrEquiv1_symm_val dot_S512x128_S128x46_S512x46_1_0_0_1_n_n 128 dotA_rank dotA_size k
  funext ax; apply Fin.ext
  match ax with
  | ⟨0, _⟩ => simp [DotDims.rhsIdx, dot_S512x128_S128x46_S512x46_1_0_0_1_n_n]; exact c2
  | ⟨1, _⟩ => simp [DotDims.rhsIdx, dot_S512x128_S128x46_S512x46_1_0_0_1_n_n]; rfl

/-- The coefficient array at `(r, c)`: coefficient `c` of row `r`'s features. -/
theorem pay3_apply (x0 : FVec Ideal S512x128 .f32) (x3 : FVec Ideal S128x46 .f32) (x4 : FVec Ideal S46 .f32)
    (r : Fin 512) (c : Fin 46) :
    k0_pay3 (F := Ideal) x0 x3 x4 (ix2 r c) = Cert.Spec.coef (fun k => x0 (ix2 r k)) x3 x4 c := by
  unfold k0_pay3
  show FloatOps.matmul (F := Ideal) dot_S512x128_S128x46_S512x46_1_0_0_1_n_n (some .fp32) x0 x3
        (constant (F := Ideal) S512x46 .f32 0x00000000#32) (ix2 r c)
      + broadcastTo S512x46 (shapeCast S1x46 x4 shapeCasts_S46_S1x46) broadcasts_S1x46_S512x46 (ix2 r c) = _
  rw [Ideal.matmul_constant_zero_apply,
    Cert.DenseRow.contr_sum dot_S512x128_S128x46_S512x46_1_0_0_1_n_n dotA_rank dotA_size dotA_lhs dotA_rhs,
    broadcastTo_1b_ab_apply, shapeCast_a_1a_apply]
  rfl

end Coefficients
/-! ## Lane-packed arrays

Several `[R, 64]` blocks laid side by side along the lanes: lane `64 s + g` of the packed array is lane `g` of
block `s`. -/

section Lanes
variable {α : Type}

/-- Lane `g` of block `s` among eight. -/
def lane8 (s : Fin 8) (g : Fin 64) : Fin 512 := ⟨64 * s.val + g.val, by have := s.isLt; have := g.isLt; omega⟩

/-- Lane `g` of block `s` among six. -/
def lane6 (s : Fin 6) (g : Fin 64) : Fin 384 := ⟨64 * s.val + g.val, by have := s.isLt; have := g.isLt; omega⟩

/-- Eight blocks side by side, read at lane `g` of block `s`. -/
theorem concat8_apply {R : ℕ} (a0 a1 a2 a3 a4 a5 a6 a7 : (⟨2, ![R, 64]⟩ : Shape).Idx → α)
    (h : Shape.Concatenates [(⟨2, ![R, 64]⟩ : Shape), ⟨2, ![R, 64]⟩, ⟨2, ![R, 64]⟩, ⟨2, ![R, 64]⟩, ⟨2, ![R, 64]⟩, ⟨2, ![R, 64]⟩, ⟨2, ![R, 64]⟩, ⟨2, ![R, 64]⟩] ⟨2, ![R, 512]⟩ (1 : Fin 2))
    (r : Fin R) (s : Fin 8) (g : Fin 64) :
    concatenate ⟨2, ![R, 512]⟩ (1 : Fin 2) [⟨⟨2, ![R, 64]⟩, a0⟩, ⟨⟨2, ![R, 64]⟩, a1⟩, ⟨⟨2, ![R, 64]⟩, a2⟩, ⟨⟨2, ![R, 64]⟩, a3⟩, ⟨⟨2, ![R, 64]⟩, a4⟩, ⟨⟨2, ![R, 64]⟩, a5⟩, ⟨⟨2, ![R, 64]⟩, a6⟩, ⟨⟨2, ![R, 64]⟩, a7⟩] h (ix2 r (lane8 s g))
      = ![a0, a1, a2, a3, a4, a5, a6, a7] s (ix2 r g) :=
  concatLanes_apply ![a0, a1, a2, a3, a4, a5, a6, a7] h r s g (lane8 s g) rfl

/-- Six blocks side by side, read at lane `g` of block `s`. -/
theorem concat6_apply {R : ℕ} (a0 a1 a2 a3 a4 a5 : (⟨2, ![R, 64]⟩ : Shape).Idx → α)
    (h : Shape.Concatenates [(⟨2, ![R, 64]⟩ : Shape), ⟨2, ![R, 64]⟩, ⟨2, ![R, 64]⟩, ⟨2, ![R, 64]⟩, ⟨2, ![R, 64]⟩, ⟨2, ![R, 64]⟩] ⟨2, ![R, 384]⟩ (1 : Fin 2))
    (r : Fin R) (s : Fin 6) (g : Fin 64) :
    concatenate ⟨2, ![R, 384]⟩ (1 : Fin 2) [⟨⟨2, ![R, 64]⟩, a0⟩, ⟨⟨2, ![R, 64]⟩, a1⟩, ⟨⟨2, ![R, 64]⟩, a2⟩, ⟨⟨2, ![R, 64]⟩, a3⟩, ⟨⟨2, ![R, 64]⟩, a4⟩, ⟨⟨2, ![R, 64]⟩, a5⟩] h (ix2 r (lane6 s g))
      = ![a0, a1, a2, a3, a4, a5] s (ix2 r g) :=
  concatLanes_apply ![a0, a1, a2, a3, a4, a5] h r s g (lane6 s g) rfl

/-- The 64-lane window at offset `64 s` of a 512-lane array, read at lane `g`. -/
theorem window8_apply {R : ℕ} (o : ℕ) (X : (⟨2, ![R, 512]⟩ : Shape).Idx → α)
    (h : (⟨2, ![R, 512]⟩ : Shape).Slices ![0, o] ⟨2, ![R, 64]⟩) (s : Fin 8) (ho : o = 64 * s.val) (r : Fin R) (g : Fin 64) :
    extractStridedSlice ⟨2, ![R, 64]⟩ ![0, o] X h (ix2 r g) = X (ix2 r (lane8 s g)) :=
  slice2_axis1_apply o X h r g (lane8 s g) (by subst ho; rfl)

/-- The 64-lane window at offset `64 s` of a 384-lane array, read at lane `g`. -/
theorem window6_apply {R : ℕ} (o : ℕ) (X : (⟨2, ![R, 384]⟩ : Shape).Idx → α)
    (h : (⟨2, ![R, 384]⟩ : Shape).Slices ![0, o] ⟨2, ![R, 64]⟩) (s : Fin 6) (ho : o = 64 * s.val) (r : Fin R) (g : Fin 64) :
    extractStridedSlice ⟨2, ![R, 64]⟩ ![0, o] X h (ix2 r g) = X (ix2 r (lane6 s g)) :=
  slice2_axis1_apply o X h r g (lane6 s g) (by subst ho; rfl)

end Lanes
/-! ## One coefficient column spread over a block of lanes -/

section Blocks
variable {R C : ℕ} {φ : FTy}

/-- Column `c` of `X`, broadcast along 64 lanes, read at `(r, g)`. -/
theorem laneCol_apply (c : ℕ) (X : FVec Ideal ⟨2, ![R, C]⟩ φ)
    (hs : (⟨2, ![R, C]⟩ : Shape).Slices ![0, c] ⟨2, ![R, 1]⟩) (hc : (⟨2, ![R, 1]⟩ : Shape).ShapeCasts ⟨2, ![R, 1]⟩)
    (hb : (⟨2, ![R, 1]⟩ : Shape).Broadcasts ⟨2, ![R, 64]⟩) (r : Fin R) (g : Fin 64) (k : Fin C) (hk : k.val = c) :
    broadcastTo ⟨2, ![R, 64]⟩ (shapeCast ⟨2, ![R, 1]⟩ (extractStridedSlice ⟨2, ![R, 1]⟩ ![0, c] X hs) hc) hb (ix2 r g)
      = X (ix2 r k) := by
  rw [bcastCol_apply, shapeCast_self]
  exact colSlice_apply c X hs r 0 k hk

/-- The square of column `c` of `X`, broadcast along 64 lanes, read at `(r, g)`. -/
theorem laneSq_apply (c : ℕ) (X : FVec Ideal ⟨2, ![R, C]⟩ φ)
    (hs : (⟨2, ![R, C]⟩ : Shape).Slices ![0, c] ⟨2, ![R, 1]⟩) (hc : (⟨2, ![R, 1]⟩ : Shape).ShapeCasts ⟨2, ![R, 1]⟩)
    (hb : (⟨2, ![R, 1]⟩ : Shape).Broadcasts ⟨2, ![R, 64]⟩) (r : Fin R) (g : Fin 64) (k : Fin C) (hk : k.val = c) :
    broadcastTo ⟨2, ![R, 64]⟩ (shapeCast ⟨2, ![R, 1]⟩
        (mulf (extractStridedSlice ⟨2, ![R, 1]⟩ ![0, c] X hs) (extractStridedSlice ⟨2, ![R, 1]⟩ ![0, c] X hs)) hc) hb (ix2 r g)
      = X (ix2 r k) * X (ix2 r k) := by
  rw [bcastCol_apply, shapeCast_self, mulf_apply]
  rw [colSlice_apply c X hs r 0 k hk]

end Blocks
/-! ## The lane-packed coefficient arrays, block by block -/

section PackedCoefficients

local macro "col_block" : tactic =>
  `(tactic| exact laneCol_apply _ _ (by decide) (by decide) (by decide) _ _ _ rfl)
local macro "sq_block" : tactic =>
  `(tactic| exact laneSq_apply _ _ (by decide) (by decide) (by decide) _ _ _ rfl)

/-- The exponential at an index. -/
theorem exp_apply {s : Shape} {φ : FTy} (a : FVec Ideal s φ) (i : s.Idx) : exp a i = Ideal.exp (a i) := rfl

variable (v9 : FVec Ideal S512x46 .f32) (r : Fin 512) (g : Fin 64)

/-- Block `s` of the radial amplitudes: coefficient `8 + s`. -/
theorem radAmp_lane (s : Fin 8) :
    k0_pay14 v9 (ix2 r (lane8 s g)) = v9 (ix2 r ⟨8 + s.val, by have := s.isLt; omega⟩) := by
  unfold k0_pay14
  refine (concat8_apply _ _ _ _ _ _ _ _ _ r s g).trans ?_
  match s with
  | ⟨0, _⟩ => col_block
  | ⟨1, _⟩ => col_block
  | ⟨2, _⟩ => col_block
  | ⟨3, _⟩ => col_block
  | ⟨4, _⟩ => col_block
  | ⟨5, _⟩ => col_block
  | ⟨6, _⟩ => col_block
  | ⟨7, _⟩ => col_block

/-- Block `p` of the directed decay rates: the square of coefficient `16 + p`. -/
theorem angExp_lane (p : Fin 6) :
    angExpTile v9 (ix2 r (lane6 p g))
      = v9 (ix2 r ⟨16 + p.val, by have := p.isLt; omega⟩) * v9 (ix2 r ⟨16 + p.val, by have := p.isLt; omega⟩) := by
  unfold angExpTile k0_pay47
  refine (concat6_apply _ _ _ _ _ _ _ r p g).trans ?_
  match p with
  | ⟨0, _⟩ => sq_block
  | ⟨1, _⟩ => sq_block
  | ⟨2, _⟩ => sq_block
  | ⟨3, _⟩ => sq_block
  | ⟨4, _⟩ => sq_block
  | ⟨5, _⟩ => sq_block

/-- Block `p` of the directed amplitudes: coefficient `22 + p`. -/
theorem angAmp_lane (p : Fin 6) :
    angAmpTile v9 (ix2 r (lane6 p g)) = v9 (ix2 r ⟨22 + p.val, by have := p.isLt; omega⟩) := by
  unfold angAmpTile k0_pay48
  refine (concat6_apply _ _ _ _ _ _ _ r p g).trans ?_
  match p with
  | ⟨0, _⟩ => col_block
  | ⟨1, _⟩ => col_block
  | ⟨2, _⟩ => col_block
  | ⟨3, _⟩ => col_block
  | ⟨4, _⟩ => col_block
  | ⟨5, _⟩ => col_block

/-- Block `p` of the first direction weights: coefficient `28 + 3 p`. -/
theorem angW0_lane (p : Fin 6) :
    angW0Tile v9 (ix2 r (lane6 p g)) = v9 (ix2 r ⟨28 + 3 * p.val, by have := p.isLt; omega⟩) := by
  unfold angW0Tile k0_pay49
  refine (concat6_apply _ _ _ _ _ _ _ r p g).trans ?_
  match p with
  | ⟨0, _⟩ => col_block
  | ⟨1, _⟩ => col_block
  | ⟨2, _⟩ => col_block
  | ⟨3, _⟩ => col_block
  | ⟨4, _⟩ => col_block
  | ⟨5, _⟩ => col_block

/-- Block `p` of the second direction weights: coefficient `28 + 3 p + 1`. -/
theorem angW1_lane (p : Fin 6) :
    angW1Tile v9 (ix2 r (lane6 p g)) = v9 (ix2 r ⟨28 + 3 * p.val + 1, by have := p.isLt; omega⟩) := by
  unfold angW1Tile k0_pay50
  refine (concat6_apply _ _ _ _ _ _ _ r p g).trans ?_
  match p with
  | ⟨0, _⟩ => col_block
  | ⟨1, _⟩ => col_block
  | ⟨2, _⟩ => col_block
  | ⟨3, _⟩ => col_block
  | ⟨4, _⟩ => col_block
  | ⟨5, _⟩ => col_block

/-- Block `p` of the third direction weights times the third absolute displacement `v41`. -/
theorem angW2_lane (v41 : FVec Ideal S512x64 .f32) (p : Fin 6) :
    angW2Tile v9 v41 (ix2 r (lane6 p g))
      = v9 (ix2 r ⟨28 + 3 * p.val + 2, by have := p.isLt; omega⟩) * v41 (ix2 r g) := by
  unfold angW2Tile k0_pay57
  simp only [mulf_apply]
  rw [concat6_apply, concat6_apply]
  match p with
  | ⟨0, _⟩ => refine congrArg₂ _ ?_ rfl; col_block
  | ⟨1, _⟩ => refine congrArg₂ _ ?_ rfl; col_block
  | ⟨2, _⟩ => refine congrArg₂ _ ?_ rfl; col_block
  | ⟨3, _⟩ => refine congrArg₂ _ ?_ rfl; col_block
  | ⟨4, _⟩ => refine congrArg₂ _ ?_ rfl; col_block
  | ⟨5, _⟩ => refine congrArg₂ _ ?_ rfl; col_block

/-- Six copies of one block side by side: every block is that block. -/
theorem rep6_lane (v : FVec Ideal S512x64 .f32)
    (h : Shape.Concatenates [S512x64, S512x64, S512x64, S512x64, S512x64, S512x64] S512x384 1) (p : Fin 6) :
    concatenate S512x384 1 [⟨S512x64, v⟩, ⟨S512x64, v⟩, ⟨S512x64, v⟩, ⟨S512x64, v⟩, ⟨S512x64, v⟩, ⟨S512x64, v⟩] h
      (ix2 r (lane6 p g)) = v (ix2 r g) := by
  refine (concat6_apply _ _ _ _ _ _ _ r p g).trans ?_
  match p with
  | ⟨0, _⟩ => rfl
  | ⟨1, _⟩ => rfl
  | ⟨2, _⟩ => rfl
  | ⟨3, _⟩ => rfl
  | ⟨4, _⟩ => rfl
  | ⟨5, _⟩ => rfl

/-- Block `s` of the radial exponents: minus the square of coefficient `s`, times the distance `v38`. -/
theorem radExp_lane (x0 : FVec Ideal S512x128 .f32) (x3 : FVec Ideal S128x46 .f32) (x4 : FVec Ideal S46 .f32)
    (v38 : FVec Ideal S512x64 .f32) (s : Fin 8) :
    k0_pay15 (k0_pay3 (F := Ideal) x0 x3 x4) v38 (k0_pay12 (F := Ideal) x0 x3 x4) (k0_pay13 (F := Ideal) x0 x3 x4)
        (ix2 r (lane8 s g))
      = (0 - k0_pay3 (F := Ideal) x0 x3 x4 (ix2 r ⟨s.val, by have := s.isLt; omega⟩)
            * k0_pay3 (F := Ideal) x0 x3 x4 (ix2 r ⟨s.val, by have := s.isLt; omega⟩)) * v38 (ix2 r g) := by
  unfold k0_pay15
  simp only [mulf_apply, subf_apply, broadcast_apply]
  rw [concat8_apply, concat8_apply]
  match s with
  | ⟨0, _⟩ => refine congrArg₂ _ (congrArg₂ _ Ideal.ofBits_zero_f32 ?_) rfl; sq_block
  | ⟨1, _⟩ =>
    refine congrArg₂ _ (congrArg₂ _ Ideal.ofBits_zero_f32 ?_) rfl
    exact laneSq_apply 1 (k0_pay3 (F := Ideal) x0 x3 x4) (by decide) (by decide) (by decide) r g _ rfl
  | ⟨2, _⟩ => refine congrArg₂ _ (congrArg₂ _ Ideal.ofBits_zero_f32 ?_) rfl; sq_block
  | ⟨3, _⟩ => refine congrArg₂ _ (congrArg₂ _ Ideal.ofBits_zero_f32 ?_) rfl; sq_block
  | ⟨4, _⟩ => refine congrArg₂ _ (congrArg₂ _ Ideal.ofBits_zero_f32 ?_) rfl; sq_block
  | ⟨5, _⟩ => refine congrArg₂ _ (congrArg₂ _ Ideal.ofBits_zero_f32 ?_) rfl; sq_block
  | ⟨6, _⟩ => refine congrArg₂ _ (congrArg₂ _ Ideal.ofBits_zero_f32 ?_) rfl; sq_block
  | ⟨7, _⟩ => refine congrArg₂ _ (congrArg₂ _ Ideal.ofBits_zero_f32 ?_) rfl; sq_block

end PackedCoefficients
/-! ## The sums over the lane blocks, and the accumulating product -/

section Sums

/-- The radial sum: zero plus the eight 64-lane windows of `v99 · exp v103`. -/
theorem pay16_apply (v99 v103 : FVec Ideal S512x512 .f32) (r : Fin 512) (g : Fin 64) :
    k0_pay16 v99 v103 (ix2 r g) = ∑ s : Fin 8, v99 (ix2 r (lane8 s g)) * Ideal.exp (v103 (ix2 r (lane8 s g))) := by
  unfold k0_pay16
  simp only [addf_apply, broadcast_apply]
  rw [window8_apply 0 _ _ 0 rfl, window8_apply 64 _ _ 1 rfl, window8_apply 128 _ _ 2 rfl, window8_apply 192 _ _ 3 rfl,
    window8_apply 256 _ _ 4 rfl, window8_apply 320 _ _ 5 rfl, window8_apply 384 _ _ 6 rfl, window8_apply 448 _ _ 7 rfl]
  rw [Fin.sum_univ_eight]
  simp only [mulf_apply, exp_apply]
  rw [Ideal.ofBits_def, Ideal.ofBits_zero_f32, zero_add]

/-- A block plus the sum, from zero, of the six 64-lane windows of `X`. -/
theorem sixSum_apply (v122 : FVec Ideal S512x64 .f32) (X : FVec Ideal S512x384 .f32)
    (h0 : S512x384.Slices ![0, 0] S512x64)
    (h1 : S512x384.Slices ![0, 64] S512x64)
    (h2 : S512x384.Slices ![0, 128] S512x64)
    (h3 : S512x384.Slices ![0, 192] S512x64)
    (h4 : S512x384.Slices ![0, 256] S512x64)
    (h5 : S512x384.Slices ![0, 320] S512x64)
    (r : Fin 512) (g : Fin 64) :
    addf v122 (addf (addf (addf (addf (addf (addf (broadcast S512x64 (Scalar.ofBits (F := Ideal) .f32 0x00000000#32)) (extractStridedSlice S512x64 ![0, 0] X h0)) (extractStridedSlice S512x64 ![0, 64] X h1)) (extractStridedSlice S512x64 ![0, 128] X h2)) (extractStridedSlice S512x64 ![0, 192] X h3)) (extractStridedSlice S512x64 ![0, 256] X h4)) (extractStridedSlice S512x64 ![0, 320] X h5)) (ix2 r g)
      = v122 (ix2 r g) + ∑ p : Fin 6, X (ix2 r (lane6 p g)) := by
  simp only [addf_apply, broadcast_apply]
  rw [window6_apply 0 _ _ 0 rfl, window6_apply 64 _ _ 1 rfl, window6_apply 128 _ _ 2 rfl, window6_apply 192 _ _ 3 rfl,
    window6_apply 256 _ _ 4 rfl, window6_apply 320 _ _ 5 rfl]
  rw [Fin.sum_univ_six, Ideal.ofBits_def, Ideal.ofBits_zero_f32, zero_add]

end Sums
/-! ## The accumulating product with the indicator block -/

section Product

private theorem dotB_rank : dot_S64x512_S512x64_S64x64_1_0_0_1_n_n.contr.rank = 1 := rfl
private theorem dotB_size :
    dot_S64x512_S512x64_S64x64_1_0_0_1_n_n.contr.size ⟨0, by rw [dotB_rank]; exact Nat.one_pos⟩ = 512 := rfl

private theorem dotB_lhs (p : Fin 64) (c : Fin 64) (k : Fin 512) :
    dot_S64x512_S512x64_S64x64_1_0_0_1_n_n.lhsIdx (ix2 p c)
      ((contrEquiv1 dot_S64x512_S512x64_S64x64_1_0_0_1_n_n 512 dotB_rank dotB_size).symm k) = ix2 p k := by
  have c2 := contrEquiv1_symm_val dot_S64x512_S512x64_S64x64_1_0_0_1_n_n 512 dotB_rank dotB_size k
  funext ax; apply Fin.ext
  match ax with
  | ⟨0, _⟩ => simp [DotDims.lhsIdx, dot_S64x512_S512x64_S64x64_1_0_0_1_n_n]; rfl
  | ⟨1, _⟩ => simp [DotDims.lhsIdx, dot_S64x512_S512x64_S64x64_1_0_0_1_n_n]; exact c2

private theorem dotB_rhs (p : Fin 64) (c : Fin 64) (k : Fin 512) :
    dot_S64x512_S512x64_S64x64_1_0_0_1_n_n.rhsIdx (ix2 p c)
      ((contrEquiv1 dot_S64x512_S512x64_S64x64_1_0_0_1_n_n 512 dotB_rank dotB_size).symm k) = ix2 k c := by
  have c2 := contrEquiv1_symm_val dot_S64x512_S512x64_S64x64_1_0_0_1_n_n 512 dotB_rank dotB_size k
  funext ax; apply Fin.ext
  match ax with
  | ⟨0, _⟩ => simp [DotDims.rhsIdx, dot_S64x512_S512x64_S64x64_1_0_0_1_n_n]; exact c2
  | ⟨1, _⟩ => simp [DotDims.rhsIdx, dot_S64x512_S512x64_S64x64_1_0_0_1_n_n]; rfl

/-- The accumulator plus the product, into zero, of the indicator block with a `[512, 64]` array, read at `(m, g)`. -/
theorem accMatmul_apply (L : FVec Ideal S64x512 .f32) (T : FVec Ideal S512x64 .f32) (A : FVec Ideal S64x64 .f32)
    (m g : Fin 64) :
    shapeCast S64x64 (addf A (matmul (F := Ideal) dot_S64x512_S512x64_S64x64_1_0_0_1_n_n (some .fp32)
        (shapeCast S64x512 L shapeCasts_S64x512_S64x512) T (constant (F := Ideal) S64x64 .f32 0x00000000#32)))
      shapeCasts_S64x64_S64x64 (ix2 m g)
      = A (ix2 m g) + ∑ i : Fin 512, L (ix2 m i) * T (ix2 i g) := by
  rw [shapeCast_self, shapeCast_self]
  show A (ix2 m g) + FloatOps.matmul (F := Ideal) dot_S64x512_S512x64_S64x64_1_0_0_1_n_n (some .fp32) L T
      (constant (F := Ideal) S64x64 .f32 0x00000000#32) (ix2 m g) = _
  rw [Ideal.matmul_constant_zero_apply,
    Cert.DenseRow.contr_sum dot_S64x512_S512x64_S64x64_1_0_0_1_n_n dotB_rank dotB_size dotB_lhs dotB_rhs]

end Product
/-! ## The core tile and the tile step -/

section Assembly
variable (x0 : FVec Ideal S512x128 .f32) (x1 : FVec Ideal S512x3 .f32) (x3 : FVec Ideal S128x46 .f32)
  (x4 : FVec Ideal S46 .f32) (x5 : FVec Ideal S64x3 .f32)

/-- The radial part of the core tile at `(i, g)`: the eight radial terms of row `i` against centre `g`. -/
theorem radial_apply (i : Fin 512) (g : Fin 64) :
    radialTile (F := Ideal) x0 x1 x3 x4 x5 (ix2 i g)
      = ∑ s : Fin 8, Cert.Spec.sTerm (Cert.Spec.coef (fun k => x0 (ix2 i k)) x3 x4)
          (Ideal.sqrt (Cert.Spec.dist2 (fun k => x1 (ix2 i k)) (fun k => x5 (ix2 g k)))) s := by
  unfold radialTile coefTile
  rw [pay16_apply]
  refine Finset.sum_congr rfl fun s _ => ?_
  rw [radAmp_lane, radExp_lane, pay8_apply, pay3_apply, pay3_apply, zero_sub]
  rfl

/-- One directed term, read off the lane-packed arrays at lane `g` of block `p`. -/
theorem directed_apply (i : Fin 512) (g : Fin 64) (p : Fin 6)
    (h : Shape.Concatenates [S512x64, S512x64, S512x64, S512x64, S512x64, S512x64] S512x384 1) :
    mulf (mulf (angAmpTile (coefTile (F := Ideal) x0 x3 x4))
          (exp (mulf (subf (broadcast S512x384 (Scalar.ofBits (F := Ideal) .f32 0x00000000#32))
                (angExpTile (coefTile (F := Ideal) x0 x3 x4)))
            (concatenate S512x384 1 [⟨S512x64, k0_pay7 (F := Ideal) x1 x5⟩, ⟨S512x64, k0_pay7 (F := Ideal) x1 x5⟩,
              ⟨S512x64, k0_pay7 (F := Ideal) x1 x5⟩, ⟨S512x64, k0_pay7 (F := Ideal) x1 x5⟩,
              ⟨S512x64, k0_pay7 (F := Ideal) x1 x5⟩, ⟨S512x64, k0_pay7 (F := Ideal) x1 x5⟩] h))))
        (addf (addf
            (mulf (angW0Tile (coefTile (F := Ideal) x0 x3 x4))
              (concatenate S512x384 1 [⟨S512x64, k0_pay9 (F := Ideal) x1 x5⟩, ⟨S512x64, k0_pay9 (F := Ideal) x1 x5⟩,
                ⟨S512x64, k0_pay9 (F := Ideal) x1 x5⟩, ⟨S512x64, k0_pay9 (F := Ideal) x1 x5⟩,
                ⟨S512x64, k0_pay9 (F := Ideal) x1 x5⟩, ⟨S512x64, k0_pay9 (F := Ideal) x1 x5⟩] h))
            (mulf (angW1Tile (coefTile (F := Ideal) x0 x3 x4))
              (concatenate S512x384 1 [⟨S512x64, k0_pay10 (F := Ideal) x1 x5⟩, ⟨S512x64, k0_pay10 (F := Ideal) x1 x5⟩,
                ⟨S512x64, k0_pay10 (F := Ideal) x1 x5⟩, ⟨S512x64, k0_pay10 (F := Ideal) x1 x5⟩,
                ⟨S512x64, k0_pay10 (F := Ideal) x1 x5⟩, ⟨S512x64, k0_pay10 (F := Ideal) x1 x5⟩] h)))
          (angW2Tile (coefTile (F := Ideal) x0 x3 x4) (k0_pay11 (F := Ideal) x1 x5)))
        (ix2 i (lane6 p g))
      = Cert.Spec.pTerm (Cert.Spec.coef (fun k => x0 (ix2 i k)) x3 x4)
          (Cert.Spec.dist2 (fun k => x1 (ix2 i k)) (fun k => x5 (ix2 g k)))
          (fun k => Cert.Spec.eabs (Cert.Spec.disp (fun k => x1 (ix2 i k)) (fun k => x5 (ix2 g k)) k)) p := by
  simp only [mulf_apply, addf_apply, subf_apply, exp_apply, broadcast_apply]
  rw [angAmp_lane, angExp_lane, angW0_lane, angW1_lane, angW2_lane, rep6_lane, rep6_lane, rep6_lane,
    pay7_apply, pay9_apply, pay10_apply, pay11_apply]
  unfold coefTile
  simp only [pay3_apply]
  rw [Ideal.ofBits_def, Ideal.ofBits_zero_f32, zero_sub]
  rfl

/-- **One tile step at an index**: the accumulator plus, over the rows of the tile, the indicator times what the
row contributes against centre `g`. -/
theorem tileStep_apply' (x2 : FVec Ideal S64x512 .f32) (acc : FVec Ideal S64x64 .f32) (m g : Fin 64) :
    tileStep (F := Ideal) x0 x1 x2 x3 x4 x5 acc (ix2 m g)
      = acc (ix2 m g) + ∑ i : Fin 512, x2 (ix2 m i)
          * Cert.Spec.corePair (fun k => x0 (ix2 i k)) (fun k => x1 (ix2 i k)) x3 x4 (fun k => x5 (ix2 g k)) := by
  unfold tileStep k0_pay58
  refine (accMatmul_apply _ _ _ m g).trans ?_
  refine congrArg _ (Finset.sum_congr rfl fun i _ => congrArg _ ?_)
  refine (sixSum_apply _ _ _ _ _ _ _ _ i g).trans ?_
  unfold Cert.Spec.corePair
  refine congrArg₂ _ (radial_apply x0 x1 x3 x4 x5 i g) (Finset.sum_congr rfl fun p _ => ?_)
  exact directed_apply x0 x1 x3 x4 x5 i g p _

end Assembly

/-- **One tile step at an index**, over the blocks as the body loads them. -/
theorem tileStep_apply (x0 : Vec Ideal S512x128 .f32) (x1 : Vec Ideal S512x3 .f32) (x2 : Vec Ideal S64x512 .f32)
    (x3 : Vec Ideal S128x46 .f32) (x4 : Vec Ideal S46 .f32) (x5 : Vec Ideal S64x3 .f32) (acc : Vec Ideal S64x64 .f32)
    (m g : Fin 64) :
    tileStep (F := Ideal) x0 x1 x2 x3 x4 x5 acc (ix2 m g)
      = acc (ix2 m g) + ∑ i : Fin 512, x2 (ix2 m i)
          * Cert.Spec.corePair (fun k => x0 (ix2 i k)) (fun k => x1 (ix2 i k)) x3 x4 (fun k => x5 (ix2 g k)) := by
  exact tileStep_apply' x0 x1 x3 x4 x5 x2 acc m g
end Cert.KernelIdeal.KerStep

end
-- ==== Proof.Bridge.lean ====
/-
  Bookkeeping identities on the extended reals that join the two arrangements of one sum.

  The atoms are numbered `0 … 2047`; a map `mol` sends each atom to its molecule (`< 64`).  One program adds an
  atom's contribution to its molecule's row directly; the other multiplies by the 0/1 indicator `[mol i = m]`, adds up
  tile by tile (four tiles of 512 atoms, two per core), and finally picks the column's centre by a second
  indicator.  Only the additive commutative monoid and the multiplicative monoid-with-zero structure of the extended
  reals are used (`0 · x = 0` even at an infinity); no distributivity.
-/
import proofs.«130563_j43465069035926_2_alg».proof.Proof.Spec

noncomputable section

open scoped BigOperators

namespace Cert.Bridge

open Idealize.ShloMosaic Idealize.ShloMosaic.ValueIdx Cert.Spec

/-- Atom `i` of tile `q`. -/
def tileIdx (q : Fin 4) (i : Fin 512) : Fin 2048 := ⟨512 * q.val + i.val, by omega⟩

/-- The atoms are the four tiles laid end to end. -/
def tileEquiv : Fin 4 × Fin 512 ≃ Fin 2048 where
  toFun p := tileIdx p.1 p.2
  invFun i := (⟨i.val / 512, by omega⟩, ⟨i.val % 512, Nat.mod_lt _ (by norm_num)⟩)
  left_inv p := by
    rcases p with ⟨q, i⟩
    ext <;> simp [tileIdx] <;> omega
  right_inv i := by
    ext; simp [tileIdx]; omega

/-- A sum over all atoms is the sum over the tiles of the sums inside each. -/
theorem sum_tiles {M : Type*} [AddCommMonoid M] (f : Fin 2048 → M) :
    ∑ i, f i = ∑ q : Fin 4, ∑ i : Fin 512, f (tileIdx q i) := by
  rw [← Equiv.sum_comp tileEquiv f, Fintype.sum_prod_type]
  rfl

/-- The same, grouped as the two cores see it: core `c` owns tiles `2c` and `2c + 1`. -/
theorem sum_cores {M : Type*} [AddCommMonoid M] (f : Fin 2048 → M) :
    ∑ c : Fin 2, ((∑ i : Fin 512, f (tileIdx ⟨2 * c.val, by omega⟩ i))
        + ∑ i : Fin 512, f (tileIdx ⟨2 * c.val + 1, by omega⟩ i)) = ∑ i, f i := by
  rw [sum_tiles, Fin.sum_univ_two, Fin.sum_univ_four]
  simp only [Fin.val_zero, Fin.val_one, mul_zero, mul_one, zero_add, add_assoc]
  rfl

/-- Multiplying by the indicator of a molecule and adding over all atoms adds over that molecule's atoms. -/
theorem sum_indicator_mul (mol : Fin 2048 → Fin 64) (m : Fin 64) (f : Fin 2048 → EReal) :
    ∑ i, (if mol i = m then (1 : EReal) else 0) * f i = ∑ i ∈ Finset.univ.filter (fun i => mol i = m), f i := by
  rw [Finset.sum_filter]
  refine Finset.sum_congr rfl fun i _ => ?_
  by_cases h : mol i = m <;> simp [h]

/-- Multiplying a row by the indicator of one column's molecule and adding picks that molecule's entry. -/
theorem sum_mul_indicator (g₀ : Fin 64) (x : Fin 64 → EReal) :
    ∑ g : Fin 64, x g * (if g₀ = g then (1 : EReal) else 0) = x g₀ := by
  rw [Finset.sum_eq_single g₀]
  · simp
  · intro g _ hg; simp [Ne.symm hg]
  · intro h; exact absurd (Finset.mem_univ _) h

/-! ## One atom against one centre, as the array program spells it -/

/-- The squared distance as a sum over the three axes started from zero. -/
theorem dist2_eq_sum (r ctr : Fin 3 → EReal) :
    (0 : EReal) + ∑ k : Fin 3, disp r ctr k * disp r ctr k = dist2 r ctr := by
  rw [zero_add, Fin.sum_univ_three]; rfl

/-- The weighted sum of the absolute components, as a sum over the three axes started from zero. -/
theorem ang_eq_sum (v ab : Fin 3 → EReal) :
    (0 : EReal) + ∑ k : Fin 3, v k * ab k = v 0 * ab 0 + v 1 * ab 1 + v 2 * ab 2 := by
  rw [zero_add, Fin.sum_univ_three]

/-- The distance squared back: the root of the squared distance times itself. -/
theorem dist_mul_self (r ctr : Fin 3 → EReal) :
    Ideal.sqrt (dist2 r ctr) * Ideal.sqrt (dist2 r ctr) = dist2 r ctr :=
  sqrt_mul_self (dist2_nonneg r ctr)

/-- Adding two families over the same atoms and then their sums, or the sums of the pairs: the same. -/
theorem sum_pair_split (S : Finset (Fin 2048)) (f g : Fin 2048 → EReal) :
    ((0 : EReal) + ∑ i ∈ S, f i) + ((0 : EReal) + ∑ i ∈ S, g i) = ∑ i ∈ S, (f i + g i) := by
  rw [zero_add, zero_add, Finset.sum_add_distrib]

/-! ## The tiled, indicator-weighted arrangement collapses to the direct one -/

/-- Per core a zero start and two tiles of indicator-weighted contributions; the two cores added from zero; the row
    then multiplied against the indicator of the column's molecule and added over the 64 centres from zero: all of
    it is the sum, over the atoms of molecule `m`, of their contribution against the centre of column `j`'s molecule. -/
theorem tiled_eq_direct (mol : Fin 2048 → Fin 64) (core : Fin 2048 → Fin 64 → EReal) (oh : Fin 64 → Fin 2048 → EReal)
    (hoh : ∀ m a, oh m a = if mol a = m then (1 : EReal) else 0) (m : Fin 64) (j : Fin 2048) :
    (0 : EReal) + ∑ g : Fin 64,
        ((0 : EReal) + ∑ c : Fin 2,
          (((0 : EReal) + ∑ i : Fin 512, oh m (tileIdx ⟨2 * c.val, by omega⟩ i) * core (tileIdx ⟨2 * c.val, by omega⟩ i) g)
            + ∑ i : Fin 512, oh m (tileIdx ⟨2 * c.val + 1, by omega⟩ i) * core (tileIdx ⟨2 * c.val + 1, by omega⟩ i) g))
          * oh g j
      = ∑ a ∈ Finset.univ.filter (fun a => mol a = m), core a (mol j) := by
  have h1 : ∀ g : Fin 64,
      ((0 : EReal) + ∑ c : Fin 2,
          (((0 : EReal) + ∑ i : Fin 512, oh m (tileIdx ⟨2 * c.val, by omega⟩ i) * core (tileIdx ⟨2 * c.val, by omega⟩ i) g)
            + ∑ i : Fin 512, oh m (tileIdx ⟨2 * c.val + 1, by omega⟩ i) * core (tileIdx ⟨2 * c.val + 1, by omega⟩ i) g))
        = ∑ a ∈ Finset.univ.filter (fun a => mol a = m), core a g := by
    intro g
    simp only [zero_add]
    rw [sum_cores (fun a => oh m a * core a g)]
    simp only [hoh]
    exact sum_indicator_mul mol m (fun a => core a g)
  simp only [h1]
  simp only [hoh]
  rw [zero_add]
  exact sum_mul_indicator (mol j) (fun g => ∑ a ∈ Finset.univ.filter (fun a => mol a = m), core a g)

/-- Two segment sums, each started from zero, of families that add up pointwise to `core`: the segment sum of `core`. -/
theorem split_eq_direct (S : Finset (Fin 2048)) (f g core : Fin 2048 → EReal) (h : ∀ i, f i + g i = core i) :
    ((0 : EReal) + ∑ i ∈ S, f i) + ((0 : EReal) + ∑ i ∈ S, g i) = ∑ i ∈ S, core i := by
  rw [sum_pair_split]
  exact Finset.sum_congr rfl fun i _ => h i

/-! ## One atom against one centre: the two spellings agree -/

/-- The radial and directed sums as the array program spells them — every sum along an axis started from zero, the
    Gaussian taken in the distance squared back, the direction weights read as a triple — are the two sums of the
    specification. -/
theorem pair_eq (cf : Fin 46 → EReal) (r ca : Fin 3 → EReal) :
    ((0 : EReal) + ∑ s : Fin 8, cf ⟨8 + s.val, by omega⟩
        * Ideal.exp (-(cf ⟨s.val, by omega⟩ * cf ⟨s.val, by omega⟩) * Ideal.sqrt (0 + ∑ k : Fin 3, (r k - ca k) * (r k - ca k))))
      + ((0 : EReal) + ∑ p : Fin 6,
          (cf ⟨22 + p.val, by omega⟩ * Ideal.exp (-(cf ⟨16 + p.val, by omega⟩ * cf ⟨16 + p.val, by omega⟩)
              * (Ideal.sqrt (0 + ∑ k : Fin 3, (r k - ca k) * (r k - ca k)) * Ideal.sqrt (0 + ∑ k : Fin 3, (r k - ca k) * (r k - ca k)))))
            * ((0 : EReal) + ∑ k : Fin 3, cf ⟨28 + 3 * p.val + k.val, by omega⟩ * eabs (r k - ca k)))
      = (∑ s : Fin 8, sTerm cf (Ideal.sqrt (dist2 r ca)) s)
          + ∑ p : Fin 6, pTerm cf (dist2 r ca) (fun k => eabs (disp r ca k)) p := by
  have hd : (0 : EReal) + ∑ k : Fin 3, (r k - ca k) * (r k - ca k) = dist2 r ca := dist2_eq_sum r ca
  rw [hd, dist_mul_self, zero_add, zero_add]
  refine congrArg₂ (· + ·) rfl (Finset.sum_congr rfl fun p _ => ?_)
  have ha := ang_eq_sum (fun k : Fin 3 => cf ⟨28 + 3 * p.val + k.val, by omega⟩) (fun k => eabs (r k - ca k))
  rw [ha]
  rfl

end Cert.Bridge

end
-- ==== Proof.KerRead.lean ====
/-
  The kernel program's result read one entry at a time.

  Its host tail adds the two cores' blocks and multiplies the `[64, 64]` sum against the indicator array; each core's
  block is two tile steps from zero.  Read at `(m, j)` this is a sum over the 64 centres of (a sum over the two cores of
  (zero plus the first tile's indicator-weighted contributions, plus the second tile's)) times the indicator of
  centre and column — the arrangement that collapses to the direct segment sum.
-/
import proofs.«130563_j43465069035926_2_alg».proof.Proof.KerValueRun
import proofs.«130563_j43465069035926_2_alg».proof.Proof.KerStep
import proofs.«130563_j43465069035926_2_alg».proof.Proof.Bridge
import Idealize.ShloMosaic.PureOps.Ideal.Laws

noncomputable section

open scoped BigOperators

namespace Cert.KernelIdeal.KerRead

open Idealize.ShloMosaic Idealize.ShloMosaic.ValueIdx
open Cert.KernelIdeal Cert.KernelIdeal.Gen
open Cert.KernelIdeal.KerValue Cert.KernelIdeal.KerStep Cert.Bridge

/-- What atom `a` contributes against centre `g`, from the whole arrays. -/
def coreOf (a0 : Vec Ideal S2048x128 .f32) (a2 : Vec Ideal S2048x3 .f32) (a5 : Vec Ideal S128x46 .f32)
    (a6 : Vec Ideal S46 .f32) (a3 : Vec Ideal S64x3 .f32) (a : Fin 2048) (g : Fin 64) : EReal :=
  Cert.Spec.corePair (fun k => a0 (ix2 a k)) (fun k => a2 (ix2 a k)) a5 a6 (fun k => a3 (ix2 g k))

/-- The starting accumulator is zero everywhere. -/
theorem zeros_apply (p : S64x64.Idx) : (zeros (F := Ideal)) p = 0 := by
  show shapeCast S64x64 (broadcast S64x64 (Scalar.ofBits (F := Ideal) .f32 0x00000000#32)) shapeCasts_S64x64_S64x64 p = 0
  rw [shapeCast_self]
  exact Ideal.ofBits_zero_f32

/-- One tile step over the whole arrays: the accumulator plus, over the atoms of tile `q`, the indicator times the
    atom's contribution. -/
theorem tileAt_apply (q : Fin 4) (a0 : Vec Ideal S2048x128 .f32) (a2 : Vec Ideal S2048x3 .f32) (oh : Vec Ideal S64x2048 .f32)
    (a5 : Vec Ideal S128x46 .f32) (a6 : Vec Ideal S46 .f32) (a3 : Vec Ideal S64x3 .f32) (acc : Vec Ideal S64x64 .f32)
    (m g : Fin 64) :
    tileAt (F := Ideal) q a0 a2 oh a5 a6 a3 acc (ix2 m g)
      = acc (ix2 m g) + ∑ i : Fin 512, oh (ix2 m (tileIdx q i)) * coreOf a0 a2 a5 a6 a3 (tileIdx q i) g := by
  unfold tileAt
  rw [tileStep_apply]
  rfl

/-- One core's block: zero, then its two tiles. -/
theorem coreAcc_apply (c : Fin 2) (a0 : Vec Ideal S2048x128 .f32) (a2 : Vec Ideal S2048x3 .f32) (oh : Vec Ideal S64x2048 .f32)
    (a5 : Vec Ideal S128x46 .f32) (a6 : Vec Ideal S46 .f32) (a3 : Vec Ideal S64x3 .f32) (m g : Fin 64) :
    coreAcc (F := Ideal) c a0 a2 oh a5 a6 a3 (ix2 m g)
      = ((0 : EReal) + ∑ i : Fin 512, oh (ix2 m (tileIdx ⟨2 * c.val, by omega⟩ i)) * coreOf a0 a2 a5 a6 a3 (tileIdx ⟨2 * c.val, by omega⟩ i) g)
        + ∑ i : Fin 512, oh (ix2 m (tileIdx ⟨2 * c.val + 1, by omega⟩ i)) * coreOf a0 a2 a5 a6 a3 (tileIdx ⟨2 * c.val + 1, by omega⟩ i) g := by
  unfold coreAcc
  rw [tileAt_apply, tileAt_apply, zeros_apply]

private theorem dotT_rank : dot_S64x64_S64x2048_S64x2048_1_0_0_1_n_n.contr.rank = 1 := rfl
private theorem dotT_size :
    dot_S64x64_S64x2048_S64x2048_1_0_0_1_n_n.contr.size ⟨0, by rw [dotT_rank]; exact Nat.one_pos⟩ = 64 := rfl

private theorem dotT_lhs (p : Fin 64) (c : Fin 2048) (k : Fin 64) :
    dot_S64x64_S64x2048_S64x2048_1_0_0_1_n_n.lhsIdx (ix2 p c)
      ((contrEquiv1 dot_S64x64_S64x2048_S64x2048_1_0_0_1_n_n 64 dotT_rank dotT_size).symm k) = ix2 p k := by
  have c2 := contrEquiv1_symm_val dot_S64x64_S64x2048_S64x2048_1_0_0_1_n_n 64 dotT_rank dotT_size k
  funext ax; apply Fin.ext
  match ax with
  | ⟨0, _⟩ => simp [DotDims.lhsIdx, dot_S64x64_S64x2048_S64x2048_1_0_0_1_n_n]; rfl
  | ⟨1, _⟩ => simp [DotDims.lhsIdx, dot_S64x64_S64x2048_S64x2048_1_0_0_1_n_n]; exact c2

private theorem dotT_rhs (p : Fin 64) (c : Fin 2048) (k : Fin 64) :
    dot_S64x64_S64x2048_S64x2048_1_0_0_1_n_n.rhsIdx (ix2 p c)
      ((contrEquiv1 dot_S64x64_S64x2048_S64x2048_1_0_0_1_n_n 64 dotT_rank dotT_size).symm k) = ix2 k c := by
  have c2 := contrEquiv1_symm_val dot_S64x64_S64x2048_S64x2048_1_0_0_1_n_n 64 dotT_rank dotT_size k
  funext ax; apply Fin.ext
  match ax with
  | ⟨0, _⟩ => simp [DotDims.rhsIdx, dot_S64x64_S64x2048_S64x2048_1_0_0_1_n_n]; exact c2
  | ⟨1, _⟩ => simp [DotDims.rhsIdx, dot_S64x64_S64x2048_S64x2048_1_0_0_1_n_n]; rfl

/-- The host tail at `(m, j)`: over the centres `g`, the two cores' entries `(m, g)` added from zero, times the
    second operand's entry `(g, j)`. -/
theorem kerTail_apply (reg : Vec Ideal S2x64x64 .f32) (oh : Vec Ideal S64x2048 .f32) (m : Fin 64) (j : Fin 2048) :
    kerTail (F := Ideal) reg oh (ix2 m j)
      = ∑ g : Fin 64, ((0 : EReal) + ∑ c : Fin 2, reg (ix3 c m g)) * oh (ix2 g j) := by
  have hR : Shape.Reduces S2x64x64 [0] S64x64 := by decide
  have e : ∀ (g : Fin 64) (c : Fin 2), hR.lift (ix2 m g) c = ix3 c m g := fun g c => funext fun a =>
    match a with | ⟨0, _⟩ => Fin.ext rfl | ⟨1, _⟩ => Fin.ext rfl | ⟨2, _⟩ => Fin.ext rfl
  unfold kerTail
  show FloatOps.dotGeneral (F := Ideal) dot_S64x64_S64x2048_S64x2048_1_0_0_1_n_n (some .fp32) .single _ oh (ix2 m j) = _
  rw [Ideal.dotGeneral_apply,
    Cert.DenseRow.contr_sum dot_S64x64_S64x2048_S64x2048_1_0_0_1_n_n dotT_rank dotT_size dotT_lhs dotT_rhs]
  refine Finset.sum_congr rfl fun g _ => congrArg (fun z => z * oh (ix2 g j)) ?_
  show Ideal.hostReduceAdd reducesTo_S2x64x64_S64x64_d0 reg (Ideal.ofBits .f32 0x00000000#32) (ix2 m g) = _
  rw [Ideal.hostReduceAdd_single reducesTo_S2x64x64_S64x64_d0 hR, Ideal.ofBits_zero_f32]
  refine congrArg (fun z => (0 : EReal) + z) (Finset.sum_congr rfl fun (c : Fin 2) _ => ?_)
  rw [e g c]

/-- The whole kernel program's result at `(m, j)`, over any indicator array `oh`, in the tiled arrangement. -/
theorem kerTail_region_apply (a0 : Vec Ideal S2048x128 .f32) (a2 : Vec Ideal S2048x3 .f32) (oh : Vec Ideal S64x2048 .f32)
    (a5 : Vec Ideal S128x46 .f32) (a6 : Vec Ideal S46 .f32) (a3 : Vec Ideal S64x3 .f32) (m : Fin 64) (j : Fin 2048) :
    kerTail (F := Ideal) (kerRegion a0 a2 oh a5 a6 a3) oh (ix2 m j)
      = ∑ g : Fin 64,
          ((0 : EReal) + ∑ c : Fin 2,
            (((0 : EReal) + ∑ i : Fin 512, oh (ix2 m (tileIdx ⟨2 * c.val, by omega⟩ i)) * coreOf a0 a2 a5 a6 a3 (tileIdx ⟨2 * c.val, by omega⟩ i) g)
              + ∑ i : Fin 512, oh (ix2 m (tileIdx ⟨2 * c.val + 1, by omega⟩ i)) * coreOf a0 a2 a5 a6 a3 (tileIdx ⟨2 * c.val + 1, by omega⟩ i) g))
            * oh (ix2 g j) := by
  rw [kerTail_apply]
  refine Finset.sum_congr rfl fun g _ => congrArg (fun z => z * oh (ix2 g j)) ?_
  refine congrArg (fun z => (0 : EReal) + z) (Finset.sum_congr rfl fun c _ => ?_)
  rw [kerRegion_apply a0 a2 oh a5 a6 a3 (ix3 c m g) c (ix2 m g) rfl rfl rfl, coreAcc_apply]

end Cert.KernelIdeal.KerRead

end
-- ==== Proof.KerOnehot.lean ====
import proofs.«130563_j43465069035926_2_alg».proof.Proof.Gen.KernelIdeal
import Idealize.ShloMosaic.Lib.ValueIdx
import Idealize.ShloMosaic.Lib.Pipeline.Value

/-! # The indicator array of a list of group numbers

From a vector `mi` of 2048 group numbers the host builds the `[64, 2048]` array whose entry `(m, a)` is one when
entry `a` belongs to group `m` and zero otherwise: both the vector (as a row) and the numbers `0 … 63` (as a column)
are broadcast to `[64, 2048]`, compared for equality, and the resulting bit is converted to a number. -/

noncomputable section

namespace Cert.KernelIdeal.KerOnehot

open Idealize.ShloMosaic Idealize.ShloMosaic.ValueIdx Cert.KernelIdeal Cert.KernelIdeal.Gen

/-- The indicator array of the group numbers `mi`: the host operations that build it, in their order. -/
def onehotOfIds {F : FTy → Type} [FloatOps F] (mi : (⟨S2048, .i32⟩ : BufTy).Contents (Elt F)) :
    (⟨S64x2048, .f32⟩ : BufTy).Contents (Elt F) :=
  (uitofp .f32 : (⟨S64x2048, .i1⟩ : BufTy).Contents (Elt F) → (⟨S64x2048, .f32⟩ : BufTy).Contents (Elt F))
    ((cmpi .eq : (⟨S64x2048, .i32⟩ : BufTy).Contents (Elt F) → (⟨S64x2048, .i32⟩ : BufTy).Contents (Elt F)
        → (⟨S64x2048, .i1⟩ : BufTy).Contents (Elt F))
      ((broadcastInDim S64x2048 ![0, 1] bcast_S1x2048_S64x2048_0_1 :
          (⟨S1x2048, .i32⟩ : BufTy).Contents (Elt F) → (⟨S64x2048, .i32⟩ : BufTy).Contents (Elt F))
        ((broadcastInDim S1x2048 ![1] bcast_S2048_S1x2048_1 :
            (⟨S2048, .i32⟩ : BufTy).Contents (Elt F) → (⟨S1x2048, .i32⟩ : BufTy).Contents (Elt F)) mi))
      ((broadcastInDim S64x2048 ![0, 1] bcast_S64x1_S64x2048_0_1 :
          (⟨S64x1, .i32⟩ : BufTy).Contents (Elt F) → (⟨S64x2048, .i32⟩ : BufTy).Contents (Elt F))
        ((broadcastInDim S64x1 ![0] bcast_S64_S64x1_0 :
            (⟨S64, .i32⟩ : BufTy).Contents (Elt F) → (⟨S64x1, .i32⟩ : BufTy).Contents (Elt F))
          (iotaInDim S64 32 0))))

/-- A vector broadcast to a row and then down the 64 rows, read at `(m, a)`: its entry `a`. -/
theorem rowBcast_apply {α : Type} (v : S2048.Idx → α) (m : Fin 64) (a : Fin 2048) :
    broadcastInDim S64x2048 ![0, 1] bcast_S1x2048_S64x2048_0_1 (broadcastInDim S1x2048 ![1] bcast_S2048_S1x2048_1 v)
      (ix2 m a) = v (ix1 a) := by
  have e2 : broadcastInDim S64x2048 ![0, 1] bcast_S1x2048_S64x2048_0_1 (broadcastInDim S1x2048 ![1] bcast_S2048_S1x2048_1 v)
      (ix2 m a) = broadcastInDim S1x2048 ![1] bcast_S2048_S1x2048_1 v (ix2 (0 : Fin 1) a) :=
    broadcastInDim_apply _ bcast_S1x2048_S64x2048_0_1 _ (ix2 m a) (ix2 (0 : Fin 1) a) fun ax => by
      match ax with
      | ⟨0, _⟩ => rfl
      | ⟨1, _⟩ => rfl
  have e1 : broadcastInDim S1x2048 ![1] bcast_S2048_S1x2048_1 v (ix2 (0 : Fin 1) a) = v (ix1 a) :=
    broadcastInDim_apply _ bcast_S2048_S1x2048_1 v (ix2 (0 : Fin 1) a) (ix1 a) fun ax => by
      match ax with
      | ⟨0, _⟩ => rfl
  rw [e2, e1]

/-- A vector of 64 entries broadcast to a column and then along the 2048 columns, read at `(m, a)`: its entry `m`. -/
theorem colBcast_apply {α : Type} (v : S64.Idx → α) (m : Fin 64) (a : Fin 2048) :
    broadcastInDim S64x2048 ![0, 1] bcast_S64x1_S64x2048_0_1 (broadcastInDim S64x1 ![0] bcast_S64_S64x1_0 v)
      (ix2 m a) = v (ix1 m) := by
  have e2 : broadcastInDim S64x2048 ![0, 1] bcast_S64x1_S64x2048_0_1 (broadcastInDim S64x1 ![0] bcast_S64_S64x1_0 v)
      (ix2 m a) = broadcastInDim S64x1 ![0] bcast_S64_S64x1_0 v (ix2 m (0 : Fin 1)) :=
    broadcastInDim_apply _ bcast_S64x1_S64x2048_0_1 _ (ix2 m a) (ix2 m (0 : Fin 1)) fun ax => by
      match ax with
      | ⟨0, _⟩ => rfl
      | ⟨1, _⟩ => rfl
  have e1 : broadcastInDim S64x1 ![0] bcast_S64_S64x1_0 v (ix2 m (0 : Fin 1)) = v (ix1 m) :=
    broadcastInDim_apply _ bcast_S64_S64x1_0 v (ix2 m (0 : Fin 1)) (ix1 m) fun ax => by
      match ax with
      | ⟨0, _⟩ => rfl
  rw [e2, e1]

/-- The indicator array at `(m, a)`: one when entry `a` of the group numbers is `m`, zero otherwise. -/
theorem onehotOfIds_apply (mi : (⟨S2048, .i32⟩ : BufTy).Contents (Elt Ideal)) (m : Fin 64) (a : Fin 2048) :
    onehotOfIds (F := Ideal) mi (ix2 m a) = if mi (ix1 a) = BitVec.ofNat 32 m.val then (1 : EReal) else 0 := by
  unfold onehotOfIds
  show (((IntOp.cmpi .eq
      (broadcastInDim S64x2048 ![0, 1] bcast_S1x2048_S64x2048_0_1 (broadcastInDim S1x2048 ![1] bcast_S2048_S1x2048_1 mi)
        (ix2 m a))
      (broadcastInDim S64x2048 ![0, 1] bcast_S64x1_S64x2048_0_1
        (broadcastInDim S64x1 ![0] bcast_S64_S64x1_0 (iotaInDim S64 32 0)) (ix2 m a))).toNat : ℝ) : EReal) = _
  rw [rowBcast_apply, colBcast_apply]
  show (((BitVec.ofBool (mi (ix1 a) == BitVec.ofNat 32 m.val)).toNat : ℝ) : EReal) = _
  by_cases h : mi (ix1 a) = BitVec.ofNat 32 m.val
  · rw [if_pos h, beq_iff_eq.mpr h]
    simp
  · rw [if_neg h, beq_eq_false_iff_ne.mpr h]
    simp

/-- Numbers below 64 are told apart by their 32-bit words. -/
theorem ofNat_eq_iff (x y : ℕ) (hx : x < 64) (hy : y < 64) : BitVec.ofNat 32 x = BitVec.ofNat 32 y ↔ x = y := by
  constructor
  · intro h
    have := congrArg BitVec.toNat h
    simp only [BitVec.toNat_ofNat] at this
    omega
  · intro h
    rw [h]

end Cert.KernelIdeal.KerOnehot

end
-- ==== Proof.KerOut.lean ====
import proofs.«130563_j43465069035926_2_alg».proof.Proof.KerRead
import proofs.«130563_j43465069035926_2_alg».proof.Proof.KerOnehot
import proofs.«130563_j43465069035926_2_alg».proof.Proof.KerValueHostDefs

/-! # The kernel program's result, entry by entry, as a sum over a group

The program's result at `(m, j)` is, in the arrangement the program computes it in, a sum over the 64 centres of the
tiled, indicator-weighted contributions times the indicator of centre and column.  When the indicator array is the
indicator of a map `mol` from the 2048 rows to the 64 groups, this collapses to the sum, over the rows of group `m`,
of what each contributes against the centre `mol j`. -/

noncomputable section

open scoped BigOperators

namespace Cert.KernelIdeal.KerOut

open Idealize.ShloMosaic Idealize.ShloMosaic.ValueIdx
open Cert.KernelIdeal Cert.KernelIdeal.Gen
open Cert.KernelIdeal.KerValue Cert.KernelIdeal.KerRead Cert.KernelIdeal.KerOnehot Cert.Bridge

/-- The indicator array of the counts is the indicator array of the group numbers computed from them. -/
theorem onehotOf_eq (a4 : (⟨S64, .i32⟩ : BufTy).Contents (Elt Ideal)) :
    onehotOf (F := Ideal) a4 = onehotOfIds (F := Ideal) (molIds (F := Ideal) a4) := rfl

/-- The indicator array at `(m, a)`, when the group numbers are the words of a map `mol` into `0 … 63`. -/
theorem onehotOf_apply (a4 : (⟨S64, .i32⟩ : BufTy).Contents (Elt Ideal)) (mol : Fin 2048 → Fin 64)
    (hmol : ∀ (j : Fin 2048) (m : Fin 64), molIds (F := Ideal) a4 (ix1 j) = BitVec.ofNat 32 m.val ↔ mol j = m)
    (m : Fin 64) (a : Fin 2048) :
    onehotOf (F := Ideal) a4 (ix2 m a) = if mol a = m then (1 : EReal) else 0 := by
  rw [onehotOf_eq, onehotOfIds_apply]
  by_cases h : mol a = m
  · rw [if_pos h, if_pos ((hmol a m).mpr h)]
  · rw [if_neg h, if_neg fun h' => h ((hmol a m).mp h')]

/-- The program's result at `(m, j)`: the sum over the rows of group `m` of each row's contribution against the
centre `mol j`. -/
theorem kerOut_apply_of (a0 : Vec Ideal S2048x128 .f32) (a2 : Vec Ideal S2048x3 .f32) (a3 : Vec Ideal S64x3 .f32)
    (a4 : (⟨S64, .i32⟩ : BufTy).Contents (Elt Ideal)) (a5 : Vec Ideal S128x46 .f32) (a6 : Vec Ideal S46 .f32)
    (mol : Fin 2048 → Fin 64)
    (hmol : ∀ (j : Fin 2048) (m : Fin 64), molIds (F := Ideal) a4 (ix1 j) = BitVec.ofNat 32 m.val ↔ mol j = m)
    (m : Fin 64) (j : Fin 2048) :
    kerTail (F := Ideal) (kerRegion a0 a2 (onehotOf (F := Ideal) a4) a5 a6 a3) (onehotOf (F := Ideal) a4) (ix2 m j)
      = ∑ a ∈ Finset.univ.filter (fun a => mol a = m), coreOf a0 a2 a5 a6 a3 a (mol j) := by
  rw [kerTail_region_apply]
  exact (zero_add _).symm.trans
    (tiled_eq_direct mol (coreOf a0 a2 a5 a6 a3) (fun m a => onehotOf (F := Ideal) a4 (ix2 m a))
      (onehotOf_apply a4 mol hmol) m j)

end Cert.KernelIdeal.KerOut

end
-- ==== Proof.RefStages.lean ====
import proofs.«130563_j43465069035926_2_alg».proof.Proof.Gen.ReferenceIdeal

/-!
# The values the reference program computes, stage by stage

Each definition composes the functions of the operations of one stage of the reference's @main, in the program's order
and with the program's own shape evidence, as a function of the argument arrays; nothing is simplified. The stages: the
atoms' global index from the segment sizes (rotate, clear the first place, running sum, wrap, count the segment starts,
running sum, minus one); the segment id of each atom (a guarded lookup in the identity table); the guarded lookup of each
atom's segment centre; the per-atom coefficients (a matrix product plus a bias) and their five column blocks; the
pairwise displacement and distance; the radial sum over eight terms and its per-segment sum; the directional sum over six
terms and its per-segment sum; their sum.
-/

noncomputable section

namespace Cert.ReferenceIdeal.RefRun

open Cert.ReferenceIdeal Cert.ReferenceIdeal.Gen Idealize.ShloMosaic Idealize.SL.Sem

variable {F : FTy → Type} [FloatOps F]

/-- The segment sizes rotated by one place: the last first (operations 2 … 4). -/
def rolled (a4 : IVec S64 32) : IVec S64 32 :=
  concatenate S64 0 [⟨S1, extractStridedSlice S1 ![63] a4 slices_S64_S1_63⟩, ⟨S63, extractStridedSlice S63 ![0] a4 slices_S64_S63_0⟩]
    concatenates_S1_S63_S64_d0

/-- The segments' first atoms: the rotated sizes with the first place cleared, summed from the left (operations 5 … 11). -/
def offsets (a4 : IVec S64 32) : IVec S64 32 :=
  Host.reduceWindow IntOp.addi ![64] ![1] ![63] ![0]
    (Host.scatter scatter_S64_S1_S__n_0_0_0 (fun _ b => b) (rolled a4)
      (broadcastInDim S1 ![] bcast_S_S1 (constantI S_ 32 0#32)) (constantI S_ 32 0#32))
    (broadcastInDim S_ ![] bcast_S_S_ (constantI S_ 32 0#32)) reduceWindows_S64_S64_w64s1p63_0 h_S_

/-- The first atoms with a negative one moved up by the number of atoms (operations 12 … 20). -/
def offsetsW (a4 : IVec S64 32) : IVec S64 32 :=
  select (cmpi .slt (offsets a4) (broadcastInDim S64 ![] bcast_S_S64 (constantI S_ 32 0#32)))
    (addi (offsets a4) (broadcastInDim S64 ![] bcast_S_S64 (constantI S_ 32 2048#32))) (offsets a4)

/-- How many segments start at each atom: ones added into zeros at the first atoms (operations 21 … 24). -/
def marks (a4 : IVec S64 32) : IVec S2048 32 :=
  Host.scatter scatter_S2048_S64x1_S64_n_0_0_1 IntOp.addi (broadcastInDim S2048 ![] bcast_S_S2048 (constantI S_ 32 0#32))
    (broadcastInDim S64x1 ![0] bcast_S64_S64x1_0 (offsetsW a4)) (broadcastInDim S64 ![] bcast_S_S64 (constantI S_ 32 1#32))

/-- Each atom's global index: the start counts summed from the left, minus one (operations 25 … 30; the
    contents of `main_v16`, and again of `main_v33`). -/
def gidx (a4 : IVec S64 32) : IVec S2048 32 :=
  subi (Host.reduceWindow IntOp.addi ![2048] ![1] ![2047] ![0] (marks a4)
      (broadcastInDim S_ ![] bcast_S_S_ (constantI S_ 32 0#32)) reduceWindows_S2048_S2048_w2048s1p2047_0 h_S_)
    (broadcastInDim S2048 ![] bcast_S_S2048 (constantI S_ 32 1#32))

/-- A lookup's index column: a negative index moved up by the table's length (the lookups' first eight operations). -/
def wrapIdx (g : IVec S2048 32) : IVec S2048x1 32 :=
  broadcastInDim S2048x1 ![0] bcast_S2048_S2048x1_0
    (select (cmpi .slt g (broadcastInDim S2048 ![] bcast_S_S2048 (constantI S_ 32 0#32)))
      (addi g (broadcastInDim S2048 ![] bcast_S_S2048 (constantI S_ 32 64#32))) g)

/-- Whether a lookup's index lies in the table: between zero and sixty-three (the lookups' next ten operations). -/
def inRange (ix : IVec S2048x1 32) : IVec S2048 1 :=
  Host.reduce IntOp.andi
    (andi (cmpi .sge ix (broadcastInDim S2048x1 ![] bcast_S_S2048x1 (constantI S_ 32 0#32)))
      (cmpi .sle ix (broadcastInDim S2048x1 ![0, 1] bcast_S1x1_S2048x1_0_1
        (broadcastInDim S1x1 ![1] bcast_S1_S1x1_1 (constantI S1 32 63#32)))))
    (constantI S_ 1 1#1) reducesTo_S2048x1_S2048_d1 h_S_

/-- Each atom's segment id: the identity table read at the atom's global index, the least integer where the index is
    outside the table (operations 31 … 52; the contents of `main_v17`). -/
def molIds (a4 : IVec S64 32) : IVec S2048 32 :=
  select (inRange (wrapIdx (gidx a4)))
    (Host.gather gather_S64_S2048x1_S2048_n_0_n_n_0_1_1 (iotaInDim S64 32 0) (wrapIdx (gidx a4)))
    (broadcastInDim S2048 ![] bcast_S_S2048 (constantI S_ 32 2147483648#32))

/-- Each atom's segment centre: the centres read at the atom's global index, not-a-number where the index is outside
    the table (operations 53 … 104; the contents of `main_v34`). -/
def coordsA (a3 : FVec F S64x3 .f32) (a4 : IVec S64 32) : FVec F S2048x3 .f32 :=
  select (broadcastInDim S2048x3 ![0] bcast_S2048_S2048x3_0 (inRange (wrapIdx (gidx a4))))
    (Host.gather gather_S64x3_S2048x1_S2048x3_1_0_n_n_0_1_13 a3 (wrapIdx (gidx a4)))
    (broadcastInDim S2048x3 ![] bcast_S_S2048x3 (constant (F := F) S_ .f32 0x7FC00000#32))

/-- The per-atom coefficients: the features times the weights, plus the bias (operations 105 … 108; `main_v38`). -/
def coeffs (a0 : FVec F S2048x128 .f32) (a5 : FVec F S128x46 .f32) (a6 : FVec F S46 .f32) : FVec F S2048x46 .f32 :=
  addf (Host.dotGeneral dot_S2048x128_S128x46_S2048x46_1_0_0_1_n_n none a0 a5)
    (broadcastInDim S2048x46 ![0, 1] bcast_S1x46_S2048x46_0_1 (broadcastInDim S1x46 ![1] bcast_S46_S1x46_1 a6))

/-- Columns 0 … 7, squared: the radial terms' decay rates (`main_v40`). -/
def decayS (cf : FVec F S2048x46 .f32) : FVec F S2048x8 .f32 :=
  mulf (extractStridedSlice S2048x8 ![0, 0] cf slices_S2048x46_S2048x8_0_0)
    (extractStridedSlice S2048x8 ![0, 0] cf slices_S2048x46_S2048x8_0_0)

/-- Columns 8 … 15: the radial terms' amplitudes (`main_v41`). -/
def ampS (cf : FVec F S2048x46 .f32) : FVec F S2048x8 .f32 :=
  extractStridedSlice S2048x8 ![0, 8] cf slices_S2048x46_S2048x8_0_8

/-- Columns 16 … 21, squared: the directional terms' decay rates (`main_v43`). -/
def decayP (cf : FVec F S2048x46 .f32) : FVec F S2048x6 .f32 :=
  mulf (extractStridedSlice S2048x6 ![0, 16] cf slices_S2048x46_S2048x6_0_16)
    (extractStridedSlice S2048x6 ![0, 16] cf slices_S2048x46_S2048x6_0_16)

/-- Columns 22 … 27: the directional terms' amplitudes (`main_v44`). -/
def ampP (cf : FVec F S2048x46 .f32) : FVec F S2048x6 .f32 :=
  extractStridedSlice S2048x6 ![0, 22] cf slices_S2048x46_S2048x6_0_22

/-- Columns 28 … 45 (`main_v45`). -/
def dirRaw (cf : FVec F S2048x46 .f32) : FVec F S2048x18 .f32 :=
  extractStridedSlice S2048x18 ![0, 28] cf slices_S2048x46_S2048x18_0_28

/-- Columns 28 … 45 as six triples: the directional terms' weights per axis (`main_v46`). -/
def dirP (cf : FVec F S2048x46 .f32) : FVec F S2048x6x3 .f32 :=
  shapeCast S2048x6x3 (dirRaw cf) shapeCasts_S2048x18_S2048x6x3

/-- The displacement of every atom from every atom's segment centre (operations 117 … 121; `main_v51`). -/
def diff (a2 : FVec F S2048x3 .f32) (cA : FVec F S2048x3 .f32) : FVec F S2048x2048x3 .f32 :=
  subf
    (broadcastInDim S2048x2048x3 ![0, 1, 2] bcast_S2048x1x3_S2048x2048x3_0_1_2
      (broadcastInDim S2048x1x3 ![0, 2] bcast_S2048x3_S2048x1x3_0_2 a2))
    (broadcastInDim S2048x2048x3 ![0, 1, 2] bcast_S1x2048x3_S2048x2048x3_0_1_2
      (broadcastInDim S1x2048x3 ![1, 2] bcast_S2048x3_S1x2048x3_1_2 cA))

/-- The displacements' lengths: the root of the sum of the squares over the three axes (operations 122 … 125; `main_v52`). -/
def dist (df : FVec F S2048x2048x3 .f32) : FVec F S2048x2048 .f32 :=
  Host.sqrt (Host.reduceAdd (mulf df df) (constant (F := F) S_ .f32 0x00000000#32) reducesTo_S2048x2048x3_S2048x2048_d2 h_S_)

/-- The radial sum: over the eight terms, amplitude times the exponential of minus the decay rate times the
    distance (operations 126 … 137; `main_v63`). -/
def sOut (cf : FVec F S2048x46 .f32) (d : FVec F S2048x2048 .f32) : FVec F S2048x2048 .f32 :=
  Host.reduceAdd
    (mulf
      (broadcastInDim S2048x8x2048 ![0, 1, 2] bcast_S2048x8x1_S2048x8x2048_0_1_2
        (broadcastInDim S2048x8x1 ![0, 1] bcast_S2048x8_S2048x8x1_0_1 (ampS cf)))
      (Host.exp (mulf
        (broadcastInDim S2048x8x2048 ![0, 1, 2] bcast_S2048x8x1_S2048x8x2048_0_1_2
          (Host.negf (broadcastInDim S2048x8x1 ![0, 1] bcast_S2048x8_S2048x8x1_0_1 (decayS cf))))
        (broadcastInDim S2048x8x2048 ![0, 1, 2] bcast_S2048x1x2048_S2048x8x2048_0_1_2
          (broadcastInDim S2048x1x2048 ![0, 2] bcast_S2048x2048_S2048x1x2048_0_2 d)))))
    (constant (F := F) S_ .f32 0x00000000#32) reducesTo_S2048x8x2048_S2048x2048_d1 h_S_

/-- The rows of `x` added up by segment: row `i` added into row `ids i` of zeros (the per-segment sums' four operations). -/
def segSum (ids : IVec S2048 32) (x : FVec F S2048x2048 .f32) : FVec F S64x2048 .f32 :=
  Host.scatterAdd scatter_S64x2048_S2048x1_S2048x2048_1_0_0_1
    (broadcastInDim S64x2048 ![] bcast_S_S64x2048 (constant (F := F) S_ .f32 0x00000000#32))
    (broadcastInDim S2048x1 ![0] bcast_S2048_S2048x1_0 ids) x

/-- The radial sum by segment (operations 138 … 141; `main_v66`). -/
def sSeg (ids : IVec S2048 32) (so : FVec F S2048x2048 .f32) : FVec F S64x2048 .f32 := segSum ids so

/-- The directional terms' radial factor: amplitude times the exponential of minus the decay rate times the squared
    distance (operations 142 … 152; `main_v77`). -/
def radP (cf : FVec F S2048x46 .f32) (d : FVec F S2048x2048 .f32) : FVec F S2048x6x2048 .f32 :=
  mulf
    (broadcastInDim S2048x6x2048 ![0, 1, 2] bcast_S2048x6x1_S2048x6x2048_0_1_2
      (broadcastInDim S2048x6x1 ![0, 1] bcast_S2048x6_S2048x6x1_0_1 (ampP cf)))
    (Host.exp (mulf
      (broadcastInDim S2048x6x2048 ![0, 1, 2] bcast_S2048x6x1_S2048x6x2048_0_1_2
        (Host.negf (broadcastInDim S2048x6x1 ![0, 1] bcast_S2048x6_S2048x6x1_0_1 (decayP cf))))
      (broadcastInDim S2048x6x2048 ![0, 1, 2] bcast_S2048x1x2048_S2048x6x2048_0_1_2
        (broadcastInDim S2048x1x2048 ![0, 2] bcast_S2048x2048_S2048x1x2048_0_2 (mulf d d)))))

/-- The directional terms' angular factor: the per-axis weights against the displacement's absolute values, summed
    over the three axes (operations 153 … 160; `main_v84`). -/
def angP (cf : FVec F S2048x46 .f32) (df : FVec F S2048x2048x3 .f32) : FVec F S2048x6x2048 .f32 :=
  Host.reduceAdd
    (mulf
      (broadcastInDim S2048x6x2048x3 ![0, 1, 2, 3] bcast_S2048x6x1x3_S2048x6x2048x3_0_1_2_3
        (broadcastInDim S2048x6x1x3 ![0, 1, 3] bcast_S2048x6x3_S2048x6x1x3_0_1_3 (dirP cf)))
      (broadcastInDim S2048x6x2048x3 ![0, 1, 2, 3] bcast_S2048x1x2048x3_S2048x6x2048x3_0_1_2_3
        (broadcastInDim S2048x1x2048x3 ![0, 2, 3] bcast_S2048x2048x3_S2048x1x2048x3_0_2_3 (Host.absf df))))
    (constant (F := F) S_ .f32 0x00000000#32) reducesTo_S2048x6x2048x3_S2048x6x2048_d3 h_S_

/-- The directional sum: over the six terms, the radial factor times the angular factor (operations 161 … 163; `main_v86`). -/
def pOut (cf : FVec F S2048x46 .f32) (df : FVec F S2048x2048x3 .f32) (d : FVec F S2048x2048 .f32) : FVec F S2048x2048 .f32 :=
  Host.reduceAdd (mulf (radP cf d) (angP cf df)) (constant (F := F) S_ .f32 0x00000000#32)
    reducesTo_S2048x6x2048_S2048x2048_d1 h_S_

/-- The directional sum by segment (operations 164 … 167; `main_v89`). -/
def pSeg (ids : IVec S2048 32) (po : FVec F S2048x2048 .f32) : FVec F S64x2048 .f32 := segSum ids po

/-- The result (`main_v90`) as the operations' composed term of the argument arrays: the radial sum by segment plus the
    directional sum by segment. -/
def refOut (a0 : (⟨S2048x128, .f32⟩ : BufTy).Contents (Elt F)) (a2 : (⟨S2048x3, .f32⟩ : BufTy).Contents (Elt F))
    (a3 : (⟨S64x3, .f32⟩ : BufTy).Contents (Elt F)) (a4 : (⟨S64, .i32⟩ : BufTy).Contents (Elt F))
    (a5 : (⟨S128x46, .f32⟩ : BufTy).Contents (Elt F)) (a6 : (⟨S46, .f32⟩ : BufTy).Contents (Elt F)) :
    (⟨S64x2048, .f32⟩ : BufTy).Contents (Elt F) :=
  addf (sSeg (molIds a4) (sOut (coeffs a0 a5 a6) (dist (diff a2 (coordsA a3 a4)))))
    (pSeg (molIds a4) (pOut (coeffs a0 a5 a6) (diff a2 (coordsA a3 a4)) (dist (diff a2 (coordsA a3 a4)))))

end Cert.ReferenceIdeal.RefRun

end
-- ==== Proof.LibRepeatIndex.lean ====
import Mathlib
import Idealize.ShloMosaic.PureOps.Reduce
import Idealize.ShloMosaic.Lib.ValueIdx

/-!
# Index vectors of `jnp.repeat` with a total length, and the `take` that reads through them

The index vector of `repeat(a, N, total_repeat_length = L)` is computed from the repeat counts `N` by an
exclusive prefix sum, a scatter-add of ones at the prefix sums, and a second prefix sum minus one. Whatever the
counts are, position `0` receives at least one of the ones and at most as many ones as there are counts are added in
all, so every entry of the index vector lies between `0` and the number of counts minus one. A fill-mode `take`
through such a vector therefore never meets its fill value.
-/

noncomputable section

open scoped BigOperators

namespace Cert.LibRepeatIndex

open Idealize.ShloMosaic Idealize.ShloMosaic.ValueIdx

/-! ## Folds as sums -/

/-- A left fold that adds `g n` for each `n` of a list is the start value plus the sum of the `g n`. -/
theorem foldl_add_eq_sum_map {M ι : Type*} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- A left fold over all of `Fin N` that adds `g n` is the start value plus the sum of `g`. -/
theorem foldl_add_finRange {M : Type*} [AddCommMonoid M] (N : ℕ) (g : Fin N → M) (v : M) :
    (List.finRange N).foldl (fun r n => r + g n) v = v + ∑ n : Fin N, g n := by
  rw [foldl_add_eq_sum_map, Fin.sum_univ_def]

/-- The indices of a rank-one shape are its one coordinate. -/
def idxEquiv1 {n : ℕ} : (⟨1, ![n]⟩ : Shape).Idx ≃ Fin n where
  toFun i := i 0
  invFun a := ix1 a
  left_inv i := (eq_ix1 i).symm
  right_inv _ := rfl

/-- A sum over the row-major positions of a rank-one shape is the sum over its coordinate. -/
theorem sum_rowMajor_one {M : Type*} [AddCommMonoid M] {n : ℕ} (g : (⟨1, ![n]⟩ : Shape).Idx → M) :
    ∑ m : Fin (⟨1, ![n]⟩ : Shape).numel, g ((⟨1, ![n]⟩ : Shape).rowMajor.symm m) = ∑ k : Fin n, g (ix1 k) :=
  (Equiv.sum_comp (⟨1, ![n]⟩ : Shape).rowMajor.symm g).trans (Equiv.sum_comp idxEquiv1.symm g).symm

/-! ## The two prefix sums -/

/-- One term of a one-axis window fold, read by the coordinate: window element `i` of result `j`, the window
    as long as the operand and the low padding `m`, is operand element `j + i - m` when that exists. -/
theorem window_term {α : Type} (n m : ℕ) (x : (⟨1, ![n]⟩ : Shape).Idx → α) (v : α) (j : Fin n)
    (e : (⟨1, ![n]⟩ : Shape).rank = (⟨1, ![n]⟩ : Shape).rank) (i : (⟨1, ![n]⟩ : Shape).Idx) :
    (if hin : ∀ a : Fin (⟨1, ![n]⟩ : Shape).rank,
        (![m] : Fin 1 → ℕ) a ≤ (ix1 j (a.cast e)).val * (![1] : Fin 1 → ℕ) a + (i a).val ∧
          (ix1 j (a.cast e)).val * (![1] : Fin 1 → ℕ) a + (i a).val - (![m] : Fin 1 → ℕ) a < (⟨1, ![n]⟩ : Shape).size a
      then x (fun a => ⟨(ix1 j (a.cast e)).val * (![1] : Fin 1 → ℕ) a + (i a).val - (![m] : Fin 1 → ℕ) a, (hin a).2⟩)
      else v)
    = if hin : m ≤ j.val + (i 0).val ∧ j.val + (i 0).val - m < n then x (ix1 ⟨j.val + (i 0).val - m, hin.2⟩) else v := by
  by_cases c : m ≤ j.val + (i 0).val ∧ j.val + (i 0).val - m < n
  · have c' : ∀ a : Fin (⟨1, ![n]⟩ : Shape).rank,
        (![m] : Fin 1 → ℕ) a ≤ (ix1 j (a.cast e)).val * (![1] : Fin 1 → ℕ) a + (i a).val ∧
          (ix1 j (a.cast e)).val * (![1] : Fin 1 → ℕ) a + (i a).val - (![m] : Fin 1 → ℕ) a < (⟨1, ![n]⟩ : Shape).size a :=
      fun a => match a with
        | ⟨0, _⟩ => by
          show m ≤ j.val * 1 + (i 0).val ∧ j.val * 1 + (i 0).val - m < n
          omega
    rw [dif_pos c, dif_pos c']
    congr 1
    funext a
    match a with
    | ⟨0, _⟩ =>
      refine Fin.ext ?_
      show j.val * 1 + (i 0).val - m = j.val + (i 0).val - m
      omega
  · rw [dif_neg c, dif_neg]
    intro hh
    apply c
    have := hh ⟨0, Nat.one_pos⟩
    change m ≤ j.val * 1 + (i 0).val ∧ j.val * 1 + (i 0).val - m < n at this
    omega

/-- A window as long as the row, padded `m` low, read at result `j` of a row of `m + 1` entries, holds the
    entries `0 … j`: the rotation `k ↦ k + j + 1` of the window positions carries position `k` to the entry it
    reads (when it reads one) and to an entry past `j` otherwise. -/
theorem sum_window_eq_prefix {M : Type*} [AddCommMonoid M] (m : ℕ) (X : Fin (m + 1) → M) (j : Fin (m + 1)) :
    (∑ k : Fin (m + 1), if hin : m ≤ j.val + k.val ∧ j.val + k.val - m < m + 1
        then X ⟨j.val + k.val - m, hin.2⟩ else 0)
      = ∑ i : Fin (m + 1), if i.val ≤ j.val then X i else 0 := by
  let a : Fin (m + 1) := ⟨(j.val + 1) % (m + 1), Nat.mod_lt _ (Nat.succ_pos m)⟩
  refine Fintype.sum_equiv (Equiv.addRight a) _ _ (fun k => ?_)
  have hk := k.isLt
  have hj := j.isLt
  have hval : ((Equiv.addRight a) k).val = (k.val + j.val + 1) % (m + 1) := by
    show (k + a).val = _
    rw [Fin.val_add]
    show (k.val + (j.val + 1) % (m + 1)) % (m + 1) = _
    rw [Nat.add_mod_mod, Nat.add_assoc]
  by_cases c : m ≤ j.val + k.val
  · have hv : ((Equiv.addRight a) k).val = j.val + k.val - m := by
      rw [hval, Nat.mod_eq_sub_mod (by omega), Nat.mod_eq_of_lt (by omega)]; omega
    rw [dif_pos ⟨c, by omega⟩, if_pos (by omega)]
    congr 1
    exact Fin.ext hv.symm
  · have hv : ((Equiv.addRight a) k).val = k.val + j.val + 1 := by
      rw [hval, Nat.mod_eq_of_lt (by omega)]
    rw [dif_neg (fun h => c h.1), if_neg (by omega)]

/-- THE PRINTED PREFIX SUM READ AT AN INDEX. A `reduce_window` by integer addition over a row of `n`
    entries, its window `n` long, stride one, padded `n - 1` low and from initial value zero (what `cumsum`
    prints), has at `j` the sum of the entries `0 … j`. -/
theorem reduceWindow_cumsum_apply (n m : ℕ) (hm : m + 1 = n) (x : IVec ⟨1, ![n]⟩ 32) (init : IVec ⟨0, ![]⟩ 32)
    (hinit : ∀ i, init i = 0#32)
    (h : (⟨1, ![n]⟩ : Shape).ReduceWindows ![n] ![1] ![m] ![0] ⟨1, ![n]⟩) (hu : 0 < (⟨0, ![]⟩ : Shape).numel)
    (j : Fin n) :
    Host.reduceWindow IntOp.addi ![n] ![1] ![m] ![0] x init h hu (ix1 j)
      = ∑ k : Fin n, if k.val ≤ j.val then x (ix1 k) else 0 := by
  subst hm
  let g : (⟨1, ![m + 1]⟩ : Shape).Idx → BitVec 32 := fun i =>
    if hin : m ≤ j.val + (i 0).val ∧ j.val + (i 0).val - m < m + 1
      then x (ix1 ⟨j.val + (i 0).val - m, hin.2⟩) else 0#32
  have key : Host.reduceWindow IntOp.addi ![m + 1] ![1] ![m] ![0] x init h hu (ix1 j)
      = (List.finRange (⟨1, ![m + 1]⟩ : Shape).numel).foldl
          (fun r q => r + g ((⟨1, ![m + 1]⟩ : Shape).rowMajor.symm q)) 0#32 := by
    unfold Host.reduceWindow
    simp only [hinit]
    congr 1
    funext r q
    show IntOp.addi r _ = r + _
    rw [window_term]
    rfl
  rw [key, foldl_add_finRange, show (0#32 : BitVec 32) = 0 from rfl, zero_add]
  exact (sum_rowMajor_one g).trans (sum_window_eq_prefix m (fun i => x (ix1 i)) j)

/-! ## Scatter with a sum as its body -/

/-- A fold of scatter steps read at one position `p`, the body addition: the start value at `p` plus the updates
    of the steps that land on `p`. The step is given by what it does: nothing when the update lands nowhere, the
    update added at the position it lands on, every other position kept. -/
theorem foldl_scatter_add_apply {M ι κ : Type*} [AddCommMonoid M] [DecidableEq κ] (land : ι → Option κ)
    (upd : ι → M) (step : (κ → M) → ι → κ → M)
    (hnone : ∀ r n, land n = none → step r n = r)
    (hhit : ∀ r n i, land n = some i → step r n i = r i + upd n)
    (hmiss : ∀ r n i i', land n = some i → i' ≠ i → step r n i' = r i')
    (l : List ι) (r0 : κ → M) (p : κ) :
    (l.foldl step r0) p = r0 p + (l.map fun n => if land n = some p then upd n else 0).sum := by
  induction l generalizing r0 with
  | nil => simp
  | cons n l ih =>
    rw [List.foldl_cons, ih, List.map_cons, List.sum_cons, ← add_assoc]
    congr 1
    rcases h : land n with _ | i
    · rw [hnone r0 n h]; simp
    · by_cases hp : p = i
      · subst hp; rw [hhit r0 n p h]; simp
      · have : ¬ i = p := fun e => hp e.symm
        rw [hmiss r0 n i p h hp]; simp [this]

/-- A `scatter` whose body is addition, read at `p`: the operand at `p` plus the sum of the updates whose
    result index is `p` (an update that lands outside the operand has none). -/
theorem scatter_add_apply {s si u : Shape} {w : ℕ} {M : Type} [AddCommMonoid M] (d : ScatterDims s si u)
    (f : M → M → M) (hf : ∀ a b, f a b = a + b) (x : s.Idx → M) (idx : IVec si w) (upd : u.Idx → M) (p : s.Idx) :
    Host.scatter d f x idx upd p = x p + ∑ i : u.Idx, if d.resultIdx? i idx = some p then upd i else 0 := by
  obtain rfl : f = (· + ·) := funext fun a => funext fun b => hf a b
  unfold Host.scatter
  refine (foldl_scatter_add_apply (fun n => d.resultIdx? (u.rowMajor.symm n) idx)
    (fun n => upd (u.rowMajor.symm n)) _ ?_ ?_ ?_ (List.finRange u.numel) x p).trans ?_
  · intro r n h; simp only [h]
  · intro r n i h; simp only [h, if_true]
  · intro r n i i' h hne; simp only [h, if_neg hne]
  rw [← Fin.sum_univ_def]
  exact congrArg (x p + ·)
    (Equiv.sum_comp u.rowMajor.symm (fun i => if d.resultIdx? i idx = some p then upd i else 0))

/-! ## The scatter-add of ones into a row of 2048, at 64 computed positions -/

/-- Where update `k` of `zeros(2048).at[idx].add(v)` lands (64 scatter indices, each one scalar): at the
    `k`-th index read signed, when that is inside the row; nowhere otherwise. -/
theorem resultIdx_col (d : ScatterDims ⟨1, ![2048]⟩ ⟨2, ![64, 1]⟩ ⟨1, ![64]⟩)
    (h1 : d.updateWindowDims = []) (h2 : d.insertedWindowDims = [0]) (h3 : d.scatterDimsToOperandDims = [0])
    (h4 : d.indexVectorDim = 1) (idx : IVec ⟨2, ![64, 1]⟩ 32) (k : Fin 64) :
    d.resultIdx? (ix1 k) idx
      = if h : 0 ≤ (idx (ix2 k (0 : Fin 1))).toInt ∧ (idx (ix2 k (0 : Fin 1))).toInt < 2048
          then some (ix1 ⟨(idx (ix2 k (0 : Fin 1))).toInt.toNat, by omega⟩) else none := by
  obtain ⟨uw, iw, sd, iv, wf⟩ := d
  dsimp only at h1 h2 h3 h4
  subst h1 h2 h3 h4
  have hstart : ∀ a, (ScatterDims.mk [] [0] [0] 1 wf :
      ScatterDims ⟨1, ![2048]⟩ ⟨2, ![64, 1]⟩ ⟨1, ![64]⟩).start (ix1 k) idx a
        = (idx (ix2 k (0 : Fin 1))).toInt := by
    intro a
    obtain rfl : a = 0 := Subsingleton.elim _ _
    unfold ScatterDims.start
    rw [dif_pos (List.mem_singleton.mpr rfl)]
    congr 2
    funext b
    refine Fin.ext ?_
    match b with
    | ⟨0, _⟩ => rfl
    | ⟨1, _⟩ => rfl
  have hwin : ∀ a, (ScatterDims.mk [] [0] [0] 1 wf :
      ScatterDims ⟨1, ![2048]⟩ ⟨2, ![64, 1]⟩ ⟨1, ![64]⟩).window (ix1 k) a = 0 := by
    intro a
    obtain rfl : a = 0 := Subsingleton.elim _ _
    unfold ScatterDims.window
    rw [dif_neg (show (0 : Fin (⟨1, ![2048]⟩ : Shape).rank) ∉ (⟨1, ![2048]⟩ : Shape).kept [0] by decide)]
  unfold ScatterDims.resultIdx?
  by_cases c : 0 ≤ (idx (ix2 k (0 : Fin 1))).toInt ∧ (idx (ix2 k (0 : Fin 1))).toInt < 2048
  · rw [dif_pos c, dif_pos]
    · congr 1
      funext a
      obtain rfl : a = 0 := Subsingleton.elim _ _
      refine Fin.ext ?_
      show (_ + _ : ℤ).toNat = _
      rw [hstart, hwin]
      simp
    · intro a
      obtain rfl : a = 0 := Subsingleton.elim _ _
      rw [hstart, hwin]
      show 0 ≤ _ + ((0 : ℕ) : ℤ) ∧ _ + ((0 : ℕ) : ℤ) < ((2048 : ℕ) : ℤ)
      omega
  · rw [dif_neg c, dif_neg]
    intro hh
    apply c
    have := hh 0
    rw [hstart, hwin] at this
    change 0 ≤ _ + ((0 : ℕ) : ℤ) ∧ _ + ((0 : ℕ) : ℤ) < ((2048 : ℕ) : ℤ) at this
    omega

/-- An in-range start index lands on `p` exactly when it reads `p`. -/
theorem some_ix1_eq_iff (t : ℤ) (p : Fin 2048) :
    ((if h : 0 ≤ t ∧ t < 2048 then some (ix1 (⟨t.toNat, by omega⟩ : Fin 2048)) else none) = some (ix1 p))
      ↔ t = (p.val : ℤ) := by
  have hp := p.isLt
  constructor
  · intro h
    by_cases c : 0 ≤ t ∧ t < 2048
    · rw [dif_pos c] at h
      have h0 := congrArg Fin.val (congrFun (Option.some.inj h) 0)
      change t.toNat = p.val at h0
      omega
    · rw [dif_neg c] at h
      cases h
  · intro h
    rw [dif_pos ⟨by omega, by omega⟩]
    have e : (⟨t.toNat, by omega⟩ : Fin 2048) = p := Fin.ext (by show t.toNat = p.val; omega)
    rw [e]

/-- How many of the 64 scatter indices read `p`, as signed integers. -/
def landCount (idx : IVec ⟨2, ![64, 1]⟩ 32) (p : Fin 2048) : ℕ :=
  (Finset.univ.filter fun k : Fin 64 => (idx (ix2 k (0 : Fin 1))).toInt = (p.val : ℤ)).card

/-- At most all 64 indices read one position. -/
theorem landCount_le (idx : IVec ⟨2, ![64, 1]⟩ 32) (p : Fin 2048) : landCount idx p ≤ 64 :=
  (Finset.card_filter_le _ _).trans (by simp)

/-- Each index reads at most one position, so the counts of all positions total at most 64. -/
theorem sum_landCount_le (idx : IVec ⟨2, ![64, 1]⟩ 32) : ∑ p : Fin 2048, landCount idx p ≤ 64 := by
  unfold landCount
  simp only [Finset.card_filter]
  rw [Finset.sum_comm]
  calc ∑ k : Fin 64, ∑ p : Fin 2048, (if (idx (ix2 k (0 : Fin 1))).toInt = (p.val : ℤ) then 1 else 0)
      ≤ ∑ _k : Fin 64, 1 := Finset.sum_le_sum fun k _ => by
        rw [← Finset.card_filter]
        refine Finset.card_le_one.2 fun a ha b hb => ?_
        simp only [Finset.mem_filter, Finset.mem_univ, true_and] at ha hb
        exact Fin.ext (by omega)
    _ = 64 := by simp

/-- THE SCATTER-ADD OF ONES READ AT A POSITION: `zeros(2048).at[idx].add(1)` over 64 indices holds at `p` the
    number of indices that read `p` (an index outside the row is dropped), a number that is at most 64. -/
theorem scatter_ones_apply (d : ScatterDims ⟨1, ![2048]⟩ ⟨2, ![64, 1]⟩ ⟨1, ![64]⟩)
    (h1 : d.updateWindowDims = []) (h2 : d.insertedWindowDims = [0]) (h3 : d.scatterDimsToOperandDims = [0])
    (h4 : d.indexVectorDim = 1) (x0 : IVec ⟨1, ![2048]⟩ 32) (hx0 : ∀ i, x0 i = 0#32)
    (idx : IVec ⟨2, ![64, 1]⟩ 32) (upd : IVec ⟨1, ![64]⟩ 32) (hupd : ∀ i, upd i = 1#32) (p : Fin 2048) :
    Host.scatter d IntOp.addi x0 idx upd (ix1 p) = BitVec.ofNat 32 (landCount idx p) ∧ landCount idx p ≤ 64 := by
  refine ⟨?_, landCount_le idx p⟩
  rw [scatter_add_apply d IntOp.addi (fun _ _ => rfl), hx0, show (0#32 : BitVec 32) = 0 from rfl, zero_add]
  refine ((Equiv.sum_comp idxEquiv1.symm _).symm).trans ?_
  have hterm : ∀ k : Fin 64,
      (if d.resultIdx? (idxEquiv1.symm k) idx = some (ix1 p) then upd (idxEquiv1.symm k) else 0)
        = if (idx (ix2 k (0 : Fin 1))).toInt = (p.val : ℤ) then (1 : BitVec 32) else 0 := by
    intro k
    show (if d.resultIdx? (ix1 k) idx = some (ix1 p) then upd (ix1 k) else 0) = _
    rw [resultIdx_col d h1 h2 h3 h4, hupd]
    by_cases c : (idx (ix2 k (0 : Fin 1))).toInt = (p.val : ℤ)
    · rw [if_pos ((some_ix1_eq_iff _ p).2 c), if_pos c]; rfl
    · rw [if_neg (fun h => c ((some_ix1_eq_iff _ p).1 h)), if_neg c]
  rw [Finset.sum_congr rfl fun k _ => hterm k, Finset.sum_boole, BitVec.natCast_eq_ofNat]
  rfl

/-! ## The index vector lies in range -/

/-- A row of 64 broadcast to a column `[64, 1]` reads the row at the column's first coordinate. -/
theorem broadcastInDim_col64_apply {α : Type}
    (hb : (⟨1, ![64]⟩ : Shape).BroadcastsInDim ⟨2, ![64, 1]⟩ (![0] : Fin 1 → Fin 2))
    (x : (⟨1, ![64]⟩ : Shape).Idx → α) (k : Fin 64) (z : Fin 1) :
    broadcastInDim ⟨2, ![64, 1]⟩ ![0] hb x (ix2 k z) = x (ix1 k) := by
  unfold broadcastInDim
  congr 1
  funext a
  obtain rfl : a = 0 := Subsingleton.elim _ _
  rfl

/-- A count between 1 and 64, as a 32-bit word, less one: the signed reading is the count less one. -/
theorem toInt_ofNat_sub_one (T : ℕ) (h1 : 1 ≤ T) (h2 : T ≤ 64) :
    (BitVec.ofNat 32 T - 1#32).toInt = (T : ℤ) - 1 := by
  have e : BitVec.ofNat 32 T - 1#32 = BitVec.ofNat 32 (T - 1) := by
    apply BitVec.eq_of_toNat_eq
    simp only [BitVec.toNat_sub, BitVec.toNat_ofNat]
    omega
  rw [e, BitVec.toInt_eq_toNat_cond, BitVec.toNat_ofNat]
  have : (T - 1) % 2 ^ 32 = T - 1 := Nat.mod_eq_of_lt (by omega)
  rw [this, if_pos (by omega)]
  omega

/-- THE INDEX VECTOR OF `repeat` LIES IN `[0, 63]`, WHATEVER THE COUNTS. From any row `excl` of 64 words whose
    first is zero: its prefix sums `c1` start at zero; wrapped (`w1`: a negative one plus 2048) the first is still
    zero; so the scatter-add `ind` of 64 ones at the positions `w1` into a zero row of 2048 puts at least one of them
    at position `0`, and no more than 64 in all. Every prefix sum `c2` of `ind` is therefore a count between 1 and
    64 — nothing wraps at 32 bits — and `c2 - 1`, read signed, lies between `0` and `63`. -/
theorem repeat_index_bounds
    (d1 : ScatterDims ⟨1, ![2048]⟩ ⟨2, ![64, 1]⟩ ⟨1, ![64]⟩)
    (h1 : d1.updateWindowDims = []) (h2 : d1.insertedWindowDims = [0]) (h3 : d1.scatterDimsToOperandDims = [0])
    (h4 : d1.indexVectorDim = 1)
    (excl : IVec ⟨1, ![64]⟩ 32) (hexcl : excl (ix1 (0 : Fin 64)) = 0#32)
    (zi zi' : IVec ⟨0, ![]⟩ 32) (hzi : ∀ i, zi i = 0#32) (hzi' : ∀ i, zi' i = 0#32)
    (z64 k2048 ones64 : IVec ⟨1, ![64]⟩ 32) (hz64 : ∀ i, z64 i = 0#32) (hk : ∀ i, k2048 i = 2048#32)
    (ho64 : ∀ i, ones64 i = 1#32)
    (z2048 ones2048 : IVec ⟨1, ![2048]⟩ 32) (hz2048 : ∀ i, z2048 i = 0#32) (ho2048 : ∀ i, ones2048 i = 1#32)
    (hrw1 : (⟨1, ![64]⟩ : Shape).ReduceWindows ![64] ![1] ![63] ![0] ⟨1, ![64]⟩)
    (hu : 0 < (⟨0, ![]⟩ : Shape).numel)
    (hb : (⟨1, ![64]⟩ : Shape).BroadcastsInDim ⟨2, ![64, 1]⟩ (![0] : Fin 1 → Fin 2))
    (hrw2 : (⟨1, ![2048]⟩ : Shape).ReduceWindows ![2048] ![1] ![2047] ![0] ⟨1, ![2048]⟩)
    (hu' : 0 < (⟨0, ![]⟩ : Shape).numel)
    (c1 w1 : IVec ⟨1, ![64]⟩ 32) (ind c2 gi : IVec ⟨1, ![2048]⟩ 32)
    (hc1 : c1 = Host.reduceWindow IntOp.addi ![64] ![1] ![63] ![0] excl zi hrw1 hu)
    (hw1 : w1 = select (cmpi .slt c1 z64) (addi c1 k2048) c1)
    (hind : ind = Host.scatter d1 IntOp.addi z2048 (broadcastInDim ⟨2, ![64, 1]⟩ ![0] hb w1) ones64)
    (hc2 : c2 = Host.reduceWindow IntOp.addi ![2048] ![1] ![2047] ![0] ind zi' hrw2 hu')
    (hgi : gi = subi c2 ones2048) (j : (⟨1, ![2048]⟩ : Shape).Idx) :
    0 ≤ (gi j).toInt ∧ (gi j).toInt ≤ 63 := by
  obtain ⟨jj, rfl⟩ : ∃ jj : Fin 2048, j = ix1 jj := ⟨j 0, eq_ix1 j⟩
  -- the first prefix sum is the first word, zero
  have hc10 : c1 (ix1 (0 : Fin 64)) = 0#32 := by
    rw [hc1, reduceWindow_cumsum_apply 64 63 rfl excl zi hzi hrw1 hu 0, Finset.sum_eq_single (0 : Fin 64)]
    · rw [if_pos (le_refl _), hexcl]
    · intro b _ hb0
      rw [if_neg]
      intro hle
      exact hb0 (Fin.ext (by simpa using hle))
    · intro h; exact absurd (Finset.mem_univ _) h
  -- wrapped, it is still zero
  have hw10 : w1 (ix1 (0 : Fin 64)) = 0#32 := by
    rw [hw1]
    show Scalar.select (IntOp.cmpi .slt (c1 (ix1 0)) (z64 (ix1 0))) (IntOp.addi (c1 (ix1 0)) (k2048 (ix1 0)))
      (c1 (ix1 0)) = 0#32
    rw [hc10, hz64]
    have : IntOp.cmpi .slt (0#32) (0#32) = 0#1 := by decide
    rw [this, select_zero]
  -- so position 0 receives a one
  have hcnt0 : 1 ≤ landCount (broadcastInDim ⟨2, ![64, 1]⟩ ![0] hb w1) 0 := by
    refine Finset.card_pos.2 ⟨(0 : Fin 64), ?_⟩
    rw [Finset.mem_filter]
    refine ⟨Finset.mem_univ _, ?_⟩
    rw [broadcastInDim_col64_apply, hw10]
    rfl
  -- the second prefix sum is a count
  set T : ℕ := ∑ p : Fin 2048, if p.val ≤ jj.val then landCount (broadcastInDim ⟨2, ![64, 1]⟩ ![0] hb w1) p else 0
    with hT
  have hc2j : c2 (ix1 jj) = BitVec.ofNat 32 T := by
    rw [hc2, reduceWindow_cumsum_apply 2048 2047 rfl ind zi' hzi' hrw2 hu' jj, ← BitVec.natCast_eq_ofNat, hT,
      Nat.cast_sum]
    refine Finset.sum_congr rfl fun p _ => ?_
    by_cases c : p.val ≤ jj.val
    · rw [if_pos c, if_pos c, hind, (scatter_ones_apply d1 h1 h2 h3 h4 z2048 hz2048 _ ones64 ho64 p).1,
        BitVec.natCast_eq_ofNat]
    · rw [if_neg c, if_neg c, Nat.cast_zero]
  have hT1 : 1 ≤ T := by
    refine hcnt0.trans ?_
    have h0 := Finset.single_le_sum (f := fun p : Fin 2048 =>
      if p.val ≤ jj.val then landCount (broadcastInDim ⟨2, ![64, 1]⟩ ![0] hb w1) p else 0)
      (fun _ _ => Nat.zero_le _) (Finset.mem_univ (0 : Fin 2048))
    have h00 : (if (0 : Fin 2048).val ≤ jj.val then landCount (broadcastInDim ⟨2, ![64, 1]⟩ ![0] hb w1) 0 else 0)
        = landCount (broadcastInDim ⟨2, ![64, 1]⟩ ![0] hb w1) 0 := if_pos (Nat.zero_le _)
    exact h00 ▸ h0
  have hT64 : T ≤ 64 := by
    refine le_trans (Finset.sum_le_sum fun p _ => ?_) (sum_landCount_le (broadcastInDim ⟨2, ![64, 1]⟩ ![0] hb w1))
    by_cases c : p.val ≤ jj.val
    · rw [if_pos c]
    · rw [if_neg c]; exact Nat.zero_le _
  have hgij : (gi (ix1 jj)).toInt = (T : ℤ) - 1 := by
    rw [hgi]
    show (IntOp.subi (c2 (ix1 jj)) (ones2048 (ix1 jj))).toInt = _
    rw [hc2j, ho2048]
    exact toInt_ofNat_sub_one T hT1 hT64
  rw [hgij]
  omega

/-! ## The exclusive shift: `.at[0].set(0)` -/

/-- A fold of scatter steps whose body returns the update, every step landing on the one position `p` with
    the update `c`: after at least one step, `p` holds `c`. -/
theorem foldl_scatter_set_apply {M ι κ : Type*} (land : ι → Option κ) (upd : ι → M)
    (step : (κ → M) → ι → κ → M) (p : κ) (c : M)
    (hhit : ∀ r n, land n = some p → step r n p = upd n)
    (hall : ∀ n, land n = some p) (hupd : ∀ n, upd n = c)
    (l : List ι) (hl : l ≠ []) (r0 : κ → M) : (l.foldl step r0) p = c := by
  have aux : ∀ (l : List ι) (r0 : κ → M), r0 p = c → (l.foldl step r0) p = c := by
    intro l
    induction l with
    | nil => intro r0 h; exact h
    | cons a l ih => intro r0 _; exact ih _ ((hhit r0 a (hall a)).trans (hupd a))
  match l, hl with
  | a :: l, _ => exact aux l _ ((hhit r0 a (hall a)).trans (hupd a))

/-- A `scatter` whose body returns the update (`.at[…].set`), every update index landing on `p` and every update
    `c`: the result holds `c` at `p`, whatever the operand. -/
theorem scatter_set_apply_of_all_hit {s si u : Shape} {w : ℕ} {M : Type} (d : ScatterDims s si u)
    (x : s.Idx → M) (idx : IVec si w) (upd : u.Idx → M) (p : s.Idx) (c : M) (hpos : 0 < u.numel)
    (hland : ∀ i, d.resultIdx? i idx = some p) (hupd : ∀ i, upd i = c) :
    Host.scatter d (fun _ b => b) x idx upd p = c := by
  unfold Host.scatter
  refine foldl_scatter_set_apply (fun n => d.resultIdx? (u.rowMajor.symm n) idx)
    (fun n => upd (u.rowMajor.symm n)) _ p c ?_ (fun n => hland _) (fun n => hupd _) (List.finRange u.numel) ?_ x
  · intro r n h; simp only [h, if_true]
  · intro h
    have := congrArg List.length h
    simp only [List.length_finRange, List.length_nil] at this
    omega

/-- `x.at[0].set(0)` of a row of 64 (one scatter index, a scalar update, both zero) holds zero at position
    `0`, whatever `x` is. -/
theorem scatter_set_zero_apply (d0 : ScatterDims ⟨1, ![64]⟩ ⟨1, ![1]⟩ ⟨0, ![]⟩)
    (h1 : d0.updateWindowDims = []) (h2 : d0.insertedWindowDims = [0]) (h3 : d0.scatterDimsToOperandDims = [0])
    (h4 : d0.indexVectorDim = 0) (x : IVec ⟨1, ![64]⟩ 32) (idx : IVec ⟨1, ![1]⟩ 32) (hidx : ∀ i, idx i = 0#32)
    (upd : IVec ⟨0, ![]⟩ 32) (hupd : ∀ i, upd i = 0#32) :
    Host.scatter d0 (fun _ b => b) x idx upd (ix1 (0 : Fin 64)) = 0#32 := by
  refine scatter_set_apply_of_all_hit d0 x idx upd (ix1 0) 0#32 (by decide) (fun i => ?_) hupd
  obtain ⟨uw, iw, sd, iv, wf⟩ := d0
  dsimp only at h1 h2 h3 h4
  subst h1 h2 h3 h4
  have hstart : ∀ a, (ScatterDims.mk [] [0] [0] 0 wf :
      ScatterDims ⟨1, ![64]⟩ ⟨1, ![1]⟩ ⟨0, ![]⟩).start i idx a = 0 := by
    intro a
    obtain rfl : a = 0 := Subsingleton.elim _ _
    unfold ScatterDims.start
    rw [dif_pos (List.mem_singleton.mpr rfl), hidx]
    rfl
  have hwin : ∀ a, (ScatterDims.mk [] [0] [0] 0 wf :
      ScatterDims ⟨1, ![64]⟩ ⟨1, ![1]⟩ ⟨0, ![]⟩).window i a = 0 := by
    intro a
    obtain rfl : a = 0 := Subsingleton.elim _ _
    unfold ScatterDims.window
    rw [dif_neg (show (0 : Fin (⟨1, ![64]⟩ : Shape).rank) ∉ (⟨1, ![64]⟩ : Shape).kept [0] by decide)]
  unfold ScatterDims.resultIdx?
  rw [dif_pos]
  · congr 1
    funext a
    obtain rfl : a = 0 := Subsingleton.elim _ _
    refine Fin.ext ?_
    show (_ + _ : ℤ).toNat = 0
    rw [hstart, hwin]
    rfl
  · intro a
    obtain rfl : a = 0 := Subsingleton.elim _ _
    rw [hstart, hwin]
    show 0 ≤ (0 : ℤ) + ((0 : ℕ) : ℤ) ∧ (0 : ℤ) + ((0 : ℕ) : ℤ) < ((64 : ℕ) : ℤ)
    omega

/-! ## A fill-mode `take` through an index vector that is in range -/

/-- A 32-bit word whose signed reading is not negative reads the same unsigned. -/
theorem toNat_eq_toInt_toNat (v : BitVec 32) (hlo : 0 ≤ v.toInt) : v.toNat = v.toInt.toNat := by
  have h := BitVec.toInt_eq_toNat_cond v
  have hl := v.isLt
  by_cases c : 2 * v.toNat < 2 ^ 32
  · rw [if_pos c] at h; omega
  · rw [if_neg c] at h; omega

/-- "less than zero", signed, is false of a word whose signed reading is not negative. -/
theorem cmpi_slt_zero (v : BitVec 32) (hlo : 0 ≤ v.toInt) : IntOp.cmpi .slt v 0#32 = 0#1 := by
  show BitVec.ofBool (v.slt 0#32) = 0#1
  have : v.slt 0#32 = false := by
    unfold BitVec.slt
    exact decide_eq_false (by rw [show (0#32 : BitVec 32).toInt = 0 from rfl]; exact not_lt.2 hlo)
  rw [this]
  rfl

/-- "at least zero", signed, is true of a word whose signed reading is not negative. -/
theorem cmpi_sge_zero (v : BitVec 32) (hlo : 0 ≤ v.toInt) : IntOp.cmpi .sge v 0#32 = 1#1 := by
  show BitVec.ofBool ((0#32 : BitVec 32).sle v) = 1#1
  have : (0#32 : BitVec 32).sle v = true := by
    unfold BitVec.sle
    exact decide_eq_true (by rw [show (0#32 : BitVec 32).toInt = 0 from rfl]; exact hlo)
  rw [this]
  rfl

/-- "at most 63", signed, is true of a word whose signed reading is at most 63. -/
theorem cmpi_sle_63 (v : BitVec 32) (hhi : v.toInt ≤ 63) : IntOp.cmpi .sle v 63#32 = 1#1 := by
  show BitVec.ofBool (v.sle 63#32) = 1#1
  have : v.sle 63#32 = true := by
    unfold BitVec.sle
    exact decide_eq_true (by rw [show (63#32 : BitVec 32).toInt = 63 from by decide]; exact hhi)
  rw [this]
  rfl

/-- The negative-index wrap of `take` (`i < 0 ? i + 64 : i`) leaves an index vector without negative entries as
    it is. -/
theorem take_wrap_eq (gi z k64 : IVec ⟨1, ![2048]⟩ 32) (hz : ∀ i, z i = 0#32) (hlo : ∀ i, 0 ≤ (gi i).toInt) :
    select (cmpi .slt gi z) (addi gi k64) gi = gi := by
  funext i
  show Scalar.select (IntOp.cmpi .slt (gi i) (z i)) (IntOp.addi (gi i) (k64 i)) (gi i) = gi i
  rw [hz, cmpi_slt_zero _ (hlo i), select_zero]

/-- A fold by "and" from `true` over bits that are all `true` is `true`. -/
theorem foldl_andi_ones {ι : Type*} (y : ι → BitVec 1) (hy : ∀ i, y i = 1#1) (l : List ι) :
    l.foldl (fun r i => IntOp.andi r (y i)) 1#1 = 1#1 := by
  induction l with
  | nil => rfl
  | cons a l ih =>
    rw [List.foldl_cons, hy a, show IntOp.andi (1#1) (1#1) = 1#1 from by decide]
    exact ih

/-- THE IN-BOUNDS MASK OF `take` IS TRUE: the reduce by "and", from `true`, of `0 ≤ i ∧ i ≤ 63` over a column of
    start indices that all lie in `[0, 63]`. -/
theorem take_mask_true {s t u : Shape} {axes : List (Fin s.rank)} (i5 z5 k63 : IVec s 32)
    (hz5 : ∀ i, z5 i = 0#32) (hk63 : ∀ i, k63 i = 63#32)
    (hlo : ∀ i, 0 ≤ (i5 i).toInt) (hhi : ∀ i, (i5 i).toInt ≤ 63)
    (tt : IVec u 1) (htt : ∀ i, tt i = 1#1) (hr : s.ReducesTo axes t) (hu : 0 < u.numel) (j : t.Idx) :
    Host.reduce IntOp.andi (andi (cmpi .sge i5 z5) (cmpi .sle i5 k63)) tt hr hu j = 1#1 := by
  rw [Host.reduce_eq_foldl, htt]
  refine foldl_andi_ones _ (fun i => ?_) _
  show IntOp.andi (IntOp.cmpi .sge (i5 i) (z5 i)) (IntOp.cmpi .sle (i5 i) (k63 i)) = 1#1
  rw [hz5, hk63, cmpi_sge_zero _ (hlo i), cmpi_sle_63 _ (hhi i)]
  decide

/-- A select on a mask that is true everywhere returns its first branch. -/
theorem select_of_mask_true {s : Shape} {α : Type} (mask : IVec s 1) (g fill : s.Idx → α)
    (h : ∀ i, mask i = 1#1) : select mask g fill = g :=
  funext fun i => by
    show Scalar.select (mask i) (g i) (fill i) = g i
    rw [h, select_one]

/-- THE GATHER OF `take` FROM A ROW OF 64, READ AT `j`: the row at the `j`-th start index, when that lies in
    `[0, 63]` (the clamp does nothing). -/
theorem take_gather_apply {α : Type} (dg : GatherDims ⟨1, ![64]⟩ ⟨2, ![2048, 1]⟩ ⟨1, ![2048]⟩)
    (g1 : dg.offsetDims = []) (g2 : dg.collapsedSliceDims = [0]) (g3 : dg.operandBatchingDims = [])
    (g4 : dg.startIndicesBatchingDims = []) (g5 : dg.startIndexMap = [0]) (g6 : dg.indexVectorDim = 1)
    (g7 : dg.sliceSizes = ![1])
    (x : (⟨1, ![64]⟩ : Shape).Idx → α) (i5 : IVec ⟨2, ![2048, 1]⟩ 32) (j : Fin 2048)
    (hlo : 0 ≤ (i5 (ix2 j (0 : Fin 1))).toInt) (hhi : (i5 (ix2 j (0 : Fin 1))).toInt ≤ 63) :
    Host.gather dg x i5 (ix1 j) = x (ix1 ⟨(i5 (ix2 j (0 : Fin 1))).toInt.toNat, by omega⟩) := by
  obtain ⟨od, cd, ob, sb, sm, iv, ss, wf⟩ := dg
  dsimp only at g1 g2 g3 g4 g5 g6 g7
  subst g1 g2 g3 g4 g5 g6 g7
  unfold Host.gather
  congr 1
  funext a
  obtain rfl : a = 0 := Subsingleton.elim _ _
  refine Fin.ext ?_
  show GatherDims.start _ (ix1 j) i5 0 + GatherDims.batchCoord _ (ix1 j) 0 + GatherDims.offCoord _ (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : (GatherDims.mk [] [0] [] [] [0] 1 ![1] wf :
      GatherDims ⟨1, ![64]⟩ ⟨2, ![2048, 1]⟩ ⟨1, ![2048]⟩).siIdx (ix1 j)
        ⟨List.idxOf (0 : Fin 1) [0], List.idxOf_lt_length_iff.2 (List.mem_singleton.mpr rfl)⟩
      = ix2 j (0 : Fin 1) := by
    funext b
    refine Fin.ext ?_
    match b with
    | ⟨0, _⟩ => rfl
    | ⟨1, _⟩ => rfl
  rw [hsi]
  show min (i5 (ix2 j (0 : Fin 1))).toInt.toNat (64 - 1) = (i5 (ix2 j (0 : Fin 1))).toInt.toNat
  omega

/-- THE GATHER OF `take` FROM A TABLE `[64, 3]` ALONG ITS ROWS, READ AT `(j, k)`: the table's entry `k` of the
    row the `j`-th start index names, when that lies in `[0, 63]`. -/
theorem take_gather3_apply {α : Type} (dg : GatherDims ⟨2, ![64, 3]⟩ ⟨2, ![2048, 1]⟩ ⟨2, ![2048, 3]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, 3])
    (x : (⟨2, ![64, 3]⟩ : Shape).Idx → α) (i5 : IVec ⟨2, ![2048, 1]⟩ 32) (j : Fin 2048) (k : Fin 3)
    (hlo : 0 ≤ (i5 (ix2 j (0 : Fin 1))).toInt) (hhi : (i5 (ix2 j (0 : Fin 1))).toInt ≤ 63) :
    Host.gather dg x i5 (ix2 j k) = x (ix2 ⟨(i5 (ix2 j (0 : Fin 1))).toInt.toNat, by omega⟩ k) := by
  obtain ⟨od, cd, ob, sb, sm, iv, ss, wf⟩ := dg
  dsimp only at g1 g2 g3 g4 g5 g6 g7
  subst g1 g2 g3 g4 g5 g6 g7
  unfold Host.gather
  congr 1
  funext a
  refine Fin.ext ?_
  show GatherDims.start _ (ix2 j k) i5 a + GatherDims.batchCoord _ (ix2 j k) a + GatherDims.offCoord _ (ix2 j k) a = _
  rw [GatherDims.batchCoord_eq_zero _ _ _ List.not_mem_nil, Nat.add_zero]
  have ha : a = 0 ∨ a = 1 := by
    rcases a with ⟨a, ha⟩
    change a < 2 at ha
    rcases a with _ | _ | a
    · left; rfl
    · right; rfl
    · omega
  rcases ha with rfl | rfl
  · rw [GatherDims.offCoord_eq_zero _ _ _
      (fun h => ((GatherDims.mem_sKept _ _).mp h).1 (List.mem_singleton.mpr rfl)), Nat.add_zero]
    unfold GatherDims.start
    rw [dif_pos (List.mem_singleton.mpr rfl)]
    have hsi : (GatherDims.mk [1] [0] [] [] [0] 1 ![1, 3] wf :
        GatherDims ⟨2, ![64, 3]⟩ ⟨2, ![2048, 1]⟩ ⟨2, ![2048, 3]⟩).siIdx (ix2 j k)
          ⟨List.idxOf (0 : Fin 2) [0], List.idxOf_lt_length_iff.2 (List.mem_singleton.mpr rfl)⟩
        = ix2 j (0 : Fin 1) := by
      funext b
      refine Fin.ext ?_
      match b with
      | ⟨0, _⟩ => rfl
      | ⟨1, _⟩ => rfl
    rw [hsi]
    show min (i5 (ix2 j (0 : Fin 1))).toInt.toNat (64 - 1) = (i5 (ix2 j (0 : Fin 1))).toInt.toNat
    omega
  · have hs : (GatherDims.mk [1] [0] [] [] [0] 1 ![1, 3] wf :
        GatherDims ⟨2, ![64, 3]⟩ ⟨2, ![2048, 1]⟩ ⟨2, ![2048, 3]⟩).start (ix2 j k) i5 1 = 0 := by
      unfold GatherDims.start
      rw [dif_neg (show (1 : Fin (⟨2, ![64, 3]⟩ : Shape).rank) ∉ ([0] : List (Fin (⟨2, ![64, 3]⟩ : Shape).rank))
        by decide)]
    have ho : (GatherDims.mk [1] [0] [] [] [0] 1 ![1, 3] wf :
        GatherDims ⟨2, ![64, 3]⟩ ⟨2, ![2048, 1]⟩ ⟨2, ![2048, 3]⟩).offCoord (ix2 j k) 1 = k.val := by
      unfold GatherDims.offCoord
      rw [dif_pos (show (1 : Fin (⟨2, ![64, 3]⟩ : Shape).rank) ∈ (⟨2, ![64, 3]⟩ : Shape).kept ([0] ++ [])
        by decide)]
      rfl
    rw [hs, ho, Nat.zero_add]

/-- A row of 2048 broadcast to a column `[2048, 1]` reads the row at the column's first coordinate. -/
theorem broadcastInDim_col2048_apply {α : Type}
    (hb : (⟨1, ![2048]⟩ : Shape).BroadcastsInDim ⟨2, ![2048, 1]⟩ (![0] : Fin 1 → Fin 2))
    (x : (⟨1, ![2048]⟩ : Shape).Idx → α) (k : Fin 2048) (z : Fin 1) :
    broadcastInDim ⟨2, ![2048, 1]⟩ ![0] hb x (ix2 k z) = x (ix1 k) := by
  unfold broadcastInDim
  congr 1
  funext a
  obtain rfl : a = 0 := Subsingleton.elim _ _
  rfl

/-- THE FILL-MODE `take` FROM A ROW OF 64 THROUGH AN INDEX VECTOR IN `[0, 63]`: the wrap of negative indices
    changes nothing, the in-bounds mask is true at every row, the gather reads the row at the index, and the final
    select returns the gathered value — never the fill. -/
theorem take_apply {α : Type} (dg : GatherDims ⟨1, ![64]⟩ ⟨2, ![2048, 1]⟩ ⟨1, ![2048]⟩)
    (g1 : dg.offsetDims = []) (g2 : dg.collapsedSliceDims = [0]) (g3 : dg.operandBatchingDims = [])
    (g4 : dg.startIndicesBatchingDims = []) (g5 : dg.startIndexMap = [0]) (g6 : dg.indexVectorDim = 1)
    (g7 : dg.sliceSizes = ![1])
    (x : (⟨1, ![64]⟩ : Shape).Idx → α) (fill : (⟨1, ![2048]⟩ : Shape).Idx → α)
    (gi z k64 : IVec ⟨1, ![2048]⟩ 32) (hz : ∀ i, z i = 0#32)
    (hlo : ∀ i, 0 ≤ (gi i).toInt) (hhi : ∀ i, (gi i).toInt ≤ 63)
    (hb : (⟨1, ![2048]⟩ : Shape).BroadcastsInDim ⟨2, ![2048, 1]⟩ (![0] : Fin 1 → Fin 2))
    (z5 k63 : IVec ⟨2, ![2048, 1]⟩ 32) (hz5 : ∀ i, z5 i = 0#32) (hk63 : ∀ i, k63 i = 63#32)
    (tt : IVec ⟨0, ![]⟩ 1) (htt : ∀ i, tt i = 1#1)
    (hr : (⟨2, ![2048, 1]⟩ : Shape).ReducesTo [1] ⟨1, ![2048]⟩) (hu : 0 < (⟨0, ![]⟩ : Shape).numel)
    (w2 : IVec ⟨1, ![2048]⟩ 32) (i5 : IVec ⟨2, ![2048, 1]⟩ 32) (mask : IVec ⟨1, ![2048]⟩ 1)
    (g res : (⟨1, ![2048]⟩ : Shape).Idx → α)
    (hw2 : w2 = select (cmpi .slt gi z) (addi gi k64) gi)
    (hi5 : i5 = broadcastInDim ⟨2, ![2048, 1]⟩ ![0] hb w2)
    (hmask : mask = Host.reduce IntOp.andi (andi (cmpi .sge i5 z5) (cmpi .sle i5 k63)) tt hr hu)
    (hg : g = Host.gather dg x i5) (hres : res = select mask g fill) (j : Fin 2048) :
    (w2 = gi ∧ ∀ r, mask r = 1#1) ∧
      res (ix1 j) = x (ix1 ⟨(gi (ix1 j)).toNat, by
        have := toNat_eq_toInt_toNat _ (hlo (ix1 j)); have := hhi (ix1 j); omega⟩) := by
  have hw2' : w2 = gi := hw2.trans (take_wrap_eq gi z k64 hz hlo)
  subst hw2'
  have hlo5 : ∀ i, 0 ≤ (i5 i).toInt := by intro i; rw [hi5]; exact hlo _
  have hhi5 : ∀ i, (i5 i).toInt ≤ 63 := by intro i; rw [hi5]; exact hhi _
  have hmask1 : ∀ r, mask r = 1#1 := by
    intro r
    rw [hmask]
    exact take_mask_true i5 z5 k63 hz5 hk63 hlo5 hhi5 tt htt hr hu r
  refine ⟨⟨rfl, hmask1⟩, ?_⟩
  have e : i5 (ix2 j (0 : Fin 1)) = w2 (ix1 j) := by
    rw [hi5]; exact broadcastInDim_col2048_apply hb w2 j 0
  rw [hres, select_of_mask_true mask g fill hmask1, hg]
  refine (take_gather_apply dg g1 g2 g3 g4 g5 g6 g7 x i5 j (hlo5 _) (hhi5 _)).trans ?_
  congr 1
  congr 1
  refine Fin.ext ?_
  show (i5 (ix2 j (0 : Fin 1))).toInt.toNat = (w2 (ix1 j)).toNat
  rw [e]
  exact (toNat_eq_toInt_toNat _ (hlo _)).symm

/-- THE FILL-MODE `take` OF ROWS FROM A TABLE `[64, 3]` THROUGH AN INDEX VECTOR IN `[0, 63]`: as for a row
    of 64, the mask (broadcast along the three entries of a row) true everywhere, so the result is the table's
    row at the index and never the fill. -/
theorem take3_apply {α : Type} (dg : GatherDims ⟨2, ![64, 3]⟩ ⟨2, ![2048, 1]⟩ ⟨2, ![2048, 3]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, 3])
    (x : (⟨2, ![64, 3]⟩ : Shape).Idx → α) (fill : (⟨2, ![2048, 3]⟩ : Shape).Idx → α)
    (gi z k64 : IVec ⟨1, ![2048]⟩ 32) (hz : ∀ i, z i = 0#32)
    (hlo : ∀ i, 0 ≤ (gi i).toInt) (hhi : ∀ i, (gi i).toInt ≤ 63)
    (hb : (⟨1, ![2048]⟩ : Shape).BroadcastsInDim ⟨2, ![2048, 1]⟩ (![0] : Fin 1 → Fin 2))
    (z5 k63 : IVec ⟨2, ![2048, 1]⟩ 32) (hz5 : ∀ i, z5 i = 0#32) (hk63 : ∀ i, k63 i = 63#32)
    (tt : IVec ⟨0, ![]⟩ 1) (htt : ∀ i, tt i = 1#1)
    (hr : (⟨2, ![2048, 1]⟩ : Shape).ReducesTo [1] ⟨1, ![2048]⟩) (hu : 0 < (⟨0, ![]⟩ : Shape).numel)
    (hb3 : (⟨1, ![2048]⟩ : Shape).BroadcastsInDim ⟨2, ![2048, 3]⟩ (![0] : Fin 1 → Fin 2))
    (w2 : IVec ⟨1, ![2048]⟩ 32) (i5 : IVec ⟨2, ![2048, 1]⟩ 32) (mask : IVec ⟨1, ![2048]⟩ 1)
    (mask3 : IVec ⟨2, ![2048, 3]⟩ 1) (g res : (⟨2, ![2048, 3]⟩ : Shape).Idx → α)
    (hw2 : w2 = select (cmpi .slt gi z) (addi gi k64) gi)
    (hi5 : i5 = broadcastInDim ⟨2, ![2048, 1]⟩ ![0] hb w2)
    (hmask : mask = Host.reduce IntOp.andi (andi (cmpi .sge i5 z5) (cmpi .sle i5 k63)) tt hr hu)
    (hmask3 : mask3 = broadcastInDim ⟨2, ![2048, 3]⟩ ![0] hb3 mask)
    (hg : g = Host.gather dg x i5) (hres : res = select mask3 g fill) (j : Fin 2048) (k : Fin 3) :
    (w2 = gi ∧ ∀ r, mask3 r = 1#1) ∧
      res (ix2 j k) = x (ix2 ⟨(gi (ix1 j)).toNat, by
        have := toNat_eq_toInt_toNat _ (hlo (ix1 j)); have := hhi (ix1 j); omega⟩ k) := by
  have hw2' : w2 = gi := hw2.trans (take_wrap_eq gi z k64 hz hlo)
  subst hw2'
  have hlo5 : ∀ i, 0 ≤ (i5 i).toInt := by intro i; rw [hi5]; exact hlo _
  have hhi5 : ∀ i, (i5 i).toInt ≤ 63 := by intro i; rw [hi5]; exact hhi _
  have hmask1 : ∀ r, mask r = 1#1 := by
    intro r
    rw [hmask]
    exact take_mask_true i5 z5 k63 hz5 hk63 hlo5 hhi5 tt htt hr hu r
  have hmask31 : ∀ r, mask3 r = 1#1 := by intro r; rw [hmask3]; exact hmask1 _
  refine ⟨⟨rfl, hmask31⟩, ?_⟩
  have e : i5 (ix2 j (0 : Fin 1)) = w2 (ix1 j) := by
    rw [hi5]; exact broadcastInDim_col2048_apply hb w2 j 0
  rw [hres, select_of_mask_true mask3 g fill hmask31, hg]
  refine (take_gather3_apply dg g1 g2 g3 g4 g5 g6 g7 x i5 j k (hlo5 _) (hhi5 _)).trans ?_
  congr 1
  have e2 : (⟨(i5 (ix2 j (0 : Fin 1))).toInt.toNat, by have := hlo5 (ix2 j (0 : Fin 1)); have := hhi5 (ix2 j (0 : Fin 1)); omega⟩ : Fin 64)
      = ⟨(w2 (ix1 j)).toNat, by
        have := toNat_eq_toInt_toNat _ (hlo (ix1 j)); have := hhi (ix1 j); omega⟩ := by
    refine Fin.ext ?_
    show (i5 (ix2 j (0 : Fin 1))).toInt.toNat = (w2 (ix1 j)).toNat
    rw [e]
    exact (toNat_eq_toInt_toNat _ (hlo _)).symm
  rw [e2]

end Cert.LibRepeatIndex

end
-- ==== Proof.RefIndex.lean ====
import proofs.«130563_j43465069035926_2_alg».proof.Proof.RefStages
import proofs.«130563_j43465069035926_2_alg».proof.Proof.LibRepeatIndex

/-!
# The reference's atom-to-segment index is in range, and its two lookups read through it

Whatever the segment sizes are, every entry of the reference's index vector lies between `0` and `63`: the first
running sum starts at zero, so one of the 64 marks lands on atom `0`, and no more than 64 marks are made. The
segment id of an atom is therefore that entry itself, and the looked-up segment centre is the centre of that
segment; the fill values of the two lookups are never read.
-/

noncomputable section

namespace Cert.ReferenceIdeal.RefIndex

open Cert.ReferenceIdeal Cert.ReferenceIdeal.Gen Cert.ReferenceIdeal.RefRun Idealize.ShloMosaic
  Idealize.ShloMosaic.ValueIdx Cert.LibRepeatIndex

variable {F : FTy → Type} [FloatOps F]

/-- Every entry of the index vector, read signed, lies in `[0, 63]`. -/
theorem gidx_bounds_idx (a4 : IVec S64 32) (j : S2048.Idx) :
    0 ≤ (gidx a4 j).toInt ∧ (gidx a4 j).toInt ≤ 63 :=
  repeat_index_bounds scatter_S2048_S64x1_S64_n_0_0_1 rfl rfl rfl rfl _
    (scatter_set_zero_apply scatter_S64_S1_S__n_0_0_0 rfl rfl rfl rfl (rolled a4) _ (fun _ => rfl) _ (fun _ => rfl))
    _ _ (fun _ => rfl) (fun _ => rfl) _ _ _ (fun _ => rfl) (fun _ => rfl) (fun _ => rfl) _ _ (fun _ => rfl)
    (fun _ => rfl) reduceWindows_S64_S64_w64s1p63_0 h_S_ bcast_S64_S64x1_0
    reduceWindows_S2048_S2048_w2048s1p2047_0 h_S_
    (offsets a4) (offsetsW a4) (marks a4) _ (gidx a4) rfl rfl rfl rfl rfl j

/-- Every entry of the index vector, read signed, lies in `[0, 63]`. -/
theorem gidx_bounds (a4 : IVec S64 32) (j : Fin 2048) :
    0 ≤ (gidx a4 (ix1 j)).toInt ∧ (gidx a4 (ix1 j)).toInt ≤ 63 :=
  gidx_bounds_idx a4 (ix1 j)

/-- The segment of atom `j`, as a number below 64. -/
def molFin (a4 : IVec S64 32) (j : Fin 2048) : Fin 64 :=
  ⟨(gidx a4 (ix1 j)).toInt.toNat, by have := gidx_bounds a4 j; omega⟩

/-- The unsigned reading of an index entry is the segment's number. -/
theorem molFin_val (a4 : IVec S64 32) (j : Fin 2048) : (molFin a4 j).val = (gidx a4 (ix1 j)).toInt.toNat := by
  simp only [molFin]

/-- The unsigned reading of an index entry is the segment's number. -/
theorem gidx_toNat (a4 : IVec S64 32) (j : Fin 2048) : (gidx a4 (ix1 j)).toNat = (molFin a4 j).val := by
  rw [molFin_val]
  exact toNat_eq_toInt_toNat _ (gidx_bounds a4 j).1

/-- The segment id of atom `j` is the segment's number, as a word: the lookup in the identity table reads the
    table at the index entry and never its fill. -/
theorem molIds_apply (a4 : IVec S64 32) (j : Fin 2048) :
    molIds a4 (ix1 j) = BitVec.ofNat 32 (molFin a4 j).val := by
  have h := (take_apply gather_S64_S2048x1_S2048_n_0_n_n_0_1_1 rfl rfl rfl rfl rfl rfl rfl
    (iotaInDim S64 32 0) (broadcastInDim S2048 ![] bcast_S_S2048 (constantI S_ 32 2147483648#32))
    (gidx a4) (broadcastInDim S2048 ![] bcast_S_S2048 (constantI S_ 32 0#32))
    (broadcastInDim S2048 ![] bcast_S_S2048 (constantI S_ 32 64#32)) (fun _ => rfl)
    (fun i => (gidx_bounds_idx a4 i).1) (fun i => (gidx_bounds_idx a4 i).2)
    bcast_S2048_S2048x1_0 (broadcastInDim S2048x1 ![] bcast_S_S2048x1 (constantI S_ 32 0#32))
    (broadcastInDim S2048x1 ![0, 1] bcast_S1x1_S2048x1_0_1 (broadcastInDim S1x1 ![1] bcast_S1_S1x1_1 (constantI S1 32 63#32)))
    (fun _ => rfl) (fun _ => rfl) (constantI S_ 1 1#1) (fun _ => rfl) reducesTo_S2048x1_S2048_d1 h_S_
    _ (wrapIdx (gidx a4)) (inRange (wrapIdx (gidx a4))) _ (molIds a4) rfl rfl rfl rfl rfl j).2
  rw [h]
  exact congrArg (BitVec.ofNat 32) (gidx_toNat a4 j)

/-- The segment id of atom `j`, read signed, is `m` exactly when the atom's segment is `m`. -/
theorem molIds_toInt (a4 : IVec S64 32) (j : Fin 2048) (m : Fin 64) :
    (molIds a4 (ix1 j)).toInt = (m.val : ℤ) ↔ molFin a4 j = m := by
  have hlt := (molFin a4 j).isLt
  have hm := m.isLt
  have e : (molIds a4 (ix1 j)).toInt = ((molFin a4 j).val : ℤ) := by
    rw [molIds_apply, BitVec.toInt_eq_toNat_cond, BitVec.toNat_ofNat,
      Nat.mod_eq_of_lt (by omega : (molFin a4 j).val < 2 ^ 32), if_pos (by omega)]
  rw [e]
  constructor
  · intro h; exact Fin.ext (by omega)
  · intro h; rw [h]

/-- The looked-up centre of atom `j` is the centre of the atom's segment: the lookup reads the table's row at
    the index entry and never its fill. -/
theorem coordsA_apply (a3 : FVec F S64x3 .f32) (a4 : IVec S64 32) (j : Fin 2048) (k : Fin 3) :
    coordsA a3 a4 (ix2 j k) = a3 (ix2 (molFin a4 j) k) := by
  have h := (take3_apply gather_S64x3_S2048x1_S2048x3_1_0_n_n_0_1_13 rfl rfl rfl rfl rfl rfl rfl
    a3 (broadcastInDim S2048x3 ![] bcast_S_S2048x3 (constant (F := F) S_ .f32 0x7FC00000#32))
    (gidx a4) (broadcastInDim S2048 ![] bcast_S_S2048 (constantI S_ 32 0#32))
    (broadcastInDim S2048 ![] bcast_S_S2048 (constantI S_ 32 64#32)) (fun _ => rfl)
    (fun i => (gidx_bounds_idx a4 i).1) (fun i => (gidx_bounds_idx a4 i).2)
    bcast_S2048_S2048x1_0 (broadcastInDim S2048x1 ![] bcast_S_S2048x1 (constantI S_ 32 0#32))
    (broadcastInDim S2048x1 ![0, 1] bcast_S1x1_S2048x1_0_1 (broadcastInDim S1x1 ![1] bcast_S1_S1x1_1 (constantI S1 32 63#32)))
    (fun _ => rfl) (fun _ => rfl) (constantI S_ 1 1#1) (fun _ => rfl) reducesTo_S2048x1_S2048_d1 h_S_
    bcast_S2048_S2048x3_0
    _ (wrapIdx (gidx a4)) (inRange (wrapIdx (gidx a4))) _ _ (coordsA a3 a4) rfl rfl rfl rfl rfl rfl j k).2
  rw [h]
  exact congrArg (fun q => a3 (ix2 q k)) (Fin.ext (gidx_toNat a4 j))

end Cert.ReferenceIdeal.RefIndex

end
-- ==== Proof.KerIndex.lean ====
import proofs.«130563_j43465069035926_2_alg».proof.Proof.KerValueHostDefs
import proofs.«130563_j43465069035926_2_alg».proof.Proof.RefIndex

/-!
# The kernel program's atom-to-molecule index is in range, and its lookup reads through it

The kernel program prints the same operations as the reference from the per-molecule atom counts to the running
molecule number, so the two index vectors are one function of the counts. Whatever the counts are, every entry lies
between `0` and `63` (the first cumulative sum starts at zero, so one of the 64 marks lands on slot `0`, and no more
than 64 marks are made). The molecule of a slot is therefore that entry itself; the lookup's fill value is never read;
and each atom has the same molecule in the two programs.
-/

noncomputable section

namespace Cert.KernelIdeal.KerIndex

open Cert.KernelIdeal Cert.KernelIdeal.Gen Cert.KernelIdeal.KerValue Idealize.ShloMosaic
  Idealize.ShloMosaic.ValueIdx Cert.LibRepeatIndex

variable {F : FTy → Type} [FloatOps F]

/-- The kernel program's index vector is the reference's: the two programs print the same operations, over equal
    shapes and with the same dimension numbers, from the counts to the index vector. -/
theorem gidx_eq (a4 : IVec S64 32) :
    gidx (F := F) a4 = Cert.ReferenceIdeal.RefRun.gidx a4 := rfl

/-- Every entry of the running molecule number, read signed, lies in `[0, 63]`. -/
theorem gidx_bounds_idx (a4 : IVec S64 32) (j : S2048.Idx) :
    0 ≤ (gidx (F := F) a4 j).toInt ∧ (gidx (F := F) a4 j).toInt ≤ 63 := by
  rw [gidx_eq]
  exact Cert.ReferenceIdeal.RefIndex.gidx_bounds_idx a4 j

/-- Every entry of the running molecule number, read signed, lies in `[0, 63]`. -/
theorem gidx_bounds (a4 : IVec S64 32) (j : Fin 2048) :
    0 ≤ (gidx (F := F) a4 (ix1 j)).toInt ∧ (gidx (F := F) a4 (ix1 j)).toInt ≤ 63 :=
  gidx_bounds_idx a4 (ix1 j)

/-- The molecule of atom slot `j`, as a number below 64. -/
def molFin (a4 : IVec S64 32) (j : Fin 2048) : Fin 64 :=
  ⟨(gidx (F := F) a4 (ix1 j)).toInt.toNat, by have := gidx_bounds (F := F) a4 j; omega⟩

/-- The molecule's number is the signed reading of the index entry. -/
theorem molFin_val (a4 : IVec S64 32) (j : Fin 2048) :
    (molFin (F := F) a4 j).val = (gidx (F := F) a4 (ix1 j)).toInt.toNat := by
  simp only [molFin]

/-- The unsigned reading of an index entry is the molecule's number. -/
theorem gidx_toNat (a4 : IVec S64 32) (j : Fin 2048) :
    (gidx (F := F) a4 (ix1 j)).toNat = (molFin (F := F) a4 j).val := by
  rw [molFin_val]
  exact toNat_eq_toInt_toNat _ (gidx_bounds a4 j).1

/-- The molecule of slot `j` is the molecule's number, as a word: the lookup in the identity table reads the
    table at the index entry and never its fill. -/
theorem molIds_apply (a4 : IVec S64 32) (j : Fin 2048) :
    molIds (F := F) a4 (ix1 j) = BitVec.ofNat 32 (molFin (F := F) a4 j).val := by
  have h := (take_apply gather_S64_S2048x1_S2048_n_0_n_n_0_1_1 rfl rfl rfl rfl rfl rfl rfl
    (iotaInDim S64 32 0) (broadcastInDim S2048 ![] bcast_S_S2048 (constantI S_ 32 2147483648#32))
    (gidx (F := F) a4) (broadcastInDim S2048 ![] bcast_S_S2048 (constantI S_ 32 0#32))
    (broadcastInDim S2048 ![] bcast_S_S2048 (constantI S_ 32 64#32)) (fun _ => rfl)
    (fun i => (gidx_bounds_idx a4 i).1) (fun i => (gidx_bounds_idx a4 i).2)
    bcast_S2048_S2048x1_0 (broadcastInDim S2048x1 ![] bcast_S_S2048x1 (constantI S_ 32 0#32))
    (broadcastInDim S2048x1 ![0, 1] bcast_S1x1_S2048x1_0_1 (broadcastInDim S1x1 ![1] bcast_S1_S1x1_1 (constantI S1 32 63#32)))
    (fun _ => rfl) (fun _ => rfl) (constantI S_ 1 1#1) (fun _ => rfl) reducesTo_S2048x1_S2048_d1 h_S_
    _ (gidxIdx (F := F) a4) _ _ (molIds (F := F) a4) rfl rfl rfl rfl rfl j).2
  rw [h]
  exact congrArg (BitVec.ofNat 32) (gidx_toNat a4 j)

/-- The molecule word of slot `j` is the word of `m` exactly when the slot's molecule is `m`. -/
theorem molIds_eq_ofNat_iff (a4 : IVec S64 32) (j : Fin 2048) (m : Fin 64) :
    molIds (F := F) a4 (ix1 j) = BitVec.ofNat 32 m.val ↔ molFin (F := F) a4 j = m := by
  have hlt := (molFin (F := F) a4 j).isLt
  have hm := m.isLt
  rw [molIds_apply]
  constructor
  · intro h
    have h' := congrArg BitVec.toNat h
    rw [BitVec.toNat_ofNat, BitVec.toNat_ofNat, Nat.mod_eq_of_lt (by omega), Nat.mod_eq_of_lt (by omega)] at h'
    exact Fin.ext h'
  · intro h; rw [h]

/-- Each atom has the same molecule in the two programs. -/
theorem molFin_eq (a4 : IVec S64 32) (j : Fin 2048) :
    molFin (F := F) a4 j = Cert.ReferenceIdeal.RefIndex.molFin a4 j :=
  Fin.ext (by rw [molFin_val, Cert.ReferenceIdeal.RefIndex.molFin_val, gidx_eq])

end Cert.KernelIdeal.KerIndex

end
-- ==== Proof.RefOps.lean ====
import proofs.«130563_j43465069035926_2_alg».proof.Proof.Gen.ReferenceIdeal
import Idealize.ShloMosaic.Lib.StableHlo.Run

/-! The reference program's host operations, in order, each call replaced by the callee's operations over that call's
    buffers; eight stretches, one per stage of the computation, and beside each the buffers its operations write and
    that its operations touch TensorCore buffers only. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, calls replaced by the callees' bodies — the atoms' global index: operations 1 … 30. -/
abbrev opsA : List (HloOp τ sig (Elt F)) :=
  [ StableHlo.nullary main_v0 (iotaInDim S64 32 0),
    StableHlo.TRef.unary (TRef.of (T := ⟨S64, .i32⟩) main_arg4) main_call0.v0 (extractStridedSlice S1 ![63] · slices_S64_S1_63),
    StableHlo.TRef.unary (TRef.of (T := ⟨S64, .i32⟩) main_arg4) main_call0.v1 (extractStridedSlice S63 ![0] · slices_S64_S63_0),
    StableHlo.TRef.binary main_call0.v0 main_call0.v1 main_call0.v2 (fun a b => concatenate S64 0 [⟨S1, a⟩, ⟨S63, b⟩] concatenates_S1_S63_S64_d0),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (TRef.of (T := ⟨S64, .i32⟩) main_v3) main_call1.call0.v0 main_call1.call0.v1 (fun x v => Host.reduceWindow IntOp.addi ![64] ![1] ![63] ![0] x v reduceWindows_S64_S64_w64s1p63_0 h_S_),
    StableHlo.nullary main_c_1 (constantI S_ 32 0#32),
    StableHlo.unary main_c_1 main_v5 (broadcastInDim S2048 ![] bcast_S_S2048 : (⟨S_, .i32⟩ : BufTy).Contents (Elt F) → (⟨S2048, .i32⟩ : BufTy).Contents (Elt F)),
    StableHlo.nullary main_c_2 (constantI S_ 32 0#32),
    StableHlo.unary main_c_2 main_v6 (broadcastInDim S64 ![] bcast_S_S64 : (⟨S_, .i32⟩ : BufTy).Contents (Elt F) → (⟨S64, .i32⟩ : BufTy).Contents (Elt F)),
    StableHlo.binary main_v4 main_v6 main_v7 (cmpi .slt : (⟨S64, .i32⟩ : BufTy).Contents (Elt F) → (⟨S64, .i32⟩ : BufTy).Contents (Elt F) → (⟨S64, .i1⟩ : BufTy).Contents (Elt F)),
    StableHlo.nullary main_c_3 (constantI S_ 32 2048#32),
    StableHlo.unary main_c_3 main_v8 (broadcastInDim S64 ![] bcast_S_S64 : (⟨S_, .i32⟩ : BufTy).Contents (Elt F) → (⟨S64, .i32⟩ : BufTy).Contents (Elt F)),
    StableHlo.binary main_v4 main_v8 main_v9 (addi : (⟨S64, .i32⟩ : BufTy).Contents (Elt F) → (⟨S64, .i32⟩ : BufTy).Contents (Elt F) → (⟨S64, .i32⟩ : BufTy).Contents (Elt F)),
    StableHlo.ternary main_v7 main_v9 main_v4 main_v10 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v10 main_v11 (broadcastInDim S64x1 ![0] bcast_S64_S64x1_0 : (⟨S64, .i32⟩ : BufTy).Contents (Elt F) → (⟨S64x1, .i32⟩ : BufTy).Contents (Elt F)),
    StableHlo.nullary main_c_4 (constantI S_ 32 1#32),
    StableHlo.unary main_c_4 main_v12 (broadcastInDim S64 ![] bcast_S_S64 : (⟨S_, .i32⟩ : BufTy).Contents (Elt F) → (⟨S64, .i32⟩ : BufTy).Contents (Elt F)),
    StableHlo.ternary main_v5 main_v11 main_v12 main_v13 ((fun x i u => Host.scatter scatter_S2048_S64x1_S64_n_0_0_1 IntOp.addi x i u) : (⟨S2048, .i32⟩ : BufTy).Contents (Elt F) → (⟨S64x1, .i32⟩ : BufTy).Contents (Elt F) → (⟨S64, .i32⟩ : BufTy).Contents (Elt F) → (⟨S2048, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (TRef.of (T := ⟨S2048, .i32⟩) main_v13) main_call2.call0.v0 main_call2.call0.v1 (fun x v => Host.reduceWindow IntOp.addi ![2048] ![1] ![2047] ![0] x v reduceWindows_S2048_S2048_w2048s1p2047_0 h_S_),
    StableHlo.nullary main_c_5 (constantI S_ 32 1#32),
    StableHlo.unary main_c_5 main_v15 (broadcastInDim S2048 ![] bcast_S_S2048 : (⟨S_, .i32⟩ : BufTy).Contents (Elt F) → (⟨S2048, .i32⟩ : BufTy).Contents (Elt F)),
    StableHlo.binary main_v14 main_v15 main_v16 (subi : (⟨S2048, .i32⟩ : BufTy).Contents (Elt F) → (⟨S2048, .i32⟩ : BufTy).Contents (Elt F) → (⟨S2048, .i32⟩ : BufTy).Contents (Elt F)) ]
/-- The buffers that stretch A's operations write, in order. -/
abbrev opsA_W : List (Ref sig .tc) := [main_v0, main_call0_v0, main_call0_v1, main_v1, main_c, main_v2, main_c_0, main_v3, main_call1_call0_c, main_call1_call0_v0, main_v4, main_c_1, main_v5, main_c_2, main_v6, main_v7, main_c_3, main_v8, main_v9, main_v10, main_v11, main_c_4, main_v12, main_v13, main_call2_call0_c, main_call2_call0_v0, main_v14, main_c_5, main_v15, main_v16]
set_option maxRecDepth 8192 in
/-- Stretch A's operations touch TensorCore buffers only: each builder's own lemma, in order. -/
theorem opsA_sub : (opsA : List (HloOp τ sig (Elt F))).Forall fun op => op.bufs ⊆ tcRefs τ sig :=
  ⟨nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub ..⟩

/-- @main's operations, calls replaced by the callees' bodies — each atom's segment id: operations 31 … 52. -/
abbrev opsB : List (HloOp τ sig (Elt F)) :=
  [ StableHlo.TRef.nullary main_call3.c (constantI S_ 32 0#32),
    StableHlo.TRef.unary main_call3.c main_call3.v0 (broadcastInDim S2048 ![] bcast_S_S2048),
    StableHlo.TRef.binary (TRef.of (T := ⟨S2048, .i32⟩) main_v16) main_call3.v0 main_call3.v1 (cmpi .slt),
    StableHlo.TRef.nullary main_call3.c_0 (constantI S_ 32 64#32),
    StableHlo.TRef.unary main_call3.c_0 main_call3.v2 (broadcastInDim S2048 ![] bcast_S_S2048),
    StableHlo.TRef.binary (TRef.of (T := ⟨S2048, .i32⟩) main_v16) main_call3.v2 main_call3.v3 addi,
    StableHlo.TRef.ternary main_call3.v1 main_call3.v3 (TRef.of (T := ⟨S2048, .i32⟩) main_v16) main_call3.call0.v0 select,
    StableHlo.TRef.unary main_call3.call0.v0 main_call3.v5 (broadcastInDim S2048x1 ![0] bcast_S2048_S2048x1_0),
    StableHlo.TRef.nullary main_call3.c_1 (constantI S1 32 63#32),
    StableHlo.TRef.nullary main_call3.c_2 (constantI S_ 32 0#32),
    StableHlo.TRef.unary main_call3.c_2 main_call3.v6 (broadcastInDim S2048x1 ![] bcast_S_S2048x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S2048x1 ![0, 1] bcast_S1x1_S2048x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S2048x1_S2048_d1 h_S_),
    StableHlo.TRef.binary (TRef.of (T := ⟨S64, .i32⟩) main_v0) main_call3.v5 main_call3.v13 (fun x i => Host.gather gather_S64_S2048x1_S2048_n_0_n_n_0_1_1 x i),
    StableHlo.TRef.nullary main_call3.c_4 (constantI S_ 32 2147483648#32),
    StableHlo.TRef.unary main_call3.c_4 main_call3.v14 (broadcastInDim S2048 ![] bcast_S_S2048),
    StableHlo.TRef.ternary main_call3.v12 main_call3.v13 main_call3.v14 main_call3.v15 select ]
/-- The buffers that stretch B's operations write, in order. -/
abbrev opsB_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v17]
set_option maxRecDepth 8192 in
/-- Stretch B's operations touch TensorCore buffers only: each builder's own lemma, in order. -/
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- @main's operations, calls replaced by the callees' bodies — the global index computed a second time: operations 53 … 81. -/
abbrev opsC : List (HloOp τ sig (Elt F)) :=
  [ StableHlo.TRef.unary (TRef.of (T := ⟨S64, .i32⟩) main_arg4) main_call4.v0 (extractStridedSlice S1 ![63] · slices_S64_S1_63),
    StableHlo.TRef.unary (TRef.of (T := ⟨S64, .i32⟩) main_arg4) main_call4.v1 (extractStridedSlice S63 ![0] · slices_S64_S63_0),
    StableHlo.TRef.binary main_call4.v0 main_call4.v1 main_call4.v2 (fun a b => concatenate S64 0 [⟨S1, a⟩, ⟨S63, b⟩] concatenates_S1_S63_S64_d0),
    StableHlo.nullary main_c_6 (constantI S_ 32 0#32),
    StableHlo.unary main_c_6 main_v19 (broadcastInDim S1 ![] bcast_S_S1 : (⟨S_, .i32⟩ : BufTy).Contents (Elt F) → (⟨S1, .i32⟩ : BufTy).Contents (Elt F)),
    StableHlo.nullary main_c_7 (constantI S_ 32 0#32),
    StableHlo.ternary main_v18 main_v19 main_c_7 main_v20 ((fun x i u => Host.scatter scatter_S64_S1_S__n_0_0_0 (fun _ b => b) x i u) : (⟨S64, .i32⟩ : BufTy).Contents (Elt F) → (⟨S1, .i32⟩ : BufTy).Contents (Elt F) → (⟨S_, .i32⟩ : BufTy).Contents (Elt F) → (⟨S64, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (TRef.of (T := ⟨S64, .i32⟩) main_v20) main_call5.call0.v0 main_call5.call0.v1 (fun x v => Host.reduceWindow IntOp.addi ![64] ![1] ![63] ![0] x v reduceWindows_S64_S64_w64s1p63_0 h_S_),
    StableHlo.nullary main_c_8 (constantI S_ 32 0#32),
    StableHlo.unary main_c_8 main_v22 (broadcastInDim S2048 ![] bcast_S_S2048 : (⟨S_, .i32⟩ : BufTy).Contents (Elt F) → (⟨S2048, .i32⟩ : BufTy).Contents (Elt F)),
    StableHlo.nullary main_c_9 (constantI S_ 32 0#32),
    StableHlo.unary main_c_9 main_v23 (broadcastInDim S64 ![] bcast_S_S64 : (⟨S_, .i32⟩ : BufTy).Contents (Elt F) → (⟨S64, .i32⟩ : BufTy).Contents (Elt F)),
    StableHlo.binary main_v21 main_v23 main_v24 (cmpi .slt : (⟨S64, .i32⟩ : BufTy).Contents (Elt F) → (⟨S64, .i32⟩ : BufTy).Contents (Elt F) → (⟨S64, .i1⟩ : BufTy).Contents (Elt F)),
    StableHlo.nullary main_c_10 (constantI S_ 32 2048#32),
    StableHlo.unary main_c_10 main_v25 (broadcastInDim S64 ![] bcast_S_S64 : (⟨S_, .i32⟩ : BufTy).Contents (Elt F) → (⟨S64, .i32⟩ : BufTy).Contents (Elt F)),
    StableHlo.binary main_v21 main_v25 main_v26 (addi : (⟨S64, .i32⟩ : BufTy).Contents (Elt F) → (⟨S64, .i32⟩ : BufTy).Contents (Elt F) → (⟨S64, .i32⟩ : BufTy).Contents (Elt F)),
    StableHlo.ternary main_v24 main_v26 main_v21 main_v27 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v27 main_v28 (broadcastInDim S64x1 ![0] bcast_S64_S64x1_0 : (⟨S64, .i32⟩ : BufTy).Contents (Elt F) → (⟨S64x1, .i32⟩ : BufTy).Contents (Elt F)),
    StableHlo.nullary main_c_11 (constantI S_ 32 1#32),
    StableHlo.unary main_c_11 main_v29 (broadcastInDim S64 ![] bcast_S_S64 : (⟨S_, .i32⟩ : BufTy).Contents (Elt F) → (⟨S64, .i32⟩ : BufTy).Contents (Elt F)),
    StableHlo.ternary main_v22 main_v28 main_v29 main_v30 ((fun x i u => Host.scatter scatter_S2048_S64x1_S64_n_0_0_1 IntOp.addi x i u) : (⟨S2048, .i32⟩ : BufTy).Contents (Elt F) → (⟨S64x1, .i32⟩ : BufTy).Contents (Elt F) → (⟨S64, .i32⟩ : BufTy).Contents (Elt F) → (⟨S2048, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (TRef.of (T := ⟨S2048, .i32⟩) main_v30) main_call6.call0.v0 main_call6.call0.v1 (fun x v => Host.reduceWindow IntOp.addi ![2048] ![1] ![2047] ![0] x v reduceWindows_S2048_S2048_w2048s1p2047_0 h_S_),
    StableHlo.nullary main_c_12 (constantI S_ 32 1#32),
    StableHlo.unary main_c_12 main_v32 (broadcastInDim S2048 ![] bcast_S_S2048 : (⟨S_, .i32⟩ : BufTy).Contents (Elt F) → (⟨S2048, .i32⟩ : BufTy).Contents (Elt F)),
    StableHlo.binary main_v31 main_v32 main_v33 (subi : (⟨S2048, .i32⟩ : BufTy).Contents (Elt F) → (⟨S2048, .i32⟩ : BufTy).Contents (Elt F) → (⟨S2048, .i32⟩ : BufTy).Contents (Elt F)) ]
/-- The buffers that stretch C's operations write, in order. -/
abbrev opsC_W : List (Ref sig .tc) := [main_call4_v0, main_call4_v1, main_v18, main_c_6, main_v19, main_c_7, main_v20, main_call5_call0_c, main_call5_call0_v0, main_v21, main_c_8, main_v22, main_c_9, main_v23, main_v24, main_c_10, main_v25, main_v26, main_v27, main_v28, main_c_11, main_v29, main_v30, main_call6_call0_c, main_call6_call0_v0, main_v31, main_c_12, main_v32, main_v33]
set_option maxRecDepth 8192 in
/-- Stretch C's operations touch TensorCore buffers only: each builder's own lemma, in order. -/
theorem opsC_sub : (opsC : List (HloOp τ sig (Elt F))).Forall fun op => op.bufs ⊆ tcRefs τ sig :=
  ⟨unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub ..⟩

/-- @main's operations, calls replaced by the callees' bodies — each atom's segment centre: operations 82 … 104. -/
abbrev opsD : List (HloOp τ sig (Elt F)) :=
  [ StableHlo.TRef.nullary main_call7.c (constantI S_ 32 0#32),
    StableHlo.TRef.unary main_call7.c main_call7.v0 (broadcastInDim S2048 ![] bcast_S_S2048),
    StableHlo.TRef.binary (TRef.of (T := ⟨S2048, .i32⟩) main_v33) main_call7.v0 main_call7.v1 (cmpi .slt),
    StableHlo.TRef.nullary main_call7.c_0 (constantI S_ 32 64#32),
    StableHlo.TRef.unary main_call7.c_0 main_call7.v2 (broadcastInDim S2048 ![] bcast_S_S2048),
    StableHlo.TRef.binary (TRef.of (T := ⟨S2048, .i32⟩) main_v33) main_call7.v2 main_call7.v3 addi,
    StableHlo.TRef.ternary main_call7.v1 main_call7.v3 (TRef.of (T := ⟨S2048, .i32⟩) main_v33) main_call7.call0.v0 select,
    StableHlo.TRef.unary main_call7.call0.v0 main_call7.v5 (broadcastInDim S2048x1 ![0] bcast_S2048_S2048x1_0),
    StableHlo.TRef.nullary main_call7.c_1 (constantI S1 32 63#32),
    StableHlo.TRef.nullary main_call7.c_2 (constantI S_ 32 0#32),
    StableHlo.TRef.unary main_call7.c_2 main_call7.v6 (broadcastInDim S2048x1 ![] bcast_S_S2048x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S2048x1 ![0, 1] bcast_S1x1_S2048x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S2048x1_S2048_d1 h_S_),
    StableHlo.TRef.binary (TRef.of (T := ⟨S64x3, .f32⟩) main_arg3) main_call7.v5 main_call7.v13 (fun x i => Host.gather gather_S64x3_S2048x1_S2048x3_1_0_n_n_0_1_13 x i),
    StableHlo.TRef.unary main_call7.v12 main_call7.v14 (broadcastInDim S2048x3 ![0] bcast_S2048_S2048x3_0),
    StableHlo.TRef.nullary main_call7.cst (constant S_ .f32 0x7FC00000#32),
    StableHlo.TRef.unary main_call7.cst main_call7.v15 (broadcastInDim S2048x3 ![] bcast_S_S2048x3),
    StableHlo.TRef.ternary main_call7.v14 main_call7.v13 main_call7.v15 main_call7.v16 select ]
/-- The buffers that stretch D's operations write, in order. -/
abbrev opsD_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v34]
set_option maxRecDepth 8192 in
/-- Stretch D's operations touch TensorCore buffers only: each builder's own lemma, in order. -/
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- @main's operations, calls replaced by the callees' bodies — the coefficients and their column blocks: operations 105 … 115. -/
abbrev opsE : List (HloOp τ sig (Elt F)) :=
  [ StableHlo.binary main_arg0 main_arg5 main_v35 ((fun l r => Host.dotGeneral dot_S2048x128_S128x46_S2048x46_1_0_0_1_n_n none l r) : (⟨S2048x128, .f32⟩ : BufTy).Contents (Elt F) → (⟨S128x46, .f32⟩ : BufTy).Contents (Elt F) → (⟨S2048x46, .f32⟩ : BufTy).Contents (Elt F)),
    StableHlo.unary main_arg6 main_v36 (broadcastInDim S1x46 ![1] bcast_S46_S1x46_1 : (⟨S46, .f32⟩ : BufTy).Contents (Elt F) → (⟨S1x46, .f32⟩ : BufTy).Contents (Elt F)),
    StableHlo.unary main_v36 main_v37 (broadcastInDim S2048x46 ![0, 1] bcast_S1x46_S2048x46_0_1 : (⟨S1x46, .f32⟩ : BufTy).Contents (Elt F) → (⟨S2048x46, .f32⟩ : BufTy).Contents (Elt F)),
    StableHlo.binary main_v35 main_v37 main_v38 (addf : (⟨S2048x46, .f32⟩ : BufTy).Contents (Elt F) → (⟨S2048x46, .f32⟩ : BufTy).Contents (Elt F) → (⟨S2048x46, .f32⟩ : BufTy).Contents (Elt F)),
    StableHlo.unary main_v38 main_v39 ((extractStridedSlice S2048x8 ![0, 0] · slices_S2048x46_S2048x8_0_0) : (⟨S2048x46, .f32⟩ : BufTy).Contents (Elt F) → (⟨S2048x8, .f32⟩ : BufTy).Contents (Elt F)),
    StableHlo.binary main_v39 main_v39 main_v40 (mulf : (⟨S2048x8, .f32⟩ : BufTy).Contents (Elt F) → (⟨S2048x8, .f32⟩ : BufTy).Contents (Elt F) → (⟨S2048x8, .f32⟩ : BufTy).Contents (Elt F)),
    StableHlo.unary main_v38 main_v41 ((extractStridedSlice S2048x8 ![0, 8] · slices_S2048x46_S2048x8_0_8) : (⟨S2048x46, .f32⟩ : BufTy).Contents (Elt F) → (⟨S2048x8, .f32⟩ : BufTy).Contents (Elt F)),
    StableHlo.unary main_v38 main_v42 ((extractStridedSlice S2048x6 ![0, 16] · slices_S2048x46_S2048x6_0_16) : (⟨S2048x46, .f32⟩ : BufTy).Contents (Elt F) → (⟨S2048x6, .f32⟩ : BufTy).Contents (Elt F)),
    StableHlo.binary main_v42 main_v42 main_v43 (mulf : (⟨S2048x6, .f32⟩ : BufTy).Contents (Elt F) → (⟨S2048x6, .f32⟩ : BufTy).Contents (Elt F) → (⟨S2048x6, .f32⟩ : BufTy).Contents (Elt F)),
    StableHlo.unary main_v38 main_v44 ((extractStridedSlice S2048x6 ![0, 22] · slices_S2048x46_S2048x6_0_22) : (⟨S2048x46, .f32⟩ : BufTy).Contents (Elt F) → (⟨S2048x6, .f32⟩ : BufTy).Contents (Elt F)),
    StableHlo.unary main_v38 main_v45 ((extractStridedSlice S2048x18 ![0, 28] · slices_S2048x46_S2048x18_0_28) : (⟨S2048x46, .f32⟩ : BufTy).Contents (Elt F) → (⟨S2048x18, .f32⟩ : BufTy).Contents (Elt F)) ]
/-- The buffers that stretch E's operations write, in order. -/
abbrev opsE_W : List (Ref sig .tc) := [main_v35, main_v36, main_v37, main_v38, main_v39, main_v40, main_v41, main_v42, main_v43, main_v44, main_v45]
set_option maxRecDepth 8192 in
/-- Stretch E's operations touch TensorCore buffers only: each builder's own lemma, in order. -/
theorem opsE_sub : (opsE : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., unary_bufs_sub .., unary_bufs_sub ..⟩

/-- @main's operations, calls replaced by the callees' bodies — the pairwise displacement and distance: operations 116 … 125. -/
abbrev opsF : List (HloOp τ sig (Elt F)) :=
  [ StableHlo.reshape main_v45 main_v46 rfl shapeCasts_S2048x18_S2048x6x3,
    StableHlo.unary main_arg2 main_v47 (broadcastInDim S2048x1x3 ![0, 2] bcast_S2048x3_S2048x1x3_0_2 : (⟨S2048x3, .f32⟩ : BufTy).Contents (Elt F) → (⟨S2048x1x3, .f32⟩ : BufTy).Contents (Elt F)),
    StableHlo.unary main_v34 main_v48 (broadcastInDim S1x2048x3 ![1, 2] bcast_S2048x3_S1x2048x3_1_2 : (⟨S2048x3, .f32⟩ : BufTy).Contents (Elt F) → (⟨S1x2048x3, .f32⟩ : BufTy).Contents (Elt F)),
    StableHlo.unary main_v47 main_v49 (broadcastInDim S2048x2048x3 ![0, 1, 2] bcast_S2048x1x3_S2048x2048x3_0_1_2 : (⟨S2048x1x3, .f32⟩ : BufTy).Contents (Elt F) → (⟨S2048x2048x3, .f32⟩ : BufTy).Contents (Elt F)),
    StableHlo.unary main_v48 main_v50 (broadcastInDim S2048x2048x3 ![0, 1, 2] bcast_S1x2048x3_S2048x2048x3_0_1_2 : (⟨S1x2048x3, .f32⟩ : BufTy).Contents (Elt F) → (⟨S2048x2048x3, .f32⟩ : BufTy).Contents (Elt F)),
    StableHlo.binary main_v49 main_v50 main_v51 (subf : (⟨S2048x2048x3, .f32⟩ : BufTy).Contents (Elt F) → (⟨S2048x2048x3, .f32⟩ : BufTy).Contents (Elt F) → (⟨S2048x2048x3, .f32⟩ : BufTy).Contents (Elt F)),
    StableHlo.TRef.binary (TRef.of (T := ⟨S2048x2048x3, .f32⟩) main_v51) (TRef.of (T := ⟨S2048x2048x3, .f32⟩) main_v51) main_call8.v0 mulf,
    StableHlo.TRef.nullary main_call8.cst (constant S_ .f32 0x00000000#32),
    StableHlo.TRef.binary main_call8.v0 main_call8.cst main_call8.v1 (fun x v => Host.reduceAdd x v reducesTo_S2048x2048x3_S2048x2048_d2 h_S_),
    StableHlo.TRef.unary main_call8.v1 main_call8.v2 Host.sqrt ]
/-- The buffers that stretch F's operations write, in order. -/
abbrev opsF_W : List (Ref sig .tc) := [main_v46, main_v47, main_v48, main_v49, main_v50, main_v51, main_call8_v0, main_call8_cst, main_call8_v1, main_v52]
set_option maxRecDepth 8192 in
/-- Stretch F's operations touch TensorCore buffers only: each builder's own lemma, in order. -/
theorem opsF_sub : (opsF : List (HloOp τ sig (Elt F))).Forall fun op => op.bufs ⊆ tcRefs τ sig :=
  ⟨reshape_bufs_sub .., unary_bufs_sub .., unary_bufs_sub .., unary_bufs_sub .., unary_bufs_sub .., binary_bufs_sub .., binary_bufs_sub .., nullary_bufs_sub .., binary_bufs_sub .., unary_bufs_sub ..⟩

/-- @main's operations, calls replaced by the callees' bodies — the radial sum and its per-segment sum: operations 126 … 141. -/
abbrev opsG : List (HloOp τ sig (Elt F)) :=
  [ StableHlo.unary main_v41 main_v53 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v40 main_v54 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v54 main_v55 (Host.negf : (⟨S2048x8x1, .f32⟩ : BufTy).Contents (Elt F) → (⟨S2048x8x1, .f32⟩ : BufTy).Contents (Elt F)),
    StableHlo.unary main_v52 main_v56 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v55 main_v57 (broadcastInDim S2048x8x2048 ![0, 1, 2] bcast_S2048x8x1_S2048x8x2048_0_1_2 : (⟨S2048x8x1, .f32⟩ : BufTy).Contents (Elt F) → (⟨S2048x8x2048, .f32⟩ : BufTy).Contents (Elt F)),
    StableHlo.unary main_v56 main_v58 (broadcastInDim S2048x8x2048 ![0, 1, 2] bcast_S2048x1x2048_S2048x8x2048_0_1_2 : (⟨S2048x1x2048, .f32⟩ : BufTy).Contents (Elt F) → (⟨S2048x8x2048, .f32⟩ : BufTy).Contents (Elt F)),
    StableHlo.binary main_v57 main_v58 main_v59 (mulf : (⟨S2048x8x2048, .f32⟩ : BufTy).Contents (Elt F) → (⟨S2048x8x2048, .f32⟩ : BufTy).Contents (Elt F) → (⟨S2048x8x2048, .f32⟩ : BufTy).Contents (Elt F)),
    StableHlo.unary main_v59 main_v60 (Host.exp : (⟨S2048x8x2048, .f32⟩ : BufTy).Contents (Elt F) → (⟨S2048x8x2048, .f32⟩ : BufTy).Contents (Elt F)),
    StableHlo.unary main_v53 main_v61 (broadcastInDim S2048x8x2048 ![0, 1, 2] bcast_S2048x8x1_S2048x8x2048_0_1_2 : (⟨S2048x8x1, .f32⟩ : BufTy).Contents (Elt F) → (⟨S2048x8x2048, .f32⟩ : BufTy).Contents (Elt F)),
    StableHlo.binary main_v61 main_v60 main_v62 (mulf : (⟨S2048x8x2048, .f32⟩ : BufTy).Contents (Elt F) → (⟨S2048x8x2048, .f32⟩ : BufTy).Contents (Elt F) → (⟨S2048x8x2048, .f32⟩ : BufTy).Contents (Elt F)),
    StableHlo.nullary main_cst (constant S_ .f32 0x00000000#32),
    StableHlo.binary main_v62 main_cst main_v63 ((fun x v => Host.reduceAdd x v reducesTo_S2048x8x2048_S2048x2048_d1 h_S_) : (⟨S2048x8x2048, .f32⟩ : BufTy).Contents (Elt F) → (⟨S_, .f32⟩ : BufTy).Contents (Elt F) → (⟨S2048x2048, .f32⟩ : BufTy).Contents (Elt F)),
    StableHlo.nullary main_cst_13 (constant S_ .f32 0x00000000#32),
    StableHlo.unary main_cst_13 main_v64 (broadcastInDim S64x2048 ![] bcast_S_S64x2048 : (⟨S_, .f32⟩ : BufTy).Contents (Elt F) → (⟨S64x2048, .f32⟩ : BufTy).Contents (Elt F)),
    StableHlo.unary main_v17 main_v65 (broadcastInDim S2048x1 ![0] bcast_S2048_S2048x1_0 : (⟨S2048, .i32⟩ : BufTy).Contents (Elt F) → (⟨S2048x1, .i32⟩ : BufTy).Contents (Elt F)),
    StableHlo.ternary main_v64 main_v65 main_v63 main_v66 ((fun x i u => Host.scatterAdd scatter_S64x2048_S2048x1_S2048x2048_1_0_0_1 x i u) : (⟨S64x2048, .f32⟩ : BufTy).Contents (Elt F) → (⟨S2048x1, .i32⟩ : BufTy).Contents (Elt F) → (⟨S2048x2048, .f32⟩ : BufTy).Contents (Elt F) → (⟨S64x2048, .f32⟩ : BufTy).Contents (Elt F)) ]
/-- The buffers that stretch G's operations write, in order. -/
abbrev opsG_W : List (Ref sig .tc) := [main_v53, main_v54, main_v55, main_v56, main_v57, main_v58, main_v59, main_v60, main_v61, main_v62, main_cst, main_v63, main_cst_13, main_v64, main_v65, main_v66]
set_option maxRecDepth 8192 in
/-- Stretch G's operations touch TensorCore buffers only: each builder's own lemma, in order. -/
theorem opsG_sub : (opsG : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- @main's operations, calls replaced by the callees' bodies — the directional sum, its per-segment sum, and the result: operations 142 … 168. -/
abbrev opsH : List (HloOp τ sig (Elt F)) :=
  [ StableHlo.unary main_v44 main_v67 (broadcastInDim S2048x6x1 ![0, 1] bcast_S2048x6_S2048x6x1_0_1 : (⟨S2048x6, .f32⟩ : BufTy).Contents (Elt F) → (⟨S2048x6x1, .f32⟩ : BufTy).Contents (Elt F)),
    StableHlo.unary main_v43 main_v68 (broadcastInDim S2048x6x1 ![0, 1] bcast_S2048x6_S2048x6x1_0_1 : (⟨S2048x6, .f32⟩ : BufTy).Contents (Elt F) → (⟨S2048x6x1, .f32⟩ : BufTy).Contents (Elt F)),
    StableHlo.unary main_v68 main_v69 (Host.negf : (⟨S2048x6x1, .f32⟩ : BufTy).Contents (Elt F) → (⟨S2048x6x1, .f32⟩ : BufTy).Contents (Elt F)),
    StableHlo.binary main_v52 main_v52 main_v70 (mulf : (⟨S2048x2048, .f32⟩ : BufTy).Contents (Elt F) → (⟨S2048x2048, .f32⟩ : BufTy).Contents (Elt F) → (⟨S2048x2048, .f32⟩ : BufTy).Contents (Elt F)),
    StableHlo.unary main_v70 main_v71 (broadcastInDim S2048x1x2048 ![0, 2] bcast_S2048x2048_S2048x1x2048_0_2 : (⟨S2048x2048, .f32⟩ : BufTy).Contents (Elt F) → (⟨S2048x1x2048, .f32⟩ : BufTy).Contents (Elt F)),
    StableHlo.unary main_v69 main_v72 (broadcastInDim S2048x6x2048 ![0, 1, 2] bcast_S2048x6x1_S2048x6x2048_0_1_2 : (⟨S2048x6x1, .f32⟩ : BufTy).Contents (Elt F) → (⟨S2048x6x2048, .f32⟩ : BufTy).Contents (Elt F)),
    StableHlo.unary main_v71 main_v73 (broadcastInDim S2048x6x2048 ![0, 1, 2] bcast_S2048x1x2048_S2048x6x2048_0_1_2 : (⟨S2048x1x2048, .f32⟩ : BufTy).Contents (Elt F) → (⟨S2048x6x2048, .f32⟩ : BufTy).Contents (Elt F)),
    StableHlo.binary main_v72 main_v73 main_v74 (mulf : (⟨S2048x6x2048, .f32⟩ : BufTy).Contents (Elt F) → (⟨S2048x6x2048, .f32⟩ : BufTy).Contents (Elt F) → (⟨S2048x6x2048, .f32⟩ : BufTy).Contents (Elt F)),
    StableHlo.unary main_v74 main_v75 (Host.exp : (⟨S2048x6x2048, .f32⟩ : BufTy).Contents (Elt F) → (⟨S2048x6x2048, .f32⟩ : BufTy).Contents (Elt F)),
    StableHlo.unary main_v67 main_v76 (broadcastInDim S2048x6x2048 ![0, 1, 2] bcast_S2048x6x1_S2048x6x2048_0_1_2 : (⟨S2048x6x1, .f32⟩ : BufTy).Contents (Elt F) → (⟨S2048x6x2048, .f32⟩ : BufTy).Contents (Elt F)),
    StableHlo.binary main_v76 main_v75 main_v77 (mulf : (⟨S2048x6x2048, .f32⟩ : BufTy).Contents (Elt F) → (⟨S2048x6x2048, .f32⟩ : BufTy).Contents (Elt F) → (⟨S2048x6x2048, .f32⟩ : BufTy).Contents (Elt F)),
    StableHlo.unary main_v46 main_v78 (broadcastInDim S2048x6x1x3 ![0, 1, 3] bcast_S2048x6x3_S2048x6x1x3_0_1_3 : (⟨S2048x6x3, .f32⟩ : BufTy).Contents (Elt F) → (⟨S2048x6x1x3, .f32⟩ : BufTy).Contents (Elt F)),
    StableHlo.unary main_v51 main_v79 (Host.absf : (⟨S2048x2048x3, .f32⟩ : BufTy).Contents (Elt F) → (⟨S2048x2048x3, .f32⟩ : BufTy).Contents (Elt F)),
    StableHlo.unary main_v79 main_v80 (broadcastInDim S2048x1x2048x3 ![0, 2, 3] bcast_S2048x2048x3_S2048x1x2048x3_0_2_3 : (⟨S2048x2048x3, .f32⟩ : BufTy).Contents (Elt F) → (⟨S2048x1x2048x3, .f32⟩ : BufTy).Contents (Elt F)),
    StableHlo.unary main_v78 main_v81 (broadcastInDim S2048x6x2048x3 ![0, 1, 2, 3] bcast_S2048x6x1x3_S2048x6x2048x3_0_1_2_3 : (⟨S2048x6x1x3, .f32⟩ : BufTy).Contents (Elt F) → (⟨S2048x6x2048x3, .f32⟩ : BufTy).Contents (Elt F)),
    StableHlo.unary main_v80 main_v82 (broadcastInDim S2048x6x2048x3 ![0, 1, 2, 3] bcast_S2048x1x2048x3_S2048x6x2048x3_0_1_2_3 : (⟨S2048x1x2048x3, .f32⟩ : BufTy).Contents (Elt F) → (⟨S2048x6x2048x3, .f32⟩ : BufTy).Contents (Elt F)),
    StableHlo.binary main_v81 main_v82 main_v83 (mulf : (⟨S2048x6x2048x3, .f32⟩ : BufTy).Contents (Elt F) → (⟨S2048x6x2048x3, .f32⟩ : BufTy).Contents (Elt F) → (⟨S2048x6x2048x3, .f32⟩ : BufTy).Contents (Elt F)),
    StableHlo.nullary main_cst_14 (constant S_ .f32 0x00000000#32),
    StableHlo.binary main_v83 main_cst_14 main_v84 ((fun x v => Host.reduceAdd x v reducesTo_S2048x6x2048x3_S2048x6x2048_d3 h_S_) : (⟨S2048x6x2048x3, .f32⟩ : BufTy).Contents (Elt F) → (⟨S_, .f32⟩ : BufTy).Contents (Elt F) → (⟨S2048x6x2048, .f32⟩ : BufTy).Contents (Elt F)),
    StableHlo.binary main_v77 main_v84 main_v85 (mulf : (⟨S2048x6x2048, .f32⟩ : BufTy).Contents (Elt F) → (⟨S2048x6x2048, .f32⟩ : BufTy).Contents (Elt F) → (⟨S2048x6x2048, .f32⟩ : BufTy).Contents (Elt F)),
    StableHlo.nullary main_cst_15 (constant S_ .f32 0x00000000#32),
    StableHlo.binary main_v85 main_cst_15 main_v86 ((fun x v => Host.reduceAdd x v reducesTo_S2048x6x2048_S2048x2048_d1 h_S_) : (⟨S2048x6x2048, .f32⟩ : BufTy).Contents (Elt F) → (⟨S_, .f32⟩ : BufTy).Contents (Elt F) → (⟨S2048x2048, .f32⟩ : BufTy).Contents (Elt F)),
    StableHlo.nullary main_cst_16 (constant S_ .f32 0x00000000#32),
    StableHlo.unary main_cst_16 main_v87 (broadcastInDim S64x2048 ![] bcast_S_S64x2048 : (⟨S_, .f32⟩ : BufTy).Contents (Elt F) → (⟨S64x2048, .f32⟩ : BufTy).Contents (Elt F)),
    StableHlo.unary main_v17 main_v88 (broadcastInDim S2048x1 ![0] bcast_S2048_S2048x1_0 : (⟨S2048, .i32⟩ : BufTy).Contents (Elt F) → (⟨S2048x1, .i32⟩ : BufTy).Contents (Elt F)),
    StableHlo.ternary main_v87 main_v88 main_v86 main_v89 ((fun x i u => Host.scatterAdd scatter_S64x2048_S2048x1_S2048x2048_1_0_0_1 x i u) : (⟨S64x2048, .f32⟩ : BufTy).Contents (Elt F) → (⟨S2048x1, .i32⟩ : BufTy).Contents (Elt F) → (⟨S2048x2048, .f32⟩ : BufTy).Contents (Elt F) → (⟨S64x2048, .f32⟩ : BufTy).Contents (Elt F)),
    StableHlo.binary main_v66 main_v89 main_v90 (addf : (⟨S64x2048, .f32⟩ : BufTy).Contents (Elt F) → (⟨S64x2048, .f32⟩ : BufTy).Contents (Elt F) → (⟨S64x2048, .f32⟩ : BufTy).Contents (Elt F)) ]
/-- The buffers that stretch H's operations write, in order. -/
abbrev opsH_W : List (Ref sig .tc) := [main_v67, main_v68, main_v69, main_v70, main_v71, main_v72, main_v73, main_v74, main_v75, main_v76, main_v77, main_v78, main_v79, main_v80, main_v81, main_v82, main_v83, main_cst_14, main_v84, main_v85, main_cst_15, main_v86, main_cst_16, main_v87, main_v88, main_v89, main_v90]
set_option maxRecDepth 8192 in
/-- Stretch H's operations touch TensorCore buffers only: each builder's own lemma, in order. -/
theorem opsH_sub : (opsH : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., nullary_bufs_sub .., binary_bufs_sub .., binary_bufs_sub .., nullary_bufs_sub .., binary_bufs_sub .., nullary_bufs_sub .., unary_bufs_sub .., unary_bufs_sub .., ternary_bufs_sub .., binary_bufs_sub ..⟩

/-- The operations of @main's first printed window (statements 1 … 60). -/
abbrev ops0 : List (HloOp τ sig (Elt F)) := opsA ++ (opsB ++ (opsC ++ (opsD ++ opsE)))
/-- The operations of @main's second printed window (statements 61 … 111). -/
abbrev ops1 : List (HloOp τ sig (Elt F)) := opsF ++ (opsG ++ opsH)
/-- @main's 168 operations, in order. -/
abbrev ops : List (HloOp τ sig (Elt F)) := ops0 ++ ops1

end Cert.ReferenceIdeal.RefRun

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.RefRun.lean ====
import proofs.«130563_j43465069035926_2_alg».proof.Defs
import proofs.«130563_j43465069035926_2_alg».proof.Proof.Gen.ReferenceIdeal
import proofs.«130563_j43465069035926_2_alg».proof.Proof.Gen.Pre_finite_inputs
import proofs.«130563_j43465069035926_2_alg».proof.Proof.RefOps
import proofs.«130563_j43465069035926_2_alg».proof.Proof.RefStages
import proofs.«130563_j43465069035926_2_alg».proof.Proof.LibTypedRef
import Idealize.ShloMosaic.Lib.StableHlo.Run
import Idealize.ShloMosaic.Lib.Pipeline.Frame

/-!
# The run of the host-only reference program

The reference's @main is a straight line of 168 tensor operations once its nine calls are replaced by the callees'
bodies (the list `ops`, in eight stretches, one per stage of the computation). This module shows that @main is that
line, computes what each stretch leaves in the buffers the later stretches read — the stage's value of the argument
arrays — and reads the run back: every execution ends with the result array at `refOut` of the launch contents of the
arguments, the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

set_option maxRecDepth 16384 in
set_option maxHeartbeats 4000000 in
/-- The first window is its line: the callees' definitions unfolded at their calls, sequencing reassociated. -/
theorem main_part0_eq (c : Dev nD) : main_part0 (F := F) c = seq ops0 := by
  simp only [main_part0, fn_roll_static.body, fn_cumsum.body, fn_cumsum_0.body, fn_cumsum_1.body, fn_cumsum_2.body,
    fn_take.body, fn_take_3.body, fn_where.body, ops0, opsA, opsB, opsC, opsD, opsE, List.cons_append, List.nil_append,
    seq, bind_assoc, pure_bind]
  rfl

set_option maxRecDepth 16384 in
set_option maxHeartbeats 4000000 in
/-- The second window is its line. -/
theorem main_part1_eq (c : Dev nD) : main_part1 (F := F) c = seq ops1 := by
  simp only [main_part1, fn_norm.body, ops1, opsF, opsG, opsH, List.cons_append, List.nil_append, seq, bind_assoc, pure_bind]

/-- @main is the whole line. -/
theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h) | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h,
      List.forall_iff_forall_mem.mp opsG_sub op h, List.forall_iff_forall_mem.mp opsH_sub op h]

/-! ## What each stretch writes -/

/-- Each operation of a literal list writes its own result buffer, which is in the stretch's list: the conjunction
    split, each conjunct the builder's `writes` and a membership decided over references. -/
local macro "writes_all" : tactic =>
  `(tactic| (simp only [List.Forall]
             repeat' apply And.intro
             all_goals
               (simp only [nullary_writes, unary_writes, binary_writes, ternary_writes, reshape_writes,
                  Finset.singleton_subset_iff, List.mem_toFinset]
                exact List.mem_map_of_mem (by decide))))

set_option maxRecDepth 8192 in
theorem opsA_writes : (opsA : List (HloOp τ sig (Elt F))).Forall fun op => op.writes ⊆ (opsA_W.map (Proc.devRef (τ := τ) .tc)).toFinset := by
  writes_all
set_option maxRecDepth 8192 in
theorem opsB_writes : (opsB : List (HloOp τ sig (Elt F))).Forall fun op => op.writes ⊆ (opsB_W.map (Proc.devRef (τ := τ) .tc)).toFinset := by
  writes_all
set_option maxRecDepth 8192 in
theorem opsC_writes : (opsC : List (HloOp τ sig (Elt F))).Forall fun op => op.writes ⊆ (opsC_W.map (Proc.devRef (τ := τ) .tc)).toFinset := by
  writes_all
set_option maxRecDepth 8192 in
theorem opsD_writes : (opsD : List (HloOp τ sig (Elt F))).Forall fun op => op.writes ⊆ (opsD_W.map (Proc.devRef (τ := τ) .tc)).toFinset := by
  writes_all
set_option maxRecDepth 8192 in
theorem opsE_writes : (opsE : List (HloOp τ sig (Elt F))).Forall fun op => op.writes ⊆ (opsE_W.map (Proc.devRef (τ := τ) .tc)).toFinset := by
  writes_all
set_option maxRecDepth 8192 in
theorem opsF_writes : (opsF : List (HloOp τ sig (Elt F))).Forall fun op => op.writes ⊆ (opsF_W.map (Proc.devRef (τ := τ) .tc)).toFinset := by
  writes_all
set_option maxRecDepth 8192 in
theorem opsG_writes : (opsG : List (HloOp τ sig (Elt F))).Forall fun op => op.writes ⊆ (opsG_W.map (Proc.devRef (τ := τ) .tc)).toFinset := by
  writes_all
set_option maxRecDepth 8192 in
theorem opsH_writes : (opsH : List (HloOp τ sig (Elt F))).Forall fun op => op.writes ⊆ (opsH_W.map (Proc.devRef (τ := τ) .tc)).toFinset := by
  writes_all

/-! ## The contents stretch by stretch

`valK V0` is what the buffers hold after the first K stretches from contents `V0`. For each buffer a later stretch
reads, a lemma gives its contents there as the stage's value of the arguments' contents: computed through the stretch
that writes it, carried through the stretches that do not. -/

section Values

-- The closing `rfl` of a value lemma compares the operations' composed functions with the stage's definition argument by
-- argument; the functions' bodies are folds and searches over full-size arrays, which nothing here needs to open: they
-- stay folded in this section. An operation of a called function reads and writes its buffers through the identity between
-- the buffer's own type and the value's type; those identities are removed by rewriting (the three lemmas on typed
-- references) before the comparison, which is then between equal texts.
attribute [local irreducible] Host.reduceWindow Host.scatter Host.reduce Host.gather Host.reduceAdd Host.scatterAdd
  Host.sqrt Host.exp Host.negf Host.absf concatenate extractStridedSlice broadcastInDim shapeCast select cmpi addi subi andi
  mulf addf subf constantI constant iotaInDim

/-- The buffer contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-! ### After stretch A: the identity table and the atoms' global index -/

/-- The buffer contents after the first stretch. -/
def val1 (V0 : Valuation τ sig (Elt F)) : Valuation τ sig (Elt F) := after opsA (val0 V0)
/-- A buffer that stretch A does not write keeps its contents through it. -/
theorem val1_keep (V0 : Valuation τ sig (Elt F)) (r : Ref sig .tc) (h : r ∉ opsA_W) :
    val1 V0 (Proc.devRef .tc r) = val0 V0 (Proc.devRef .tc r) :=
  after_of_writes_sub opsA _ opsA_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
set_option maxRecDepth 16384 in
set_option maxHeartbeats 4000000 in
theorem val1_main_v0 (V0 : Valuation τ sig (Elt F)) : val1 V0 (no_index (Proc.devRef .tc main_v0)) = iotaInDim S64 32 0 := by
  unfold val1
  simp only [opsA]
  after_results_simp
set_option maxRecDepth 16384 in
set_option maxHeartbeats 4000000 in
theorem val1_main_v16 (V0 : Valuation τ sig (Elt F)) :
    val1 V0 (no_index (Proc.devRef .tc main_v16)) = gidx (V0 (Proc.devRef .tc main_arg4)) := by
  unfold val1
  simp only [opsA]
  after_results_simp
  simp only [val0_main_arg4, Cert.TypedRef.ofBuf_toBuf,
    Cert.TypedRef.ofBuf_eq (TRef.of (T := ⟨S64, .i32⟩) main_arg4) _ _ HEq.rfl,
    Cert.TypedRef.ofBuf_eq (TRef.of (T := ⟨S64, .i32⟩) main_v3) _ _ HEq.rfl,
    Cert.TypedRef.ofBuf_eq (TRef.of (T := ⟨S2048, .i32⟩) main_v13) _ _ HEq.rfl,
    Cert.TypedRef.toBuf_eq main_call0.v2 _ _ HEq.rfl, Cert.TypedRef.toBuf_eq main_call1.call0.v1 _ _ HEq.rfl,
    Cert.TypedRef.toBuf_eq main_call2.call0.v1 _ _ HEq.rfl]
  rfl

/-! ### After stretch B: each atom's segment id -/

/-- The buffer contents after the first two stretches. -/
def val2 (V0 : Valuation τ sig (Elt F)) : Valuation τ sig (Elt F) := after opsB (val1 V0)
/-- A buffer that stretch B does not write keeps its contents through it. -/
theorem val2_keep (V0 : Valuation τ sig (Elt F)) (r : Ref sig .tc) (h : r ∉ opsB_W) :
    val2 V0 (Proc.devRef .tc r) = val1 V0 (Proc.devRef .tc r) :=
  after_of_writes_sub opsB _ opsB_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
set_option maxRecDepth 16384 in
set_option maxHeartbeats 4000000 in
theorem val2_main_v17 (V0 : Valuation τ sig (Elt F)) :
    val2 V0 (no_index (Proc.devRef .tc main_v17)) = molIds (V0 (Proc.devRef .tc main_arg4)) := by
  unfold val2
  simp only [opsB]
  after_results_simp
  simp only [val1_main_v0, val1_main_v16, Cert.TypedRef.ofBuf_toBuf,
    Cert.TypedRef.ofBuf_eq (TRef.of (T := ⟨S64, .i32⟩) main_v0) _ _ HEq.rfl,
    Cert.TypedRef.ofBuf_eq (TRef.of (T := ⟨S2048, .i32⟩) main_v16) _ _ HEq.rfl,
    Cert.TypedRef.toBuf_eq main_call3.v15 _ _ HEq.rfl]
  rfl

/-! ### After stretch C: the global index a second time -/

/-- The buffer contents after the first three stretches. -/
def val3 (V0 : Valuation τ sig (Elt F)) : Valuation τ sig (Elt F) := after opsC (val2 V0)
/-- A buffer that stretch C does not write keeps its contents through it. -/
theorem val3_keep (V0 : Valuation τ sig (Elt F)) (r : Ref sig .tc) (h : r ∉ opsC_W) :
    val3 V0 (Proc.devRef .tc r) = val2 V0 (Proc.devRef .tc r) :=
  after_of_writes_sub opsC _ opsC_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_v17 (V0 : Valuation τ sig (Elt F)) :
    val3 V0 (no_index (Proc.devRef .tc main_v17)) = molIds (V0 (Proc.devRef .tc main_arg4)) :=
  (val3_keep V0 main_v17 (by decide)).trans (val2_main_v17 V0)
set_option maxRecDepth 16384 in
set_option maxHeartbeats 4000000 in
theorem val3_main_v33 (V0 : Valuation τ sig (Elt F)) :
    val3 V0 (no_index (Proc.devRef .tc main_v33)) = gidx (V0 (Proc.devRef .tc main_arg4)) := by
  unfold val3
  simp only [opsC]
  after_results_simp
  simp only [val2_main_arg4, Cert.TypedRef.ofBuf_toBuf,
    Cert.TypedRef.ofBuf_eq (TRef.of (T := ⟨S64, .i32⟩) main_arg4) _ _ HEq.rfl,
    Cert.TypedRef.ofBuf_eq (TRef.of (T := ⟨S64, .i32⟩) main_v20) _ _ HEq.rfl,
    Cert.TypedRef.ofBuf_eq (TRef.of (T := ⟨S2048, .i32⟩) main_v30) _ _ HEq.rfl,
    Cert.TypedRef.toBuf_eq main_call4.v2 _ _ HEq.rfl, Cert.TypedRef.toBuf_eq main_call5.call0.v1 _ _ HEq.rfl,
    Cert.TypedRef.toBuf_eq main_call6.call0.v1 _ _ HEq.rfl]
  rfl

/-! ### After stretch D: each atom's segment centre -/

/-- The buffer contents after the first four stretches. -/
def val4 (V0 : Valuation τ sig (Elt F)) : Valuation τ sig (Elt F) := after opsD (val3 V0)
/-- A buffer that stretch D does not write keeps its contents through it. -/
theorem val4_keep (V0 : Valuation τ sig (Elt F)) (r : Ref sig .tc) (h : r ∉ opsD_W) :
    val4 V0 (Proc.devRef .tc r) = val3 V0 (Proc.devRef .tc r) :=
  after_of_writes_sub opsD _ opsD_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_v17 (V0 : Valuation τ sig (Elt F)) :
    val4 V0 (no_index (Proc.devRef .tc main_v17)) = molIds (V0 (Proc.devRef .tc main_arg4)) :=
  (val4_keep V0 main_v17 (by decide)).trans (val3_main_v17 V0)
set_option maxRecDepth 16384 in
set_option maxHeartbeats 4000000 in
theorem val4_main_v34 (V0 : Valuation τ sig (Elt F)) :
    val4 V0 (no_index (Proc.devRef .tc main_v34)) = coordsA (V0 (Proc.devRef .tc main_arg3)) (V0 (Proc.devRef .tc main_arg4)) := by
  unfold val4
  simp only [opsD]
  after_results_simp
  simp only [val3_main_arg3, val3_main_v33, Cert.TypedRef.ofBuf_toBuf,
    Cert.TypedRef.ofBuf_eq (TRef.of (T := ⟨S64x3, .f32⟩) main_arg3) _ _ HEq.rfl,
    Cert.TypedRef.ofBuf_eq (TRef.of (T := ⟨S2048, .i32⟩) main_v33) _ _ HEq.rfl,
    Cert.TypedRef.toBuf_eq main_call7.v16 _ _ HEq.rfl]
  rfl

/-! ### After stretch E: the coefficients' column blocks -/

/-- The buffer contents after the first five stretches. -/
def val5 (V0 : Valuation τ sig (Elt F)) : Valuation τ sig (Elt F) := after opsE (val4 V0)
/-- A buffer that stretch E does not write keeps its contents through it. -/
theorem val5_keep (V0 : Valuation τ sig (Elt F)) (r : Ref sig .tc) (h : r ∉ opsE_W) :
    val5 V0 (Proc.devRef .tc r) = val4 V0 (Proc.devRef .tc r) :=
  after_of_writes_sub opsE _ opsE_writes h
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_v17 (V0 : Valuation τ sig (Elt F)) :
    val5 V0 (no_index (Proc.devRef .tc main_v17)) = molIds (V0 (Proc.devRef .tc main_arg4)) :=
  (val5_keep V0 main_v17 (by decide)).trans (val4_main_v17 V0)
theorem val5_main_v34 (V0 : Valuation τ sig (Elt F)) :
    val5 V0 (no_index (Proc.devRef .tc main_v34)) = coordsA (V0 (Proc.devRef .tc main_arg3)) (V0 (Proc.devRef .tc main_arg4)) :=
  (val5_keep V0 main_v34 (by decide)).trans (val4_main_v34 V0)
set_option maxRecDepth 16384 in
set_option maxHeartbeats 2000000 in
theorem val5_main_v40 (V0 : Valuation τ sig (Elt F)) :
    val5 V0 (no_index (Proc.devRef .tc main_v40))
      = decayS (coeffs (V0 (Proc.devRef .tc main_arg0)) (V0 (Proc.devRef .tc main_arg5)) (V0 (Proc.devRef .tc main_arg6))) := by
  unfold val5
  simp only [opsE]
  after_results_simp
  all_goals (try simp only [val4_main_arg0, val4_main_arg5, val4_main_arg6])
  all_goals rfl
set_option maxRecDepth 16384 in
set_option maxHeartbeats 2000000 in
theorem val5_main_v41 (V0 : Valuation τ sig (Elt F)) :
    val5 V0 (no_index (Proc.devRef .tc main_v41))
      = ampS (coeffs (V0 (Proc.devRef .tc main_arg0)) (V0 (Proc.devRef .tc main_arg5)) (V0 (Proc.devRef .tc main_arg6))) := by
  unfold val5
  simp only [opsE]
  after_results_simp
  all_goals (try simp only [val4_main_arg0, val4_main_arg5, val4_main_arg6])
  all_goals rfl
set_option maxRecDepth 16384 in
set_option maxHeartbeats 2000000 in
theorem val5_main_v43 (V0 : Valuation τ sig (Elt F)) :
    val5 V0 (no_index (Proc.devRef .tc main_v43))
      = decayP (coeffs (V0 (Proc.devRef .tc main_arg0)) (V0 (Proc.devRef .tc main_arg5)) (V0 (Proc.devRef .tc main_arg6))) := by
  unfold val5
  simp only [opsE]
  after_results_simp
  all_goals (try simp only [val4_main_arg0, val4_main_arg5, val4_main_arg6])
  all_goals rfl
set_option maxRecDepth 16384 in
set_option maxHeartbeats 2000000 in
theorem val5_main_v44 (V0 : Valuation τ sig (Elt F)) :
    val5 V0 (no_index (Proc.devRef .tc main_v44))
      = ampP (coeffs (V0 (Proc.devRef .tc main_arg0)) (V0 (Proc.devRef .tc main_arg5)) (V0 (Proc.devRef .tc main_arg6))) := by
  unfold val5
  simp only [opsE]
  after_results_simp
  all_goals (try simp only [val4_main_arg0, val4_main_arg5, val4_main_arg6])
  all_goals rfl
set_option maxRecDepth 16384 in
set_option maxHeartbeats 2000000 in
theorem val5_main_v45 (V0 : Valuation τ sig (Elt F)) :
    val5 V0 (no_index (Proc.devRef .tc main_v45))
      = dirRaw (coeffs (V0 (Proc.devRef .tc main_arg0)) (V0 (Proc.devRef .tc main_arg5)) (V0 (Proc.devRef .tc main_arg6))) := by
  unfold val5
  simp only [opsE]
  after_results_simp
  all_goals (try simp only [val4_main_arg0, val4_main_arg5, val4_main_arg6])
  all_goals rfl

/-! ### After stretch F: the six-by-three weights, the displacement and the distance -/

/-- The buffer contents after the first six stretches. -/
def val6 (V0 : Valuation τ sig (Elt F)) : Valuation τ sig (Elt F) := after opsF (val5 V0)
/-- A buffer that stretch F does not write keeps its contents through it. -/
theorem val6_keep (V0 : Valuation τ sig (Elt F)) (r : Ref sig .tc) (h : r ∉ opsF_W) :
    val6 V0 (Proc.devRef .tc r) = val5 V0 (Proc.devRef .tc r) :=
  after_of_writes_sub opsF _ opsF_writes h
theorem val6_main_v17 (V0 : Valuation τ sig (Elt F)) :
    val6 V0 (no_index (Proc.devRef .tc main_v17)) = molIds (V0 (Proc.devRef .tc main_arg4)) :=
  (val6_keep V0 main_v17 (by decide)).trans (val5_main_v17 V0)
theorem val6_main_v40 (V0 : Valuation τ sig (Elt F)) :
    val6 V0 (no_index (Proc.devRef .tc main_v40))
      = decayS (coeffs (V0 (Proc.devRef .tc main_arg0)) (V0 (Proc.devRef .tc main_arg5)) (V0 (Proc.devRef .tc main_arg6))) :=
  (val6_keep V0 main_v40 (by decide)).trans (val5_main_v40 V0)
theorem val6_main_v41 (V0 : Valuation τ sig (Elt F)) :
    val6 V0 (no_index (Proc.devRef .tc main_v41))
      = ampS (coeffs (V0 (Proc.devRef .tc main_arg0)) (V0 (Proc.devRef .tc main_arg5)) (V0 (Proc.devRef .tc main_arg6))) :=
  (val6_keep V0 main_v41 (by decide)).trans (val5_main_v41 V0)
theorem val6_main_v43 (V0 : Valuation τ sig (Elt F)) :
    val6 V0 (no_index (Proc.devRef .tc main_v43))
      = decayP (coeffs (V0 (Proc.devRef .tc main_arg0)) (V0 (Proc.devRef .tc main_arg5)) (V0 (Proc.devRef .tc main_arg6))) :=
  (val6_keep V0 main_v43 (by decide)).trans (val5_main_v43 V0)
theorem val6_main_v44 (V0 : Valuation τ sig (Elt F)) :
    val6 V0 (no_index (Proc.devRef .tc main_v44))
      = ampP (coeffs (V0 (Proc.devRef .tc main_arg0)) (V0 (Proc.devRef .tc main_arg5)) (V0 (Proc.devRef .tc main_arg6))) :=
  (val6_keep V0 main_v44 (by decide)).trans (val5_main_v44 V0)
set_option maxRecDepth 16384 in
set_option maxHeartbeats 2000000 in
theorem val6_main_v46 (V0 : Valuation τ sig (Elt F)) :
    val6 V0 (no_index (Proc.devRef .tc main_v46))
      = dirP (coeffs (V0 (Proc.devRef .tc main_arg0)) (V0 (Proc.devRef .tc main_arg5)) (V0 (Proc.devRef .tc main_arg6))) := by
  unfold val6
  simp only [opsF]
  after_results_simp
  all_goals (try simp only [val5_main_v45])
  all_goals rfl
set_option maxRecDepth 16384 in
set_option maxHeartbeats 2000000 in
theorem val6_main_v51 (V0 : Valuation τ sig (Elt F)) :
    val6 V0 (no_index (Proc.devRef .tc main_v51))
      = diff (V0 (Proc.devRef .tc main_arg2)) (coordsA (V0 (Proc.devRef .tc main_arg3)) (V0 (Proc.devRef .tc main_arg4))) := by
  unfold val6
  simp only [opsF]
  after_results_simp
  all_goals (try simp only [val5_main_arg2, val5_main_v34])
  all_goals rfl
set_option maxRecDepth 16384 in
set_option maxHeartbeats 2000000 in
theorem val6_main_v52 (V0 : Valuation τ sig (Elt F)) :
    val6 V0 (no_index (Proc.devRef .tc main_v52))
      = dist (diff (V0 (Proc.devRef .tc main_arg2)) (coordsA (V0 (Proc.devRef .tc main_arg3)) (V0 (Proc.devRef .tc main_arg4)))) := by
  unfold val6
  simp only [opsF]
  after_results_simp
  simp only [val5_main_arg2, val5_main_v34, Cert.TypedRef.ofBuf_toBuf,
    Cert.TypedRef.ofBuf_eq (TRef.of (T := ⟨S2048x2048x3, .f32⟩) main_v51) _ _ HEq.rfl,
    Cert.TypedRef.toBuf_eq main_call8.v2 _ _ HEq.rfl]
  rfl

/-! ### After stretch G: the radial sum by segment -/

/-- The buffer contents after the first seven stretches. -/
def val7 (V0 : Valuation τ sig (Elt F)) : Valuation τ sig (Elt F) := after opsG (val6 V0)
/-- A buffer that stretch G does not write keeps its contents through it. -/
theorem val7_keep (V0 : Valuation τ sig (Elt F)) (r : Ref sig .tc) (h : r ∉ opsG_W) :
    val7 V0 (Proc.devRef .tc r) = val6 V0 (Proc.devRef .tc r) :=
  after_of_writes_sub opsG _ opsG_writes h
theorem val7_main_v17 (V0 : Valuation τ sig (Elt F)) :
    val7 V0 (no_index (Proc.devRef .tc main_v17)) = molIds (V0 (Proc.devRef .tc main_arg4)) :=
  (val7_keep V0 main_v17 (by decide)).trans (val6_main_v17 V0)
theorem val7_main_v43 (V0 : Valuation τ sig (Elt F)) :
    val7 V0 (no_index (Proc.devRef .tc main_v43))
      = decayP (coeffs (V0 (Proc.devRef .tc main_arg0)) (V0 (Proc.devRef .tc main_arg5)) (V0 (Proc.devRef .tc main_arg6))) :=
  (val7_keep V0 main_v43 (by decide)).trans (val6_main_v43 V0)
theorem val7_main_v44 (V0 : Valuation τ sig (Elt F)) :
    val7 V0 (no_index (Proc.devRef .tc main_v44))
      = ampP (coeffs (V0 (Proc.devRef .tc main_arg0)) (V0 (Proc.devRef .tc main_arg5)) (V0 (Proc.devRef .tc main_arg6))) :=
  (val7_keep V0 main_v44 (by decide)).trans (val6_main_v44 V0)
theorem val7_main_v46 (V0 : Valuation τ sig (Elt F)) :
    val7 V0 (no_index (Proc.devRef .tc main_v46))
      = dirP (coeffs (V0 (Proc.devRef .tc main_arg0)) (V0 (Proc.devRef .tc main_arg5)) (V0 (Proc.devRef .tc main_arg6))) :=
  (val7_keep V0 main_v46 (by decide)).trans (val6_main_v46 V0)
theorem val7_main_v51 (V0 : Valuation τ sig (Elt F)) :
    val7 V0 (no_index (Proc.devRef .tc main_v51))
      = diff (V0 (Proc.devRef .tc main_arg2)) (coordsA (V0 (Proc.devRef .tc main_arg3)) (V0 (Proc.devRef .tc main_arg4))) :=
  (val7_keep V0 main_v51 (by decide)).trans (val6_main_v51 V0)
theorem val7_main_v52 (V0 : Valuation τ sig (Elt F)) :
    val7 V0 (no_index (Proc.devRef .tc main_v52))
      = dist (diff (V0 (Proc.devRef .tc main_arg2)) (coordsA (V0 (Proc.devRef .tc main_arg3)) (V0 (Proc.devRef .tc main_arg4)))) :=
  (val7_keep V0 main_v52 (by decide)).trans (val6_main_v52 V0)
set_option maxRecDepth 16384 in
set_option maxHeartbeats 4000000 in
theorem val7_main_v66 (V0 : Valuation τ sig (Elt F)) :
    val7 V0 (no_index (Proc.devRef .tc main_v66))
      = sSeg (molIds (V0 (Proc.devRef .tc main_arg4)))
          (sOut (coeffs (V0 (Proc.devRef .tc main_arg0)) (V0 (Proc.devRef .tc main_arg5)) (V0 (Proc.devRef .tc main_arg6)))
            (dist (diff (V0 (Proc.devRef .tc main_arg2)) (coordsA (V0 (Proc.devRef .tc main_arg3)) (V0 (Proc.devRef .tc main_arg4)))))) := by
  unfold val7
  simp only [opsG]
  after_results_simp
  all_goals (try simp only [val6_main_v17, val6_main_v40, val6_main_v41, val6_main_v52])
  all_goals rfl

/-! ### After stretch H: the result -/

/-- The buffer contents after all eight stretches. -/
def val8 (V0 : Valuation τ sig (Elt F)) : Valuation τ sig (Elt F) := after opsH (val7 V0)
/-- A buffer that stretch H does not write keeps its contents through it. -/
theorem val8_keep (V0 : Valuation τ sig (Elt F)) (r : Ref sig .tc) (h : r ∉ opsH_W) :
    val8 V0 (Proc.devRef .tc r) = val7 V0 (Proc.devRef .tc r) :=
  after_of_writes_sub opsH _ opsH_writes h
set_option maxRecDepth 16384 in
set_option maxHeartbeats 4000000 in
theorem val8_main_v90 (V0 : Valuation τ sig (Elt F)) :
    val8 V0 (no_index (Proc.devRef .tc main_v90))
      = refOut (V0 (Proc.devRef .tc main_arg0)) (V0 (Proc.devRef .tc main_arg2)) (V0 (Proc.devRef .tc main_arg3))
          (V0 (Proc.devRef .tc main_arg4)) (V0 (Proc.devRef .tc main_arg5)) (V0 (Proc.devRef .tc main_arg6)) := by
  unfold val8
  simp only [opsH]
  after_results_simp
  all_goals (try simp only [val7_main_v17, val7_main_v43, val7_main_v44, val7_main_v46, val7_main_v51, val7_main_v52, val7_main_v66])
  all_goals rfl

/-- The whole line's contents are the eighth stretch's. -/
theorem after_ops (V0 : Valuation τ sig (Elt F)) : after ops V0 = val8 V0 := by
  simp only [ops, ops0, ops1, after_append]
  rfl

/-- A buffer that no operation writes keeps its contents to the end. -/
theorem val8_keep_all (V0 : Valuation τ sig (Elt F)) (r : Ref sig .tc) (hA : r ∉ opsA_W) (hB : r ∉ opsB_W) (hC : r ∉ opsC_W)
    (hD : r ∉ opsD_W) (hE : r ∉ opsE_W) (hF : r ∉ opsF_W) (hG : r ∉ opsG_W) (hH : r ∉ opsH_W) :
    val8 V0 (Proc.devRef .tc r) = V0 (Proc.devRef .tc r) :=
  (val8_keep V0 r hH).trans <| (val7_keep V0 r hG).trans <| (val6_keep V0 r hF).trans <| (val5_keep V0 r hE).trans <|
    (val4_keep V0 r hD).trans <| (val3_keep V0 r hC).trans <| (val2_keep V0 r hB).trans (val1_keep V0 r hA)

end Values

/-! ## The run -/

set_option maxRecDepth 16384 in
/-- On every device, for any float values, from any memory with zero counters: every weakly fair execution of @main
    terminates with the result array at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v90)
        = refOut (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_v90).trans (by simp only [after_ops]; exact val8_main_v90 (launchContents m c)),
      (h c main_arg0).trans (by simp only [after_ops]; exact val8_keep_all (launchContents m c) main_arg0 (by decide) (by decide) (by decide) (by decide) (by decide) (by decide) (by decide) (by decide)),
      (h c main_arg1).trans (by simp only [after_ops]; exact val8_keep_all (launchContents m c) main_arg1 (by decide) (by decide) (by decide) (by decide) (by decide) (by decide) (by decide) (by decide)),
      (h c main_arg2).trans (by simp only [after_ops]; exact val8_keep_all (launchContents m c) main_arg2 (by decide) (by decide) (by decide) (by decide) (by decide) (by decide) (by decide) (by decide)),
      (h c main_arg3).trans (by simp only [after_ops]; exact val8_keep_all (launchContents m c) main_arg3 (by decide) (by decide) (by decide) (by decide) (by decide) (by decide) (by decide) (by decide)),
      (h c main_arg4).trans (by simp only [after_ops]; exact val8_keep_all (launchContents m c) main_arg4 (by decide) (by decide) (by decide) (by decide) (by decide) (by decide) (by decide) (by decide)),
      (h c main_arg5).trans (by simp only [after_ops]; exact val8_keep_all (launchContents m c) main_arg5 (by decide) (by decide) (by decide) (by decide) (by decide) (by decide) (by decide) (by decide)),
      (h c main_arg6).trans (by simp only [after_ops]; exact val8_keep_all (launchContents m c) main_arg6 (by decide) (by decide) (by decide) (by decide) (by decide) (by decide) (by decide) (by decide))⟩)
    (run_seq scopedRefs_eq scopedSems_eq defs main (fun _ => ops) main_eq (fun _ => ops_sub) m ρ)

/-- The reference runs and leaves its arguments unchanged. -/
theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.LibSegmentSum.lean ====
/-
  A segment sum read at an index.

  An array `upd` of `R` rows and `C` columns is added, row by row, into an array `x` of `M` rows: row `i` goes to
  the row its index `idx i` names (an integer read signed; a row whose index is not in `[0, M)` is dropped).  At the
  exact instance the result at `(m, j)` is `x (m, j)` plus the sum, over the rows `i` whose index is `m`, of
  `upd (i, j)`.  The dimension numbers are those of a scatter along axis 0 with whole rows as windows.
-/
import Idealize.ShloMosaic.PureOps.Ideal
import Idealize.ShloMosaic.Lib.ValueIdx

noncomputable section

open scoped BigOperators

namespace Cert.SegmentSum

open Idealize.ShloMosaic Idealize.ShloMosaic.ValueIdx

/-- The operand: `M` rows of `C` columns. -/
abbrev SO (M C : ℕ) : Shape := ⟨2, ![M, C]⟩
/-- The scatter indices: one index per row of the updates. -/
abbrev SI (R : ℕ) : Shape := ⟨2, ![R, 1]⟩
/-- The updates: `R` rows of `C` columns. -/
abbrev SU (R C : ℕ) : Shape := ⟨2, ![R, C]⟩

variable (M R C : ℕ) (wf : ScatterDims.WF (SO M C) (SI R) (SU R C) [1] [0] [0] 1)

/-- The dimension numbers of a row scatter: the updates' axis 1 is the window, the operand's axis 0 is indexed. -/
abbrev dRow : ScatterDims (SO M C) (SI R) (SU R C) :=
  { updateWindowDims := [1], insertedWindowDims := [0], scatterDimsToOperandDims := [0], indexVectorDim := 1, wf := wf }

/-- The indexed axis carries no window coordinate. -/
theorem window0 (j : (SU R C).Idx) : (dRow M R C wf).window j 0 = 0 := by
  simp [ScatterDims.window, ScatterDims.sKept, Shape.kept]

/-- The window coordinate on the column axis is the update's column. -/
theorem window1 (j : (SU R C).Idx) : (dRow M R C wf).window j 1 = (j 1).val := by
  simp [ScatterDims.window, ScatterDims.sKept, Shape.kept]
  rfl

/-- The column axis is not indexed: its start is zero. -/
theorem start1 {w : Nat} (j : (SU R C).Idx) (idx : IVec (SI R) w) : (dRow M R C wf).start j idx 1 = 0 := by
  simp [ScatterDims.start]

/-- The start on the row axis is the signed index of the update's row. -/
theorem start0 {w : Nat} (j : (SU R C).Idx) (idx : IVec (SI R) w) : (dRow M R C wf).start j idx 0 = (idx (ix2 (j 0) 0)).toInt := by
  have e : (dRow M R C wf).siIdx j 0 = ix2 (j 0) 0 := by
    funext b
    match b with
    | ⟨0, _⟩ => apply Fin.ext; simp [ScatterDims.siIdx, ScatterDims.siCoord, ScatterDims.uScatter, ScatterDims.siKept, Shape.kept]; rfl
    | ⟨1, _⟩ => apply Fin.ext; simp [ScatterDims.siIdx]
  simp [ScatterDims.start, e]

/-- Update `(i, k)` lands on `(m, j)` exactly when row `i`'s index is `m` and the columns agree. -/
theorem resultIdx_row {w : Nat} (idx : IVec (SI R) w) (i : Fin R) (k : Fin C) (m : Fin M) (j : Fin C) :
    (dRow M R C wf).resultIdx? (ix2 i k) idx = some (ix2 m j) ↔ ((idx (ix2 i 0)).toInt = (m.val : ℤ) ∧ k = j) := by
  have hs0 : (dRow M R C wf).start (ix2 i k) idx 0 = (idx (ix2 i 0)).toInt := start0 M R C wf (ix2 i k) idx
  have hs1 := start1 M R C wf (ix2 i k) idx
  have hw0 := window0 M R C wf (ix2 i k)
  have hw1 : (dRow M R C wf).window (ix2 i k) 1 = k.val := window1 M R C wf (ix2 i k)
  have hm := m.isLt
  have hk := k.isLt
  have hz0 : (SO M C).size 0 = M := rfl
  have hz1 : (SO M C).size 1 = C := rfl
  unfold ScatterDims.resultIdx?
  split
  · rename_i h
    have h0 := h 0
    have h1 := h 1
    rw [hs0, hw0, hz0] at h0
    rw [hs1, hw1, hz1] at h1
    constructor
    · intro e
      have e' := Option.some.inj e
      have e0 : ((dRow M R C wf).start (ix2 i k) idx 0 + ((dRow M R C wf).window (ix2 i k) 0 : ℕ)).toNat = m.val :=
        congrArg (fun f : (SO M C).Idx => (f 0).val) e'
      have e1 : ((dRow M R C wf).start (ix2 i k) idx 1 + ((dRow M R C wf).window (ix2 i k) 1 : ℕ)).toNat = j.val :=
        congrArg (fun f : (SO M C).Idx => (f 1).val) e'
      rw [hs0, hw0] at e0
      rw [hs1, hw1] at e1
      exact ⟨by omega, Fin.ext (by omega)⟩
    · rintro ⟨ht, rfl⟩
      congr 1
      funext a
      match a with
      | ⟨0, _⟩ => apply Fin.ext; show ((dRow M R C wf).start (ix2 i k) idx 0 + ((dRow M R C wf).window (ix2 i k) 0 : ℕ)).toNat = m.val; rw [hs0, hw0]; omega
      | ⟨1, _⟩ => apply Fin.ext; show ((dRow M R C wf).start (ix2 i k) idx 1 + ((dRow M R C wf).window (ix2 i k) 1 : ℕ)).toNat = k.val; rw [hs1, hw1]; omega
  · rename_i h
    constructor
    · intro e; cases e
    · rintro ⟨ht, rfl⟩
      exfalso; apply h
      refine Fin.forall_fin_two.2 ⟨?_, ?_⟩
      · rw [hs0, hw0, hz0]; omega
      · rw [hs1, hw1, hz1]; omega

/-- The accumulating scatter of the rows of `upd` into the rows their indices name, read at `(m, j)`: the operand's
    entry plus the entries at column `j` of the rows whose index is `m`. -/
theorem scatterAdd_rows_apply {w : Nat} (x : FVec Ideal (SO M C) .f32) (idx : IVec (SI R) w) (upd : FVec Ideal (SU R C) .f32)
    (m : Fin M) (j : Fin C) :
    Host.scatterAdd (dRow M R C wf) x idx upd (ix2 m j)
      = x (ix2 m j) + ∑ i ∈ Finset.univ.filter (fun i : Fin R => (idx (ix2 i 0)).toInt = (m.val : ℤ)), upd (ix2 i j) := by
  show Ideal.hostScatterAdd (dRow M R C wf) x idx upd (ix2 m j) = _
  unfold Ideal.hostScatterAdd
  congr 1
  rw [Finset.sum_filter, sum_idx2, Finset.sum_filter]
  refine Finset.sum_congr rfl fun i _ => ?_
  by_cases hi : (idx (ix2 i 0)).toInt = (m.val : ℤ)
  · rw [if_pos hi]
    rw [Finset.sum_eq_single j]
    · rw [if_pos ((resultIdx_row M R C wf idx i j m j).2 ⟨hi, rfl⟩)]
    · intro k _ hk
      rw [if_neg (fun e => hk ((resultIdx_row M R C wf idx i k m j).1 e).2)]
    · intro h; exact absurd (Finset.mem_univ _) h
  · rw [if_neg hi]
    exact Finset.sum_eq_zero fun k _ => if_neg (fun e => hi ((resultIdx_row M R C wf idx i k m j).1 e).1)

end Cert.SegmentSum

end
-- ==== Proof.RefRead.lean ====
/-
  The array program of the reference, read one entry at a time.

  Each lemma takes a group of its operations — broadcasts to a common shape, a pointwise operation, a sum along
  one axis — applied to arbitrary arrays of the right shapes, and says what the result holds at one index, as an
  expression in the entries of those arrays.  Values are extended reals; sums along an axis start from zero.
-/
import proofs.«130563_j43465069035926_2_alg».proof.Proof.Gen.ReferenceIdeal
import proofs.«130563_j43465069035926_2_alg».proof.Proof.Spec
import proofs.«130563_j43465069035926_2_alg».proof.Proof.LibDenseRow
import proofs.«130563_j43465069035926_2_alg».proof.Proof.LibSegmentSum
import Idealize.ShloMosaic.Lib.ValueIdx
import Idealize.ShloMosaic.Lib.Pipeline.Value
import Idealize.ShloMosaic.PureOps.Ideal.Laws

noncomputable section

open scoped BigOperators

namespace Cert.ReferenceIdeal.RefRead

open Idealize.ShloMosaic Idealize.ShloMosaic.ValueIdx Cert.ReferenceIdeal Cert.ReferenceIdeal.Facts₀ Cert.ReferenceIdeal.Facts

variable [Cert.ReferenceIdeal.Facts]

/-- The displacement array `[atom, column, axis]`: the atom's position minus the column's centre. -/
theorem diff_apply (R CA : FVec Ideal S2048x3 .f32) (i j : Fin 2048) (k : Fin 3) :
    subf (broadcastInDim S2048x2048x3 ![0, 1, 2] bcast_S2048x1x3_S2048x2048x3_0_1_2
            (broadcastInDim S2048x1x3 ![0, 2] bcast_S2048x3_S2048x1x3_0_2 R))
         (broadcastInDim S2048x2048x3 ![0, 1, 2] bcast_S1x2048x3_S2048x2048x3_0_1_2
            (broadcastInDim S1x2048x3 ![1, 2] bcast_S2048x3_S1x2048x3_1_2 CA)) (ix3 i j k)
      = R (ix2 i k) - CA (ix2 j k) := by
  rw [subf_apply]
  rw [broadcastInDim_apply _ _ _ (ix3 i j k) (ix3 i (0 : Fin 1) k) (by intro a; match a with | ⟨0, _⟩ => rfl | ⟨1, _⟩ => rfl | ⟨2, _⟩ => rfl)]
  rw [broadcastInDim_apply _ _ R (ix3 i (0 : Fin 1) k) (ix2 i k) (by intro a; match a with | ⟨0, _⟩ => rfl | ⟨1, _⟩ => rfl)]
  rw [broadcastInDim_apply _ _ _ (ix3 i j k) (ix3 (0 : Fin 1) j k) (by intro a; match a with | ⟨0, _⟩ => rfl | ⟨1, _⟩ => rfl | ⟨2, _⟩ => rfl)]
  rw [broadcastInDim_apply _ _ CA (ix3 (0 : Fin 1) j k) (ix2 j k) (by intro a; match a with | ⟨0, _⟩ => rfl | ⟨1, _⟩ => rfl)]

/-- The length of each displacement: the root of the sum of its three squares, the sum started from zero. -/
theorem norm_apply (D : FVec Ideal S2048x2048x3 .f32) (i j : Fin 2048) :
    Host.sqrt (Host.reduceAdd (mulf D D) (constant (F := Ideal) S_ .f32 0x00000000#32) reducesTo_S2048x2048x3_S2048x2048_d2 h_S_) (ix2 i j)
      = Ideal.sqrt (0 + ∑ k : Fin 3, D (ix3 i j k) * D (ix3 i j k)) := by
  have hR : Shape.Reduces S2048x2048x3 [2] S2048x2048 := by decide
  have e : ∀ k : Fin 3, hR.lift (ix2 i j) k = ix3 i j k := fun k => funext fun a =>
    match a with | ⟨0, _⟩ => Fin.ext rfl | ⟨1, _⟩ => Fin.ext rfl | ⟨2, _⟩ => Fin.ext rfl
  show Ideal.sqrt (Ideal.hostReduceAdd reducesTo_S2048x2048x3_S2048x2048_d2 (mulf D D) (Ideal.ofBits .f32 0x00000000#32) (ix2 i j)) = _
  rw [Ideal.hostReduceAdd_single reducesTo_S2048x2048x3_S2048x2048_d2 hR, Ideal.ofBits_zero_f32]
  refine congrArg (fun z => Ideal.sqrt (0 + z)) (Finset.sum_congr rfl fun (k : Fin 3) _ => ?_)
  show D (hR.lift (ix2 i j) k) * D (hR.lift (ix2 i j) k) = _
  rw [e k]

/-! ## The host's one-operand operations at an index -/

theorem hexp_apply {s : Shape} (x : FVec Ideal s .f32) (i : s.Idx) : Host.exp x i = Ideal.exp (x i) := rfl
theorem hneg_apply {s : Shape} (x : FVec Ideal s .f32) (i : s.Idx) : Host.negf x i = -(x i) := rfl
theorem habs_apply {s : Shape} (x : FVec Ideal s .f32) (i : s.Idx) : Host.absf x i = Cert.Spec.eabs (x i) := rfl
theorem hsqrt_apply {s : Shape} (x : FVec Ideal s .f32) (i : s.Idx) : Host.sqrt x i = Ideal.sqrt (x i) := rfl

/-- Coordinate facts of a rank-2 / rank-3 / rank-4 index decided axis by axis. -/
macro "idx2" : tactic => `(tactic| (intro a; match a with | ⟨0, _⟩ => rfl | ⟨1, _⟩ => rfl))
macro "idx3" : tactic => `(tactic| (intro a; match a with | ⟨0, _⟩ => rfl | ⟨1, _⟩ => rfl | ⟨2, _⟩ => rfl))
macro "idx4" : tactic => `(tactic| (intro a; match a with | ⟨0, _⟩ => rfl | ⟨1, _⟩ => rfl | ⟨2, _⟩ => rfl | ⟨3, _⟩ => rfl))

/-- The radial sum: for atom `i` and column `j`, the eight amplitudes times the exponential of minus the rate times the
    distance, added up from zero. -/
theorem sOut_apply (c8 a8 : FVec Ideal S2048x8 .f32) (dist : FVec Ideal S2048x2048 .f32) (i j : Fin 2048) :
    Host.reduceAdd
      (mulf (broadcastInDim S2048x8x2048 ![0, 1, 2] bcast_S2048x8x1_S2048x8x2048_0_1_2
              (broadcastInDim S2048x8x1 ![0, 1] bcast_S2048x8_S2048x8x1_0_1 c8))
            (Host.exp (mulf
              (broadcastInDim S2048x8x2048 ![0, 1, 2] bcast_S2048x8x1_S2048x8x2048_0_1_2
                (Host.negf (broadcastInDim S2048x8x1 ![0, 1] bcast_S2048x8_S2048x8x1_0_1 a8)))
              (broadcastInDim S2048x8x2048 ![0, 1, 2] bcast_S2048x1x2048_S2048x8x2048_0_1_2
                (broadcastInDim S2048x1x2048 ![0, 2] bcast_S2048x2048_S2048x1x2048_0_2 dist)))))
      (constant (F := Ideal) S_ .f32 0x00000000#32) reducesTo_S2048x8x2048_S2048x2048_d1 h_S_ (ix2 i j)
    = 0 + ∑ s : Fin 8, c8 (ix2 i s) * Ideal.exp (-(a8 (ix2 i s)) * dist (ix2 i j)) := by
  have hR : Shape.Reduces S2048x8x2048 [1] S2048x2048 := by decide
  have e : ∀ s : Fin 8, hR.lift (ix2 i j) s = ix3 i s j := fun s => funext fun a =>
    match a with | ⟨0, _⟩ => Fin.ext rfl | ⟨1, _⟩ => Fin.ext rfl | ⟨2, _⟩ => Fin.ext rfl
  show Ideal.hostReduceAdd reducesTo_S2048x8x2048_S2048x2048_d1 _ (Ideal.ofBits .f32 0x00000000#32) (ix2 i j) = _
  rw [Ideal.hostReduceAdd_single reducesTo_S2048x8x2048_S2048x2048_d1 hR, Ideal.ofBits_zero_f32]
  refine congrArg (fun z => (0 : EReal) + z) (Finset.sum_congr rfl fun (s : Fin 8) _ => ?_)
  rw [e s, mulf_apply, hexp_apply, mulf_apply]
  rw [broadcastInDim_apply _ bcast_S2048x8x1_S2048x8x2048_0_1_2 (broadcastInDim S2048x8x1 ![0, 1] bcast_S2048x8_S2048x8x1_0_1 c8) (ix3 i s j) (ix3 i s (0 : Fin 1)) (by idx3)]
  rw [broadcastInDim_apply _ bcast_S2048x8_S2048x8x1_0_1 c8 (ix3 i s (0 : Fin 1)) (ix2 i s) (by idx2)]
  rw [broadcastInDim_apply _ bcast_S2048x8x1_S2048x8x2048_0_1_2 (Host.negf (broadcastInDim S2048x8x1 ![0, 1] bcast_S2048x8_S2048x8x1_0_1 a8)) (ix3 i s j) (ix3 i s (0 : Fin 1)) (by idx3)]
  rw [hneg_apply, broadcastInDim_apply _ bcast_S2048x8_S2048x8x1_0_1 a8 (ix3 i s (0 : Fin 1)) (ix2 i s) (by idx2)]
  rw [broadcastInDim_apply _ bcast_S2048x1x2048_S2048x8x2048_0_1_2 _ (ix3 i s j) (ix3 i (0 : Fin 1) j) (by idx3)]
  rw [broadcastInDim_apply _ bcast_S2048x2048_S2048x1x2048_0_2 dist (ix3 i (0 : Fin 1) j) (ix2 i j) (by idx2)]

/-- The directed sum: for atom `i` and column `j`, six Gaussians in the squared distance, each times the weighted sum
    of the displacement's three absolute components (that inner sum started from zero too). -/
theorem pOut_apply (c6 a6 : FVec Ideal S2048x6 .f32) (v : FVec Ideal S2048x6x3 .f32) (dist : FVec Ideal S2048x2048 .f32)
    (D : FVec Ideal S2048x2048x3 .f32) (i j : Fin 2048) :
    Host.reduceAdd
      (mulf
        (mulf (broadcastInDim S2048x6x2048 ![0, 1, 2] bcast_S2048x6x1_S2048x6x2048_0_1_2
                (broadcastInDim S2048x6x1 ![0, 1] bcast_S2048x6_S2048x6x1_0_1 c6))
              (Host.exp (mulf
                (broadcastInDim S2048x6x2048 ![0, 1, 2] bcast_S2048x6x1_S2048x6x2048_0_1_2
                  (Host.negf (broadcastInDim S2048x6x1 ![0, 1] bcast_S2048x6_S2048x6x1_0_1 a6)))
                (broadcastInDim S2048x6x2048 ![0, 1, 2] bcast_S2048x1x2048_S2048x6x2048_0_1_2
                  (broadcastInDim S2048x1x2048 ![0, 2] bcast_S2048x2048_S2048x1x2048_0_2 (mulf dist dist))))))
        (Host.reduceAdd
          (mulf (broadcastInDim S2048x6x2048x3 ![0, 1, 2, 3] bcast_S2048x6x1x3_S2048x6x2048x3_0_1_2_3
                  (broadcastInDim S2048x6x1x3 ![0, 1, 3] bcast_S2048x6x3_S2048x6x1x3_0_1_3 v))
                (broadcastInDim S2048x6x2048x3 ![0, 1, 2, 3] bcast_S2048x1x2048x3_S2048x6x2048x3_0_1_2_3
                  (broadcastInDim S2048x1x2048x3 ![0, 2, 3] bcast_S2048x2048x3_S2048x1x2048x3_0_2_3 (Host.absf D))))
          (constant (F := Ideal) S_ .f32 0x00000000#32) reducesTo_S2048x6x2048x3_S2048x6x2048_d3 h_S_))
      (constant (F := Ideal) S_ .f32 0x00000000#32) reducesTo_S2048x6x2048_S2048x2048_d1 h_S_ (ix2 i j)
    = 0 + ∑ p : Fin 6, (c6 (ix2 i p) * Ideal.exp (-(a6 (ix2 i p)) * (dist (ix2 i j) * dist (ix2 i j))))
          * (0 + ∑ k : Fin 3, v (ix3 i p k) * Cert.Spec.eabs (D (ix3 i j k))) := by
  have hR : Shape.Reduces S2048x6x2048 [1] S2048x2048 := by decide
  have e : ∀ p : Fin 6, hR.lift (ix2 i j) p = ix3 i p j := fun p => funext fun a =>
    match a with | ⟨0, _⟩ => Fin.ext rfl | ⟨1, _⟩ => Fin.ext rfl | ⟨2, _⟩ => Fin.ext rfl
  have hR' : Shape.Reduces S2048x6x2048x3 [3] S2048x6x2048 := by decide
  have e' : ∀ (p : Fin 6) (k : Fin 3), hR'.lift (ix3 i p j) k = ix4 i p j k := fun p k => funext fun a =>
    match a with | ⟨0, _⟩ => Fin.ext rfl | ⟨1, _⟩ => Fin.ext rfl | ⟨2, _⟩ => Fin.ext rfl | ⟨3, _⟩ => Fin.ext rfl
  show Ideal.hostReduceAdd reducesTo_S2048x6x2048_S2048x2048_d1 _ (Ideal.ofBits .f32 0x00000000#32) (ix2 i j) = _
  rw [Ideal.hostReduceAdd_single reducesTo_S2048x6x2048_S2048x2048_d1 hR, Ideal.ofBits_zero_f32]
  refine congrArg (fun z => (0 : EReal) + z) (Finset.sum_congr rfl fun (p : Fin 6) _ => ?_)
  rw [e p, mulf_apply, mulf_apply, hexp_apply, mulf_apply]
  rw [broadcastInDim_apply _ bcast_S2048x6x1_S2048x6x2048_0_1_2 (broadcastInDim S2048x6x1 ![0, 1] bcast_S2048x6_S2048x6x1_0_1 c6) (ix3 i p j) (ix3 i p (0 : Fin 1)) (by idx3)]
  rw [broadcastInDim_apply _ bcast_S2048x6_S2048x6x1_0_1 c6 (ix3 i p (0 : Fin 1)) (ix2 i p) (by idx2)]
  rw [broadcastInDim_apply _ bcast_S2048x6x1_S2048x6x2048_0_1_2 (Host.negf (broadcastInDim S2048x6x1 ![0, 1] bcast_S2048x6_S2048x6x1_0_1 a6)) (ix3 i p j) (ix3 i p (0 : Fin 1)) (by idx3)]
  rw [hneg_apply, broadcastInDim_apply _ bcast_S2048x6_S2048x6x1_0_1 a6 (ix3 i p (0 : Fin 1)) (ix2 i p) (by idx2)]
  rw [broadcastInDim_apply _ bcast_S2048x1x2048_S2048x6x2048_0_1_2 _ (ix3 i p j) (ix3 i (0 : Fin 1) j) (by idx3)]
  rw [broadcastInDim_apply _ bcast_S2048x2048_S2048x1x2048_0_2 (mulf dist dist) (ix3 i (0 : Fin 1) j) (ix2 i j) (by idx2), mulf_apply]
  refine congrArg (fun z : EReal => (c6 (ix2 i p) * Ideal.exp (-(a6 (ix2 i p)) * (dist (ix2 i j) * dist (ix2 i j)))) * z) ?_
  show Ideal.hostReduceAdd reducesTo_S2048x6x2048x3_S2048x6x2048_d3 _ (Ideal.ofBits .f32 0x00000000#32) (ix3 i p j) = _
  rw [Ideal.hostReduceAdd_single reducesTo_S2048x6x2048x3_S2048x6x2048_d3 hR', Ideal.ofBits_zero_f32]
  refine congrArg (fun z => (0 : EReal) + z) (Finset.sum_congr rfl fun (k : Fin 3) _ => ?_)
  rw [e' p k, mulf_apply]
  rw [broadcastInDim_apply _ bcast_S2048x6x1x3_S2048x6x2048x3_0_1_2_3 _ (ix4 i p j k) (ix4 i p (0 : Fin 1) k) (by idx4)]
  rw [broadcastInDim_apply _ bcast_S2048x6x3_S2048x6x1x3_0_1_3 v (ix4 i p (0 : Fin 1) k) (ix3 i p k) (by idx3)]
  rw [broadcastInDim_apply _ bcast_S2048x1x2048x3_S2048x6x2048x3_0_1_2_3 _ (ix4 i p j k) (ix4 i (0 : Fin 1) j k) (by idx4)]
  rw [broadcastInDim_apply _ bcast_S2048x2048x3_S2048x1x2048x3_0_2_3 (Host.absf D) (ix4 i (0 : Fin 1) j k) (ix3 i j k) (by idx3), habs_apply]

/-! ## The coefficient columns -/

/-- Columns `0 … 7`. -/
theorem cols0_apply (Cf : FVec Ideal S2048x46 .f32) (i : Fin 2048) (s : Fin 8) :
    extractStridedSlice S2048x8 ![0, 0] Cf slices_S2048x46_S2048x8_0_0 (ix2 i s) = Cf (ix2 i ⟨s.val, by omega⟩) :=
  extractStridedSlice_apply _ Cf _ (ix2 i s) (ix2 i ⟨s.val, by omega⟩)
    (by intro a; match a with | ⟨0, _⟩ => exact (Nat.zero_add _).symm | ⟨1, _⟩ => exact (Nat.zero_add _).symm)

/-- Columns `8 … 15`. -/
theorem cols8_apply (Cf : FVec Ideal S2048x46 .f32) (i : Fin 2048) (s : Fin 8) :
    extractStridedSlice S2048x8 ![0, 8] Cf slices_S2048x46_S2048x8_0_8 (ix2 i s) = Cf (ix2 i ⟨8 + s.val, by omega⟩) :=
  extractStridedSlice_apply _ Cf _ (ix2 i s) (ix2 i ⟨8 + s.val, by omega⟩)
    (by intro a; match a with | ⟨0, _⟩ => exact (Nat.zero_add _).symm | ⟨1, _⟩ => rfl)

/-- Columns `16 … 21`. -/
theorem cols16_apply (Cf : FVec Ideal S2048x46 .f32) (i : Fin 2048) (p : Fin 6) :
    extractStridedSlice S2048x6 ![0, 16] Cf slices_S2048x46_S2048x6_0_16 (ix2 i p) = Cf (ix2 i ⟨16 + p.val, by omega⟩) :=
  extractStridedSlice_apply _ Cf _ (ix2 i p) (ix2 i ⟨16 + p.val, by omega⟩)
    (by intro a; match a with | ⟨0, _⟩ => exact (Nat.zero_add _).symm | ⟨1, _⟩ => rfl)

/-- Columns `22 … 27`. -/
theorem cols22_apply (Cf : FVec Ideal S2048x46 .f32) (i : Fin 2048) (p : Fin 6) :
    extractStridedSlice S2048x6 ![0, 22] Cf slices_S2048x46_S2048x6_0_22 (ix2 i p) = Cf (ix2 i ⟨22 + p.val, by omega⟩) :=
  extractStridedSlice_apply _ Cf _ (ix2 i p) (ix2 i ⟨22 + p.val, by omega⟩)
    (by intro a; match a with | ⟨0, _⟩ => exact (Nat.zero_add _).symm | ⟨1, _⟩ => rfl)

/-- Columns `28 … 45` regrouped as six triples: entry `(p, k)` is column `28 + 3p + k`. -/
theorem cols28_apply (Cf : FVec Ideal S2048x46 .f32) (i : Fin 2048) (p : Fin 6) (k : Fin 3) :
    shapeCast S2048x6x3 (extractStridedSlice S2048x18 ![0, 28] Cf slices_S2048x46_S2048x18_0_28) shapeCasts_S2048x18_S2048x6x3 (ix3 i p k)
      = Cf (ix2 i ⟨28 + 3 * p.val + k.val, by omega⟩) := by
  rw [shapeCast_apply _ shapeCasts_S2048x18_S2048x6x3 (ix3 i p k) (ix2 i (⟨3 * p.val + k.val, by omega⟩ : Fin 18))
    (by rw [Shape.rowMajor_val_two, Shape.rowMajor_val_three]; show i.val * 18 + (3 * p.val + k.val) = (i.val * 6 + p.val) * 3 + k.val; omega)]
  exact extractStridedSlice_apply _ Cf _ (ix2 i (⟨3 * p.val + k.val, by omega⟩ : Fin 18)) (ix2 i ⟨28 + 3 * p.val + k.val, by omega⟩)
    (by intro a; match a with | ⟨0, _⟩ => exact (Nat.zero_add _).symm | ⟨1, _⟩ => exact Nat.add_assoc _ _ _)

end Cert.ReferenceIdeal.RefRead

end
-- ==== Proof.RefValue.lean ====
/-
  The reference's result read one entry at a time, over ANY vector of segment ids and ANY array of per-column centres.

  Entry `(m, j)` is the sum, over the atoms `i` whose id is `m`, of what atom `i` contributes against the centre that
  column `j` carries: the radial and the directed parts are added up by segment separately in the program, and
  together here.
-/
import proofs.«130563_j43465069035926_2_alg».proof.Proof.RefStages
import proofs.«130563_j43465069035926_2_alg».proof.Proof.RefRead
import proofs.«130563_j43465069035926_2_alg».proof.Proof.Bridge

noncomputable section

open scoped BigOperators

namespace Cert.ReferenceIdeal.RefValue

open Idealize.ShloMosaic Idealize.ShloMosaic.ValueIdx
open Cert.ReferenceIdeal Cert.ReferenceIdeal.Facts₀ Cert.ReferenceIdeal.Facts
open Cert.ReferenceIdeal.RefRun Cert.ReferenceIdeal.RefRead Cert.Bridge Cert.Spec

/-- The program's row scatter satisfies the side conditions of a scatter along axis 0 with whole rows as windows. -/
private theorem rowScatter_wf :
    ScatterDims.WF (Cert.SegmentSum.SO 64 2048) (Cert.SegmentSum.SI 2048) (Cert.SegmentSum.SU 2048 2048) [1] [0] [0] 1 :=
  scatter_S64x2048_S2048x1_S2048x2048_1_0_0_1_wf

/-- The program's row scatter is the row scatter of the general lemma. -/
private theorem rowScatter_eq :
    scatter_S64x2048_S2048x1_S2048x2048_1_0_0_1 = Cert.SegmentSum.dRow 64 2048 2048 rowScatter_wf := rfl

/-- The rows of `x` added up by segment, at `(m, j)`: zero plus the entries at column `j` of the rows whose id is `m`. -/
theorem segSum_apply (ids : IVec S2048 32) (x : FVec Ideal S2048x2048 .f32) (m : Fin 64) (j : Fin 2048) :
    segSum (F := Ideal) ids x (ix2 m j)
      = 0 + ∑ i ∈ Finset.univ.filter (fun i : Fin 2048 => (ids (ix1 i)).toInt = (m.val : ℤ)), x (ix2 i j) := by
  unfold segSum
  rw [rowScatter_eq, Cert.SegmentSum.scatterAdd_rows_apply 64 2048 2048 rowScatter_wf]
  refine congrArg₂ (· + ·) ?_ (Finset.sum_congr (Finset.filter_congr fun i _ => ?_) fun _ _ => rfl)
  · rw [broadcastInDim_apply _ bcast_S_S64x2048 _ (ix2 m j) ix0 (by intro a; exact a.elim0)]
    exact Ideal.ofBits_zero_f32
  · rw [broadcastInDim_apply _ bcast_S2048_S2048x1_0 ids (ix2 i (0 : Fin 1)) (ix1 i) (by intro a; match a with | ⟨0, _⟩ => rfl)]

private theorem dotR_rank : dot_S2048x128_S128x46_S2048x46_1_0_0_1_n_n.contr.rank = 1 := rfl
private theorem dotR_size :
    dot_S2048x128_S128x46_S2048x46_1_0_0_1_n_n.contr.size ⟨0, by rw [dotR_rank]; exact Nat.one_pos⟩ = 128 := rfl

private theorem dotR_lhs (p : Fin 2048) (c : Fin 46) (k : Fin 128) :
    dot_S2048x128_S128x46_S2048x46_1_0_0_1_n_n.lhsIdx (ix2 p c)
      ((contrEquiv1 dot_S2048x128_S128x46_S2048x46_1_0_0_1_n_n 128 dotR_rank dotR_size).symm k) = ix2 p k := by
  have c2 := contrEquiv1_symm_val dot_S2048x128_S128x46_S2048x46_1_0_0_1_n_n 128 dotR_rank dotR_size k
  funext ax; apply Fin.ext
  match ax with
  | ⟨0, _⟩ => simp [DotDims.lhsIdx, dot_S2048x128_S128x46_S2048x46_1_0_0_1_n_n]; rfl
  | ⟨1, _⟩ => simp [DotDims.lhsIdx, dot_S2048x128_S128x46_S2048x46_1_0_0_1_n_n]; exact c2

private theorem dotR_rhs (p : Fin 2048) (c : Fin 46) (k : Fin 128) :
    dot_S2048x128_S128x46_S2048x46_1_0_0_1_n_n.rhsIdx (ix2 p c)
      ((contrEquiv1 dot_S2048x128_S128x46_S2048x46_1_0_0_1_n_n 128 dotR_rank dotR_size).symm k) = ix2 k c := by
  have c2 := contrEquiv1_symm_val dot_S2048x128_S128x46_S2048x46_1_0_0_1_n_n 128 dotR_rank dotR_size k
  funext ax; apply Fin.ext
  match ax with
  | ⟨0, _⟩ => simp [DotDims.rhsIdx, dot_S2048x128_S128x46_S2048x46_1_0_0_1_n_n]; exact c2
  | ⟨1, _⟩ => simp [DotDims.rhsIdx, dot_S2048x128_S128x46_S2048x46_1_0_0_1_n_n]; rfl

/-- The coefficient array at `(i, c)`: coefficient `c` of atom `i`'s feature row. -/
theorem coeffs_apply (a0 : FVec Ideal S2048x128 .f32) (a5 : FVec Ideal S128x46 .f32) (a6 : FVec Ideal S46 .f32)
    (i : Fin 2048) (c : Fin 46) :
    coeffs (F := Ideal) a0 a5 a6 (ix2 i c) = coef (fun k => a0 (ix2 i k)) a5 a6 c := by
  unfold coeffs
  exact Cert.DenseRow.hlayer_apply dot_S2048x128_S128x46_S2048x46_1_0_0_1_n_n dotR_rank dotR_size dotR_lhs dotR_rhs none
    a0 a5 a6 bcast_S46_S1x46_1 bcast_S1x46_S2048x46_0_1 i c

section Pair
variable (a0 : FVec Ideal S2048x128 .f32) (a2 : FVec Ideal S2048x3 .f32) (a5 : FVec Ideal S128x46 .f32)
  (a6 : FVec Ideal S46 .f32) (cA : FVec Ideal S2048x3 .f32)

/-- The distance array at `(i, j)`: the root of the squared distance of atom `i` from column `j`'s centre. -/
theorem dist_read (i j : Fin 2048) :
    RefRun.dist (F := Ideal) (diff a2 cA) (ix2 i j)
      = Ideal.sqrt (0 + ∑ k : Fin 3, (a2 (ix2 i k) - cA (ix2 j k)) * (a2 (ix2 i k) - cA (ix2 j k))) := by
  unfold RefRun.dist
  rw [norm_apply]
  refine congrArg (fun z => Ideal.sqrt (0 + z)) (Finset.sum_congr rfl fun k _ => ?_)
  unfold diff
  rw [diff_apply]

/-- The radial sum at `(i, j)` over the coefficients of atom `i`. -/
theorem sOut_read (d : FVec Ideal S2048x2048 .f32) (i j : Fin 2048) :
    sOut (F := Ideal) (coeffs a0 a5 a6) d (ix2 i j)
      = 0 + ∑ s : Fin 8, coef (fun k => a0 (ix2 i k)) a5 a6 ⟨8 + s.val, by omega⟩
          * Ideal.exp (-(coef (fun k => a0 (ix2 i k)) a5 a6 ⟨s.val, by omega⟩ * coef (fun k => a0 (ix2 i k)) a5 a6 ⟨s.val, by omega⟩)
              * d (ix2 i j)) := by
  unfold sOut
  rw [sOut_apply]
  refine congrArg (fun z => (0 : EReal) + z) (Finset.sum_congr rfl fun s _ => ?_)
  unfold ampS decayS
  rw [cols8_apply, mulf_apply, cols0_apply, coeffs_apply, coeffs_apply]

/-- The directed sum at `(i, j)` over the coefficients of atom `i`. -/
theorem pOut_read (d : FVec Ideal S2048x2048 .f32) (i j : Fin 2048) :
    pOut (F := Ideal) (coeffs a0 a5 a6) (diff a2 cA) d (ix2 i j)
      = 0 + ∑ p : Fin 6,
          (coef (fun k => a0 (ix2 i k)) a5 a6 ⟨22 + p.val, by omega⟩
            * Ideal.exp (-(coef (fun k => a0 (ix2 i k)) a5 a6 ⟨16 + p.val, by omega⟩ * coef (fun k => a0 (ix2 i k)) a5 a6 ⟨16 + p.val, by omega⟩)
                * (d (ix2 i j) * d (ix2 i j))))
          * (0 + ∑ k : Fin 3, coef (fun k => a0 (ix2 i k)) a5 a6 ⟨28 + 3 * p.val + k.val, by omega⟩
                * eabs (a2 (ix2 i k) - cA (ix2 j k))) := by
  unfold pOut radP angP
  rw [pOut_apply]
  refine congrArg (fun z => (0 : EReal) + z) (Finset.sum_congr rfl fun p _ => ?_)
  unfold ampP decayP dirP dirRaw
  rw [cols22_apply, mulf_apply, cols16_apply, coeffs_apply, coeffs_apply]
  refine congrArg (fun z => _ * ((0 : EReal) + z)) (Finset.sum_congr rfl fun k _ => ?_)
  unfold diff
  rw [cols28_apply, coeffs_apply, diff_apply]

/-- One atom against one column: the radial and the directed sums together are the specification's pair function
    at the column's centre. -/
theorem pair_read (i j : Fin 2048) :
    sOut (F := Ideal) (coeffs a0 a5 a6) (RefRun.dist (diff a2 cA)) (ix2 i j)
        + pOut (F := Ideal) (coeffs a0 a5 a6) (diff a2 cA) (RefRun.dist (diff a2 cA)) (ix2 i j)
      = corePair (fun k => a0 (ix2 i k)) (fun k => a2 (ix2 i k)) a5 a6 (fun k => cA (ix2 j k)) := by
  rw [sOut_read, pOut_read, dist_read]
  exact pair_eq (coef (fun k => a0 (ix2 i k)) a5 a6) (fun k => a2 (ix2 i k)) (fun k => cA (ix2 j k))

/-- The two segment sums together, at `(m, j)`, over any id vector. -/
theorem segPair_apply (ids : IVec S2048 32) (m : Fin 64) (j : Fin 2048) :
    addf (sSeg (F := Ideal) ids (sOut (coeffs a0 a5 a6) (RefRun.dist (diff a2 cA))))
         (pSeg (F := Ideal) ids (pOut (coeffs a0 a5 a6) (diff a2 cA) (RefRun.dist (diff a2 cA)))) (ix2 m j)
      = ∑ i ∈ Finset.univ.filter (fun i : Fin 2048 => (ids (ix1 i)).toInt = (m.val : ℤ)),
          corePair (fun k => a0 (ix2 i k)) (fun k => a2 (ix2 i k)) a5 a6 (fun k => cA (ix2 j k)) := by
  rw [addf_apply]
  unfold sSeg pSeg
  rw [segSum_apply, segSum_apply]
  exact split_eq_direct _ _ _ _ fun i => pair_read a0 a2 a5 a6 cA i j

end Pair

end Cert.ReferenceIdeal.RefValue

end
-- ==== Proof.RefOut.lean ====
/-
  The reference's result, entry `(m, j)`: the sum, over the atoms of molecule `m`, of what each contributes against
  the centre of the molecule that atom `j` belongs to.  The molecule of an atom is its global index, a number
  below 64 whatever the segment sizes are.
-/
import proofs.«130563_j43465069035926_2_alg».proof.Proof.RefValue
import proofs.«130563_j43465069035926_2_alg».proof.Proof.RefIndex

noncomputable section

open scoped BigOperators

namespace Cert.ReferenceIdeal.RefOut

open Idealize.ShloMosaic Idealize.ShloMosaic.ValueIdx
open Cert.ReferenceIdeal Cert.ReferenceIdeal.RefRun Cert.ReferenceIdeal.RefValue Cert.ReferenceIdeal.RefIndex Cert.Spec

/-- **The reference at an index.** -/
theorem refOut_apply (a0 : FVec Ideal S2048x128 .f32) (a2 : FVec Ideal S2048x3 .f32) (a3 : FVec Ideal S64x3 .f32)
    (a4 : IVec S64 32) (a5 : FVec Ideal S128x46 .f32) (a6 : FVec Ideal S46 .f32) (m : Fin 64) (j : Fin 2048) :
    refOut (F := Ideal) a0 a2 a3 a4 a5 a6 (ix2 m j)
      = ∑ i ∈ Finset.univ.filter (fun i : Fin 2048 => molFin a4 i = m),
          corePair (fun k => a0 (ix2 i k)) (fun k => a2 (ix2 i k)) a5 a6 (fun k => a3 (ix2 (molFin a4 j) k)) := by
  unfold refOut
  rw [segPair_apply a0 a2 a5 a6 (coordsA a3 a4) (molIds a4) m j]
  refine Finset.sum_congr (Finset.filter_congr fun i _ => molIds_toInt a4 i m) fun i _ => ?_
  refine congrArg (corePair (fun k => a0 (ix2 i k)) (fun k => a2 (ix2 i k)) a5 a6) (funext fun k => ?_)
  exact coordsA_apply a3 a4 j k

end Cert.ReferenceIdeal.RefOut

end
-- ==== Proof.lean ====
/-
  The claim, assembled.

  Both programs end with one array of 64 rows (molecules) and 2048 columns (atoms).  Each program's run is read back
  as a closed function of the argument arrays, and each function is read at an entry `(m, j)` as the same sum: over
  the atoms of molecule `m`, what the atom contributes against the centre of atom `j`'s molecule.  The reference adds
  an atom's contribution into its molecule's row for every column separately; the kernel multiplies by the 0/1
  indicator of the molecule, adds tile by tile on two cores, and picks the column's centre by the indicator again.
  The two arrangements agree by regrouping a finite sum and by `0 · x = 0`, `1 · x = x`; the molecule of an atom
  is the same number below 64 in both programs, whatever the segment sizes are.  The idealization rewrote no
  operation, so the word-level kernel and its idealization are one text.
-/
import proofs.«130563_j43465069035926_2_alg».proof.Defs
import proofs.«130563_j43465069035926_2_alg».proof.Proof.Gen.Kernel
import proofs.«130563_j43465069035926_2_alg».proof.Proof.Gen.Kernel.Frame
import proofs.«130563_j43465069035926_2_alg».proof.Proof.Gen.KernelIdeal
import proofs.«130563_j43465069035926_2_alg».proof.Proof.Gen.KernelIdeal.Frame
import proofs.«130563_j43465069035926_2_alg».proof.Proof.Gen.ReferenceIdeal
import proofs.«130563_j43465069035926_2_alg».proof.Proof.Gen.Pre_finite_inputs
import proofs.«130563_j43465069035926_2_alg».proof.Proof.KerValueFinal
import proofs.«130563_j43465069035926_2_alg».proof.Proof.KerOut
import proofs.«130563_j43465069035926_2_alg».proof.Proof.KerIndex
import proofs.«130563_j43465069035926_2_alg».proof.Proof.RefRun
import proofs.«130563_j43465069035926_2_alg».proof.Proof.RefOut
import Idealize.ShloMosaic.Adequacy
import Idealize.ShloMosaic.Init

noncomputable section

namespace Cert.Proof

open Idealize.ShloMosaic Idealize.ShloMosaic.ValueIdx Idealize.SL.Sem

/-- The word-level kernel runs, faults nowhere and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := Cert.ReferenceIdeal.RefRun.frame_ri

/-- The idealization rewrote nothing. -/
theorem preserves : Cert.preserves_Kernel_KernelIdeal := trivial

/-- The two programs' result arrays are one function of the argument arrays. -/
theorem result_eq (a0 : FVec Ideal Cert.ReferenceIdeal.S2048x128 .f32) (a2 : FVec Ideal Cert.ReferenceIdeal.S2048x3 .f32)
    (a3 : FVec Ideal Cert.ReferenceIdeal.S64x3 .f32) (a4 : IVec Cert.ReferenceIdeal.S64 32)
    (a5 : FVec Ideal Cert.ReferenceIdeal.S128x46 .f32) (a6 : FVec Ideal Cert.ReferenceIdeal.S46 .f32) :
    Cert.ReferenceIdeal.RefRun.refOut (F := Ideal) a0 a2 a3 a4 a5 a6
      = Cert.KernelIdeal.KerValue.kerOut (F := Ideal) a0 a2 a3 a4 a5 a6 := by
  funext idx
  obtain ⟨m, j, rfl⟩ : ∃ (m : Fin 64) (j : Fin 2048), idx = ix2 m j := ⟨idx 0, idx 1, eq_ix2 idx⟩
  rw [Cert.ReferenceIdeal.RefOut.refOut_apply]
  refine Eq.trans ?_ (Cert.KernelIdeal.KerOut.kerOut_apply_of a0 a2 a3 a4 a5 a6 (Cert.KernelIdeal.KerIndex.molFin (F := Ideal) a4)
    (Cert.KernelIdeal.KerIndex.molIds_eq_ofNat_iff (F := Ideal) a4) m j).symm
  simp only [Cert.KernelIdeal.KerIndex.molFin_eq]
  rfl

/-- From memories agreeing on the arguments both idealized programs run and end with equal results. -/
theorem algebraic : Cert.algebraic_KernelIdeal_ReferenceIdeal := by
  intro m ρ m' ρ' _ hagree
  refine ⟨_, Cert.KernelIdeal.KerValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, _, h2, h3, h4, h5, h6⟩ := hagree c
  rw [h0, h2, h3, h4, h5, h6]
  exact result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
